-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000x64 : Shape := ⟨3, ![8, 100000, 64]⟩
abbrev S2x3200000 : Shape := ⟨2, ![2, 3200000]⟩
abbrev S196x64 : Shape := ⟨2, ![196, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1x3200000 : Shape := ⟨2, ![1, 3200000]⟩
abbrev S3200000 : Shape := ⟨1, ![3200000]⟩

class Facts : Prop where
  bcast_S_S8x100000x64 : S_.BroadcastsInDim S8x100000x64 (![] : Fin 0 → Fin S8x100000x64.rank)
  reducesTo_S8x100000x64_S_d0_1_2 : S8x100000x64.ReducesTo [0, 1, 2] S_
  h_S_ : 0 < S_.numel
  bcast_S_S196x64 : S_.BroadcastsInDim S196x64 (![] : Fin 0 → Fin S196x64.rank)
  reducesTo_S196x64_S_d0_1 : S196x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg1 : IVec S2x3200000 32) (main_v33 : IVec S_ 1) : IVec S_ 1 :=
  let main_v34 : IVec S1x3200000 32 := (extractStridedSlice S1x3200000 ![1, 0] · slices_S2x3200000_S1x3200000_1_0) main_arg1
  let main_v35 : IVec S3200000 32 := shapeCast S3200000 main_v34 shapeCasts_S1x3200000_S3200000
  let main_c_12 : IVec S_ 32 := constantI S_ 32 0#32
  let main_v36 : IVec S3200000 32 := broadcastInDim S3200000 ![] bcast_S_S3200000 main_c_12
  let main_v37 : IVec S3200000 1 := cmpi .sge main_v35 main_v36
  let main_v38 : IVec S1x3200000 32 := (extractStridedSlice S1x3200000 ![1, 0] · slices_S2x3200000_S1x3200000_1_0) main_arg1
  let main_v39 : IVec S3200000 32 := shapeCast S3200000 main_v38 shapeCasts_S1x3200000_S3200000
  let main_c_13 : IVec S_ 32 := constantI S_ 32 100000#32
  let main_v40 : IVec S3200000 32 := broadcastInDim S3200000 ![] bcast_S_S3200000 main_c_13
  let main_v41 : IVec S3200000 1 := cmpi .slt main_v39 main_v40
  let main_v42 : IVec S3200000 1 := andi main_v37 main_v41
  let main_c_14 : IVec S_ 1 := constantI S_ 1 1#1
  let main_v43 : IVec S_ 1 := (fun x v => Host.reduce IntOp.andi x v reducesTo_S3200000_S_d0 h_S_) main_v42 main_c_14
  let main_v44 : IVec S_ 1 := andi main_v33 main_v43
  main_v44

def fn_part1 {F : FTy → Type} [FloatOps F] (main_arg1 : IVec S2x3200000 32) (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S8x100000x64 .f32) (main_arg1 : IVec S2x3200000 32) (main_arg2 : FVec F S196x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S8x100000x64 .f32 := Host.absf main_arg0
  let main_cst : FVec F S_ .f32 := constant S_ .f32 0x7F800000#32
  let main_v1 : FVec F S8x100000x64 .f32 := broadcastInDim S8x100000x64 ![] bcast_S_S8x100000x64 main_cst
  let main_v2 : IVec S8x100000x64 1 := cmpf .olt main_v0 main_v1
  let main_c : IVec S_ 1 := constantI S_ 1 1#1
  let main_v3 : IVec S_ 1 := (fun x v => Host.reduce IntOp.andi x v reducesTo_S8x100000x64_S_d0_1_2 h_S_) main_v2 main_c
  let main_v4 : FVec F S196x64 .f32 := Host.absf main_arg2
  let main_cst_0 : FVec F S_ .f32 := constant S_ .f32 0x7F800000#32
  let main_v5 : FVec F S196x64 .f32 := broadcastInDim S196x64 ![] bcast_S_S196x64 main_cst_0
  let main_v6 : IVec S196x64 1 := cmpf .olt main_v4 main_v5
  let main_c_1 : IVec S_ 1 := constantI S_ 1 1#1
  let main_v7 : IVec S_ 1 := (fun x v => Host.reduce IntOp.andi x v reducesTo_S196x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_arg6 main_arg7 main_v13 main_v16
-- ==== Kernel.lean ====
abbrev S8x100000x64 : Shape := ⟨3, ![8, 100000, 64]⟩
abbrev S2x3200000 : Shape := ⟨2, ![2, 3200000]⟩
abbrev S196x64 : Shape := ⟨2, ![196, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S8x50000x128 : Shape := ⟨3, ![8, 50000, 128]⟩
abbrev S8x1x128 : Shape := ⟨3, ![8, 1, 128]⟩
abbrev S1x10000x128 : Shape := ⟨3, ![1, 10000, 128]⟩
abbrev S1x1x128 : Shape := ⟨3, ![1, 1, 128]⟩
abbrev S1x128 : Shape := ⟨2, ![1, 128]⟩
abbrev S10000x128 : Shape := ⟨2, ![10000, 128]⟩
abbrev S128 : Shape := ⟨1, ![128]⟩
abbrev S8x128 : Shape := ⟨2, ![8, 128]⟩
abbrev S8x64 : Shape := ⟨2, ![8, 64]⟩
abbrev S_ : Shape := ⟨0, ![]⟩
abbrev S1x3200000 : Shape := ⟨2, ![1, 3200000]⟩
abbrev S3200000 : Shape := ⟨1, ![3200000]⟩
abbrev S100000 : Shape := ⟨1, ![100000]⟩
abbrev S3200000x1 : Shape := ⟨2, ![3200000, 1]⟩
abbrev S4 : Shape := ⟨1, ![4]⟩
abbrev S1x4 : Shape := ⟨2, ![1, 4]⟩
abbrev S8x4 : Shape := ⟨2, ![8, 4]⟩
abbrev S8x196 : Shape := ⟨2, ![8, 196]⟩
abbrev S1x64 : Shape := ⟨2, ![1, 64]⟩
abbrev S8x32 : Shape := ⟨2, ![8, 32]⟩
abbrev S1x32 : Shape := ⟨2, ![1, 32]⟩
abbrev S8x1 : Shape := ⟨2, ![8, 1]⟩
abbrev S1x1 : Shape := ⟨2, ![1, 1]⟩
abbrev S8 : Shape := ⟨1, ![8]⟩
abbrev S2 : Shape := ⟨1, ![2]⟩

abbrev nBuf : Space → Nat
  | .hbm => 134
  | .vmem => 11
  | .smem => 0
  | _ => 0

abbrev hbmTy0_0 (i : Nat) : BufTy := match i % 128 with
  | 0 => ⟨S8x100000x64, .f32⟩
  | 1 => ⟨S2x3200000, .i32⟩
  | 2 => ⟨S196x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S8x50000x128, .f32⟩
  | 9 => ⟨S8x1x128, .f32⟩
  | 10 => ⟨S8x1x128, .f32⟩
  | 11 => ⟨S8x1x128, .f32⟩
  | 12 => ⟨S8x128, .f32⟩
  | 13 => ⟨S8x128, .f32⟩
  | 14 => ⟨S8x128, .f32⟩
  | 15 => ⟨S8x64, .f32⟩
  | 16 => ⟨S8x64, .f32⟩
  | 17 => ⟨S8x64, .f32⟩
  | 18 => ⟨S8x64, .f32⟩
  | 19 => ⟨S8x64, .f32⟩
  | 20 => ⟨S8x64, .f32⟩
  | 21 => ⟨S8x64, .f32⟩
  | 22 => ⟨S8x64, .f32⟩
  | 23 => ⟨S8x64, .f32⟩
  | 24 => ⟨S_, .f32⟩
  | 25 => ⟨S8x64, .f32⟩
  | 26 => ⟨S8x64, .f32⟩
  | 27 => ⟨S8x64, .f32⟩
  | 28 => ⟨S_, .f32⟩
  | 29 => ⟨S8x64, .f32⟩
  | 30 => ⟨S8x64, .f32⟩
  | 31 => ⟨S8x64, .f32⟩
  | 32 => ⟨S_, .f32⟩
  | 33 => ⟨S8x64, .f32⟩
  | 34 => ⟨S8x64, .f32⟩
  | 35 => ⟨S_, .f32⟩
  | 36 => ⟨S8x64, .f32⟩
  | 37 => ⟨S8x64, .f32⟩
  | 38 => ⟨S8x64, .f32⟩
  | 39 => ⟨S1x3200000, .i32⟩
  | 40 => ⟨S3200000, .i32⟩
  | 41 => ⟨S_, .f32⟩
  | 42 => ⟨S100000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S_, .f32⟩
  | 52 => ⟨S3200000, .f32⟩
  | 53 => ⟨S100000, .f32⟩
  | 54 => ⟨S_, .i32⟩
  | 55 => ⟨S_, .f32⟩
  | 56 => ⟨S_, .f32⟩
  | 57 => ⟨S1, .f32⟩
  | 58 => ⟨S_, .f32⟩
  | 59 => ⟨S1, .f32⟩
  | 60 => ⟨S1, .f32⟩
  | 61 => ⟨S100000, .f32⟩
  | 62 => ⟨S100000, .f32⟩
  | 63 => ⟨S100000, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .i1⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1, .f32⟩
  | 80 => ⟨S1, .f32⟩
  | 81 => ⟨S1, .f32⟩
  | 82 => ⟨S1, .f32⟩
  | 83 => ⟨S4, .f32⟩
  | 84 => ⟨S1x4, .f32⟩
  | 85 => ⟨S8x4, .f32⟩
  | 86 => ⟨S8x196, .f32⟩
  | 87 => ⟨S8x64, .f32⟩
  | 88 => ⟨S1x64, .f32⟩
  | 89 => ⟨S8x64, .f32⟩
  | 90 => ⟨S8x64, .f32⟩
  | 91 => ⟨S_, .f32⟩
  | 92 => ⟨S8x64, .f32⟩
  | 93 => ⟨S8x64, .f32⟩
  | 94 => ⟨S8x32, .f32⟩
  | 95 => ⟨S1x32, .f32⟩
  | 96 => ⟨S8x32, .f32⟩
  | 97 => ⟨S8x32, .f32⟩
  | 98 => ⟨S_, .f32⟩
  | 99 => ⟨S8x32, .f32⟩
  | 100 => ⟨S8x32, .f32⟩
  | 101 => ⟨S8x1, .f32⟩
  | 102 => ⟨S1x1, .f32⟩
  | 103 => ⟨S8x1, .f32⟩
  | 104 => ⟨S8x1, .f32⟩
  | 105 => ⟨S8x1, .f32⟩
  | 106 => ⟨S8x1, .f32⟩
  | 107 => ⟨S_, .f32⟩
  | 108 => ⟨S8x1, .f32⟩
  | 109 => ⟨S8x1, .f32⟩
  | 110 => ⟨S_, .f32⟩
  | 111 => ⟨S8x1, .f32⟩
  | 112 => ⟨S8x1, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S8, .f32⟩
  | 121 => ⟨S8, .f32⟩
  | 122 => ⟨S8, .f32⟩
  | 123 => ⟨S_, .f32⟩
  | 124 => ⟨S_, .f32⟩
  | 125 => ⟨S_, .f32⟩
  | 126 => ⟨S_, .f32⟩
  | 127 => ⟨S_, .f32⟩
  | _ => ⟨S8x100000x64, .f32⟩

abbrev hbmTy0_1 (i : Nat) : BufTy := match i % 128 with
  | 0 => ⟨S_, .f32⟩
  | 1 => ⟨S_, .f32⟩
  | 2 => ⟨S_, .f32⟩
  | 3 => ⟨S1, .f32⟩
  | 4 => ⟨S1, .f32⟩
  | 5 => ⟨S2, .f32⟩
  | _ => ⟨S8x100000x64, .f32⟩

abbrev hbmTy (i : Nat) : BufTy := match i / 128 with
  | 0 => hbmTy0_0 i
  | 1 => hbmTy0_1 i
  | _ => ⟨S8x100000x64, .f32⟩

abbrev bufTy : (tb : Table) → Fin (tcTables nBuf tb) → BufTy
  | .hbm, ⟨i, _⟩ => hbmTy i
  | .local _ .vmem, ⟨0, _⟩ => ⟨S1x10000x128, .f32⟩
  | .local _ .vmem, ⟨1, _⟩ => ⟨S1x10000x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | _, _ => ⟨S8x100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_cst_0 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_cst_1 : Ref sig .tc := ⟨.hbm, 65, rfl⟩
abbrev main_call0_call0_v8 : Ref sig .tc := ⟨.hbm, 66, rfl⟩
abbrev main_call0_call0_cst_2 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_cst_3 : Ref sig .tc := ⟨.hbm, 70, rfl⟩
abbrev main_call0_call0_v11 : Ref sig .tc := ⟨.hbm, 71, rfl⟩
abbrev main_call0_call0_cst_4 : Ref sig .tc := ⟨.hbm, 72, rfl⟩
abbrev main_call0_call0_call0_v0 : Ref sig .tc := ⟨.hbm, 73, rfl⟩
abbrev main_call0_v0 : Ref sig .tc := ⟨.hbm, 74, rfl⟩
abbrev main_v36 : Ref sig .tc := ⟨.hbm, 75, rfl⟩
abbrev main_cst_7 : Ref sig .tc := ⟨.hbm, 76, rfl⟩
abbrev main_cst_8 : Ref sig .tc := ⟨.hbm, 77, rfl⟩
abbrev main_cst_9 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_call1_cst : Ref sig .tc := ⟨.hbm, 91, rfl⟩
abbrev main_call1_v0 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_call2_cst : Ref sig .tc := ⟨.hbm, 98, rfl⟩
abbrev main_call2_v0 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_10 : Ref sig .tc := ⟨.hbm, 107, rfl⟩
abbrev main_v61 : Ref sig .tc := ⟨.hbm, 108, rfl⟩
abbrev main_v62 : Ref sig .tc := ⟨.hbm, 109, rfl⟩
abbrev main_cst_11 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_v67 : Ref sig .tc := ⟨.hbm, 116, rfl⟩
abbrev main_cst_13 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_14 : Ref sig .tc := ⟨.hbm, 123, rfl⟩
abbrev main_v73 : Ref sig .tc := ⟨.hbm, 124, rfl⟩
abbrev main_cst_15 : Ref sig .tc := ⟨.hbm, 125, rfl⟩
abbrev main_v74 : Ref sig .tc := ⟨.hbm, 126, rfl⟩
abbrev main_cst_16 : Ref sig .tc := ⟨.hbm, 127, rfl⟩
abbrev main_v75 : Ref sig .tc := ⟨.hbm, 128, rfl⟩
abbrev main_cst_17 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v27 : BitVec 1 := Scalar.cmpi .eq arg1 c4_i32
  let v28 : BitVec 32 := Scalar.extui v27
  let c0_i32_17 : BitVec 32 := 0#32
  let v29 : BitVec 1 := Scalar.cmpi .ne v28 c0_i32_17
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x100000x64_S8x50000x128 : S8x100000x64.ShapeCasts S8x50000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  reduces_S10000x128_S128 : S10000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S8x1x128_S8x128 : S8x1x128.ShapeCasts S8x128
  slices_S8x128_S8x64_0_0 : S8x128.Slices ![0, 0] S8x64
  slices_S8x128_S8x64_0_64 : S8x128.Slices ![0, 64] S8x64
  bcast_S_S8x64 : S_.BroadcastsInDim S8x64 (![] : Fin 0 → Fin S8x64.rank)
  slices_S2x3200000_S1x3200000_1_0 : S2x3200000.Slices ![1, 0] S1x3200000
  shapeCasts_S1x3200000_S3200000 : S1x3200000.ShapeCasts S3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S100000_S_d0 : S100000.ReducesTo [0] S_
  h_S_ : 0 < S_.numel
  bcast_S_S1 : S_.BroadcastsInDim S1 (![] : Fin 0 → Fin S1.rank)
  bcast_S1_S100000_0 : S1.BroadcastsInDim S100000 (![0] : Fin 1 → Fin S100000.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  concatenates_S8x64_S8x64_S8x64_S8x4_S8x196_d1 : Shape.Concatenates [S8x64, S8x64, S8x64, S8x4] S8x196 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  shapeCasts_S8x1_S8 : S8x1.ShapeCasts S8
  bcast_S_S8 : S_.BroadcastsInDim S8 (![] : Fin 0 → Fin S8.rank)
  reducesTo_S8_S_d0 : S8.ReducesTo [0] S_
  concatenates_S1_S1_S2_d0 : Shape.Concatenates [S1, S1] S2 0
  scatter_S100000_S3200000x1_S3200000_n_0_0_1_wf : ScatterDims.WF S100000 S3200000x1 S3200000 [] [0] [0] 1
  dot_S8x196_S196x64_S8x64_1_0_0_1_n_n_wf : DotDims.WF S8x196 S196x64 S8x64 [1] [0] [0] [1] [] []
  dot_S8x64_S64x32_S8x32_1_0_0_1_n_n_wf : DotDims.WF S8x64 S64x32 S8x32 [1] [0] [0] [1] [] []
  dot_S8x32_S32x1_S8x1_1_0_0_1_n_n_wf : DotDims.WF S8x32 S32x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S8x50000x128.size a
  hwx0_0 : ∀ i : grid0.Coords, EltTy.bits .f32 = 32 ∨ (Rect.block (s := S8x50000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S8x1x128.size a
  hwx0_1 : ∀ i : grid0.Coords, EltTy.bits .f32 = 32 ∨ (Rect.block (s := S8x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S8x196_S196x64_S8x64_1_0_0_1_n_n : DotDims S8x196 S196x64 S8x64 where
  lhsContracting := [1]
  rhsContracting := [0]
  lhsNonContracting := [0]
  rhsNonContracting := [1]
  lhsBatch := []
  rhsBatch := []
  wf := dot_S8x196_S196x64_S8x64_1_0_0_1_n_n_wf
def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

abbrev win0_0 : Pipeline.Window sig grid0 :=
  Pipeline.Window.ofSpec (Memref.whole main_v0) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_2) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond2 i == 1#1) | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x100000x64 : Shape := ⟨3, ![8, 100000, 64]⟩
abbrev S2x3200000 : Shape := ⟨2, ![2, 3200000]⟩
abbrev S196x64 : Shape := ⟨2, ![196, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S8x64 : Shape := ⟨2, ![8, 64]⟩
abbrev S8x1x64 : Shape := ⟨3, ![8, 1, 64]⟩
abbrev S100000 : Shape := ⟨1, ![100000]⟩
abbrev S1x3200000 : Shape := ⟨2, ![1, 3200000]⟩
abbrev S3200000 : Shape := ⟨1, ![3200000]⟩
abbrev S3200000x1 : Shape := ⟨2, ![3200000, 1]⟩
abbrev S4 : Shape := ⟨1, ![4]⟩
abbrev S1x4 : Shape := ⟨2, ![1, 4]⟩
abbrev S8x4 : Shape := ⟨2, ![8, 4]⟩
abbrev S8x196 : Shape := ⟨2, ![8, 196]⟩
abbrev S1x64 : Shape := ⟨2, ![1, 64]⟩
abbrev S8x32 : Shape := ⟨2, ![8, 32]⟩
abbrev S1x32 : Shape := ⟨2, ![1, 32]⟩
abbrev S8x1 : Shape := ⟨2, ![8, 1]⟩
abbrev S1x1 : Shape := ⟨2, ![1, 1]⟩
abbrev S8 : Shape := ⟨1, ![8]⟩
abbrev S2 : Shape := ⟨1, ![2]⟩

abbrev nBuf : Space → Nat
  | .hbm => 137
  | .vmem => 0
  | .smem => 0
  | _ => 0

abbrev hbmTy0_0 (i : Nat) : BufTy := match i % 128 with
  | 0 => ⟨S8x100000x64, .f32⟩
  | 1 => ⟨S2x3200000, .i32⟩
  | 2 => ⟨S196x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S_, .f32⟩
  | 9 => ⟨S8x64, .f32⟩
  | 10 => ⟨S_, .f32⟩
  | 11 => ⟨S8x64, .f32⟩
  | 12 => ⟨S8x64, .f32⟩
  | 13 => ⟨S_, .f32⟩
  | 14 => ⟨S8x64, .f32⟩
  | 15 => ⟨S_, .i32⟩
  | 16 => ⟨S_, .f32⟩
  | 17 => ⟨S8x64, .f32⟩
  | 18 => ⟨S8x1x64, .f32⟩
  | 19 => ⟨S_, .f32⟩
  | 20 => ⟨S8x1x64, .f32⟩
  | 21 => ⟨S8x1x64, .f32⟩
  | 22 => ⟨S8x100000x64, .f32⟩
  | 23 => ⟨S8x100000x64, .f32⟩
  | 24 => ⟨S8x100000x64, .f32⟩
  | 25 => ⟨S_, .f32⟩
  | 26 => ⟨S_, .f32⟩
  | 27 => ⟨S_, .f32⟩
  | 28 => ⟨S_, .f32⟩
  | 29 => ⟨S8x64, .f32⟩
  | 30 => ⟨S8x64, .f32⟩
  | 31 => ⟨S8x64, .f32⟩
  | 32 => ⟨S_, .f32⟩
  | 33 => ⟨S_, .i1⟩
  | 34 => ⟨S_, .f32⟩
  | 35 => ⟨S_, .f32⟩
  | 36 => ⟨S8x64, .f32⟩
  | 37 => ⟨S8x64, .f32⟩
  | 38 => ⟨S8x64, .f32⟩
  | 39 => ⟨S_, .f32⟩
  | 40 => ⟨S100000, .f32⟩
  | 41 => ⟨S1x3200000, .i32⟩
  | 42 => ⟨S3200000, .i32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S_, .f32⟩
  | 52 => ⟨S3200000, .f32⟩
  | 53 => ⟨S100000, .f32⟩
  | 54 => ⟨S_, .f32⟩
  | 55 => ⟨S_, .f32⟩
  | 56 => ⟨S_, .f32⟩
  | 57 => ⟨S_, .f32⟩
  | 58 => ⟨S_, .i32⟩
  | 59 => ⟨S_, .f32⟩
  | 60 => ⟨S_, .f32⟩
  | 61 => ⟨S1, .f32⟩
  | 62 => ⟨S_, .f32⟩
  | 63 => ⟨S1, .f32⟩
  | 64 => ⟨S1, .f32⟩
  | 65 => ⟨S100000, .f32⟩
  | 66 => ⟨S100000, .f32⟩
  | 67 => ⟨S100000, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .i1⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1, .f32⟩
  | 83 => ⟨S1, .f32⟩
  | 84 => ⟨S1, .f32⟩
  | 85 => ⟨S1, .f32⟩
  | 86 => ⟨S4, .f32⟩
  | 87 => ⟨S1x4, .f32⟩
  | 88 => ⟨S8x4, .f32⟩
  | 89 => ⟨S8x196, .f32⟩
  | 90 => ⟨S8x64, .f32⟩
  | 91 => ⟨S1x64, .f32⟩
  | 92 => ⟨S8x64, .f32⟩
  | 93 => ⟨S8x64, .f32⟩
  | 94 => ⟨S_, .f32⟩
  | 95 => ⟨S8x64, .f32⟩
  | 96 => ⟨S8x64, .f32⟩
  | 97 => ⟨S8x32, .f32⟩
  | 98 => ⟨S1x32, .f32⟩
  | 99 => ⟨S8x32, .f32⟩
  | 100 => ⟨S8x32, .f32⟩
  | 101 => ⟨S_, .f32⟩
  | 102 => ⟨S8x32, .f32⟩
  | 103 => ⟨S8x32, .f32⟩
  | 104 => ⟨S8x1, .f32⟩
  | 105 => ⟨S1x1, .f32⟩
  | 106 => ⟨S8x1, .f32⟩
  | 107 => ⟨S8x1, .f32⟩
  | 108 => ⟨S8x1, .f32⟩
  | 109 => ⟨S8x1, .f32⟩
  | 110 => ⟨S_, .f32⟩
  | 111 => ⟨S8x1, .f32⟩
  | 112 => ⟨S8x1, .f32⟩
  | 113 => ⟨S_, .f32⟩
  | 114 => ⟨S8x1, .f32⟩
  | 115 => ⟨S8x1, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S8, .f32⟩
  | 125 => ⟨S8, .f32⟩
  | 126 => ⟨S_, .f32⟩
  | 127 => ⟨S_, .f32⟩
  | _ => ⟨S8x100000x64, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S1, .f32⟩
  | 7 => ⟨S1, .f32⟩
  | 8 => ⟨S2, .f32⟩
  | _ => ⟨S8x100000x64, .f32⟩

abbrev hbmTy (i : Nat) : BufTy := match i / 128 with
  | 0 => hbmTy0_0 i
  | 1 => hbmTy0_1 i
  | _ => ⟨S8x100000x64, .f32⟩

abbrev bufTy : (tb : Table) → Fin (tcTables nBuf tb) → BufTy
  | .hbm, ⟨i, _⟩ => hbmTy i
  | _, _ => ⟨S8x100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_cst_3 : Ref sig .tc := ⟨.hbm, 32, rfl⟩
abbrev main_call0_call0_v12 : Ref sig .tc := ⟨.hbm, 33, rfl⟩
abbrev main_call0_call0_cst_4 : Ref sig .tc := ⟨.hbm, 34, rfl⟩
abbrev main_call0_call0_call0_v0 : Ref sig .tc := ⟨.hbm, 35, rfl⟩
abbrev main_call0_call0_call0_v1 : Ref sig .tc := ⟨.hbm, 36, rfl⟩
abbrev main_call0_v0 : Ref sig .tc := ⟨.hbm, 37, rfl⟩
abbrev main_v4 : Ref sig .tc := ⟨.hbm, 38, rfl⟩
abbrev main_cst_2 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_c_3 : Ref sig .tc := ⟨.hbm, 43, rfl⟩
abbrev main_v8 : Ref sig .tc := ⟨.hbm, 44, rfl⟩
abbrev main_v9 : Ref sig .tc := ⟨.hbm, 45, rfl⟩
abbrev main_c_4 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_5 : Ref sig .tc := ⟨.hbm, 51, rfl⟩
abbrev main_v14 : Ref sig .tc := ⟨.hbm, 52, rfl⟩
abbrev main_v15 : Ref sig .tc := ⟨.hbm, 53, rfl⟩
abbrev main_cst_6 : Ref sig .tc := ⟨.hbm, 54, rfl⟩
abbrev main_v16 : Ref sig .tc := ⟨.hbm, 55, rfl⟩
abbrev main_cst_7 : Ref sig .tc := ⟨.hbm, 56, rfl⟩
abbrev main_v17 : Ref sig .tc := ⟨.hbm, 57, rfl⟩
abbrev main_c_8 : Ref sig .tc := ⟨.hbm, 58, rfl⟩
abbrev main_call1_call0_cst : Ref sig .tc := ⟨.hbm, 59, rfl⟩
abbrev main_call1_call0_v0 : Ref sig .tc := ⟨.hbm, 60, rfl⟩
abbrev main_call1_call0_v1 : Ref sig .tc := ⟨.hbm, 61, rfl⟩
abbrev main_call1_call0_cst_0 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_v7 : Ref sig .tc := ⟨.hbm, 68, rfl⟩
abbrev main_call1_call0_cst_1 : Ref sig .tc := ⟨.hbm, 69, rfl⟩
abbrev main_call1_call0_v8 : Ref sig .tc := ⟨.hbm, 70, rfl⟩
abbrev main_call1_call0_cst_2 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_cst_3 : Ref sig .tc := ⟨.hbm, 74, rfl⟩
abbrev main_call1_call0_v11 : Ref sig .tc := ⟨.hbm, 75, rfl⟩
abbrev main_call1_call0_cst_4 : Ref sig .tc := ⟨.hbm, 76, rfl⟩
abbrev main_call1_call0_call0_v0 : Ref sig .tc := ⟨.hbm, 77, rfl⟩
abbrev main_call1_v0 : Ref sig .tc := ⟨.hbm, 78, rfl⟩
abbrev main_v18 : Ref sig .tc := ⟨.hbm, 79, rfl⟩
abbrev main_cst_9 : Ref sig .tc := ⟨.hbm, 80, rfl⟩
abbrev main_cst_10 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_call2_cst : Ref sig .tc := ⟨.hbm, 94, rfl⟩
abbrev main_call2_v0 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_call3_cst : Ref sig .tc := ⟨.hbm, 101, rfl⟩
abbrev main_call3_v0 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_11 : Ref sig .tc := ⟨.hbm, 110, rfl⟩
abbrev main_v43 : Ref sig .tc := ⟨.hbm, 111, rfl⟩
abbrev main_v44 : Ref sig .tc := ⟨.hbm, 112, rfl⟩
abbrev main_cst_12 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_cst_13 : Ref sig .tc := ⟨.hbm, 117, rfl⟩
abbrev main_v48 : Ref sig .tc := ⟨.hbm, 118, rfl⟩
abbrev main_v49 : Ref sig .tc := ⟨.hbm, 119, rfl⟩
abbrev main_cst_14 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_cst_15 : Ref sig .tc := ⟨.hbm, 126, rfl⟩
abbrev main_v55 : Ref sig .tc := ⟨.hbm, 127, rfl⟩
abbrev main_cst_16 : Ref sig .tc := ⟨.hbm, 128, rfl⟩
abbrev main_v56 : Ref sig .tc := ⟨.hbm, 129, rfl⟩
abbrev main_cst_17 : Ref sig .tc := ⟨.hbm, 130, rfl⟩
abbrev main_v57 : Ref sig .tc := ⟨.hbm, 131, rfl⟩
abbrev main_cst_18 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩

abbrev nD : Nat := 1
abbrev τ : Topo := Topo.v7x

variable {F : FTy → Type} [FloatOps F]

class Facts₀ : Prop where
  reducesTo_S8x100000x64_S8x64_d1 : S8x100000x64.ReducesTo [1] S8x64
  h_S_ : 0 < S_.numel
  bcast_S_S8x64 : S_.BroadcastsInDim S8x64 (![] : Fin 0 → Fin S8x64.rank)
  bcast_S8x64_S8x1x64_0_2 : S8x64.BroadcastsInDim S8x1x64 (![0, 2] : Fin 2 → Fin S8x1x64.rank)
  bcast_S_S8x1x64 : S_.BroadcastsInDim S8x1x64 (![] : Fin 0 → Fin S8x1x64.rank)
  bcast_S8x1x64_S8x100000x64_0_1_2 : S8x1x64.BroadcastsInDim S8x100000x64 (![0, 1, 2] : Fin 3 → Fin S8x100000x64.rank)
  bcast_S_S100000 : S_.BroadcastsInDim S100000 (![] : Fin 0 → Fin S100000.rank)
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S100000_S_d0 : S100000.ReducesTo [0] S_
  bcast_S_S1 : S_.BroadcastsInDim S1 (![] : Fin 0 → Fin S1.rank)
  bcast_S1_S100000_0 : S1.BroadcastsInDim S100000 (![0] : Fin 1 → Fin S100000.rank)
  concatenates_S1_S1_S1_S1_S4_d0 : Shape.Concatenates [S1, S1, S1, S1] S4 0
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  concatenates_S8x64_S8x64_S8x64_S8x4_S8x196_d1 : Shape.Concatenates [S8x64, S8x64, S8x64, S8x4] S8x196 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  shapeCasts_S8x1_S8 : S8x1.ShapeCasts S8
  bcast_S_S8 : S_.BroadcastsInDim S8 (![] : Fin 0 → Fin S8.rank)
  reducesTo_S8_S_d0 : S8.ReducesTo [0] S_
  concatenates_S1_S1_S2_d0 : Shape.Concatenates [S1, S1] S2 0
  scatter_S100000_S3200000x1_S3200000_n_0_0_1_wf : ScatterDims.WF S100000 S3200000x1 S3200000 [] [0] [0] 1
  dot_S8x196_S196x64_S8x64_1_0_0_1_n_n_wf : DotDims.WF S8x196 S196x64 S8x64 [1] [0] [0] [1] [] []
  dot_S8x64_S64x32_S8x32_1_0_0_1_n_n_wf : DotDims.WF S8x64 S64x32 S8x32 [1] [0] [0] [1] [] []
  dot_S8x32_S32x1_S8x1_1_0_0_1_n_n_wf : DotDims.WF S8x32 S32x1 S8x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S8x196_S196x64_S8x64_1_0_0_1_n_n : DotDims S8x196 S196x64 S8x64 where
  lhsContracting := [1]
  rhsContracting := [0]
  lhsNonContracting := [0]
  rhsNonContracting := [1]
  lhsBatch := []
  rhsBatch := []
  wf := dot_S8x196_S196x64_S8x64_1_0_0_1_n_n_wf
def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

class Facts : Prop extends Facts₀ where

variable [Facts]
-- ==== Proof.K.Kit.lean ====
/-
  The pooling kernel's program around its one region: a reshape of x before it, and after it nine stretches of host
  operations (the fold of the two lane halves, mean / variance / maximum, the degree histogram, the small network).
  This module fixes what the frame run is stated over: the buffer contents when the region is entered, the program as
  "lines, region, lines", what the later lines may touch, and the two conditions the body branches on — the first
  node tile of a batch (reset the accumulators) and the last (write them out) — in closed form over the 8 x 5 grid.
-/
import proofs.«152827_j5093831213700_2_alg».proof.Proof.Gen.Kernel.Launch
import proofs.«152827_j5093831213700_2_alg».proof.Proof.Gen.Kernel.Skeleton
import proofs.«152827_j5093831213700_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The stretches of host operations after the region, in order. -/
abbrev tail : List (List (HloOp τ sig (Elt F))) := [hostOps1, hostOps1_1, hostOps1_2, hostOps1_3, hostOps1_4, hostOps1_5, hostOps1_6, hostOps1_7, hostOps1_8]

/-- The buffer contents when the region is entered: the starting contents after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The program is the reshape, the region, then the nine later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- The later lines touch only unscoped TensorCore buffers: the pipeline's arrays and the buffers that bypass the region. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! ## The body's two conditions -/

/-- "This is a batch's first node tile": the second grid coordinate is 0. -/
abbrev isFirst (i : grid0.Coords) : Prop := (Scalar.cmpi .ne (Scalar.extui (Scalar.cmpi .eq (BitVec.ofNat 32 (i 1).val) 0#32)) 0#32) = 1#1
/-- Over the 40 grid points, in row-major order: the points whose number is 0 mod 5. -/
theorem isFirst_iff : ∀ t : Fin cfg0.N, isFirst (grid0.coords t) ↔ t.val % 5 = 0 :=
  (by decide +kernel : ∀ t : Fin grid0.N, isFirst (grid0.coords t) ↔ t.val % 5 = 0)

/-- "This is a batch's last node tile": the second grid coordinate is 4. -/
abbrev isLast (i : grid0.Coords) : Prop := k0_cond2 i = 1#1
/-- The points whose number is 4 mod 5. -/
theorem isLast_iff : ∀ t : Fin cfg0.N, isLast (grid0.coords t) ↔ t.val % 5 = 4 :=
  (by decide +kernel : ∀ t : Fin grid0.N, isLast (grid0.coords t) ↔ t.val % 5 = 4)

/-! ## The three accumulators -/

/-- The running sum, the running sum of squares and the running maximum live in three scratch buffers of the kernel's own. -/
abbrev accSum : Memref sig .tc .vmem S1x128 .f32 := Memref.whole cc0_scratch0
abbrev accSq : Memref sig .tc .vmem S1x128 .f32 := Memref.whole cc0_scratch1
abbrev accMax : Memref sig .tc .vmem S1x128 .f32 := Memref.whole cc0_scratch2

/-- Between grid points the kernel holds its three accumulators, each at some contents, and the generator register. -/
theorem inv_eq (c : Dev nD) :
    (Pipeline.ΦA spec0 c : sProp 𝕄)
      = iprop(iprop((∃ d, owns (c : Thread nD τ) accSum fullShare d) ∗ (∃ d, owns (c : Thread nD τ) accSq fullShare d)
          ∗ (∃ d, owns (c : Thread nD τ) accMax fullShare d)) ∗ (∃ r, prngReg c r)) := by
  unfold Pipeline.ΦA; rw [scopedRest0_eq]; simp only [accSum, accSq, accMax, owns_whole]; try rfl

end Cert.Kernel.Frm

end
-- ==== Proof.K.RunA.lean ====
/-
  The pooling kernel's body at a batch's first node tile (the accumulators are reset, then updated; nothing is written out).
  Nothing is said here of what the accumulators or the outputs hold: the body loads, adds (or takes the maximum) and
  stores through whole one-row rectangles, so from buffers at any contents it runs to its end without a fault and hands
  every buffer back, the input block as it was.
-/
import proofs.«152827_j5093831213700_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 2000000 in
/-- The body at a batch's first node tile (the accumulators are reset, then updated; nothing is written out): it runs, and every buffer comes back. -/
theorem runA (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : isFirst i) (h1 : ¬isLast i)
    (x0 : Vec F S1x10000x128 .f32) (y3 y4 y5 : Vec F S1x1x128 .f32) (E : Set ℕ) (K : PUnit → sProp 𝕄) :
    iprop(owns (c : Thread nD τ) arg2 fullShare x0 ∗ owns (c : Thread nD τ) arg3 fullShare y3 ∗ owns (c : Thread nD τ) arg4 fullShare y4 ∗ owns (c : Thread nD τ) arg5 fullShare y5
            ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ (∃ X, owns (c : Thread nD τ) arg3 fullShare X) ∗ (∃ X, owns (c : Thread nD τ) arg4 fullShare X) ∗ (∃ X, owns (c : Thread nD τ) arg5 fullShare X)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.Kernel.Frm

end
-- ==== Proof.K.RunB.lean ====
/-
  The pooling kernel's body at a middle node tile (the accumulators are updated; nothing is written out).
  Nothing is said here of what the accumulators or the outputs hold: the body loads, adds (or takes the maximum) and
  stores through whole one-row rectangles, so from buffers at any contents it runs to its end without a fault and hands
  every buffer back, the input block as it was.
-/
import proofs.«152827_j5093831213700_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 2000000 in
/-- The body at a middle node tile (the accumulators are updated; nothing is written out): it runs, and every buffer comes back. -/
theorem runB (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : ¬isFirst i) (h1 : ¬isLast i)
    (x0 : Vec F S1x10000x128 .f32) (y3 y4 y5 : Vec F S1x1x128 .f32) (E : Set ℕ) (K : PUnit → sProp 𝕄) :
    iprop(owns (c : Thread nD τ) arg2 fullShare x0 ∗ owns (c : Thread nD τ) arg3 fullShare y3 ∗ owns (c : Thread nD τ) arg4 fullShare y4 ∗ owns (c : Thread nD τ) arg5 fullShare y5
            ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ (∃ X, owns (c : Thread nD τ) arg3 fullShare X) ∗ (∃ X, owns (c : Thread nD τ) arg4 fullShare X) ∗ (∃ X, owns (c : Thread nD τ) arg5 fullShare X)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.Kernel.Frm

end
-- ==== Proof.K.RunC.lean ====
/-
  The pooling kernel's body at a batch's last node tile (the accumulators are updated, then copied to the three outputs).
  Nothing is said here of what the accumulators or the outputs hold: the body loads, adds (or takes the maximum) and
  stores through whole one-row rectangles, so from buffers at any contents it runs to its end without a fault and hands
  every buffer back, the input block as it was.
-/
import proofs.«152827_j5093831213700_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 2000000 in
/-- The body at a batch's last node tile (the accumulators are updated, then copied to the three outputs): it runs, and every buffer comes back. -/
theorem runC (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : ¬isFirst i) (h1 : isLast i)
    (x0 : Vec F S1x10000x128 .f32) (y3 y4 y5 : Vec F S1x1x128 .f32) (E : Set ℕ) (K : PUnit → sProp 𝕄) :
    iprop(owns (c : Thread nD τ) arg2 fullShare x0 ∗ owns (c : Thread nD τ) arg3 fullShare y3 ∗ owns (c : Thread nD τ) arg4 fullShare y4 ∗ owns (c : Thread nD τ) arg5 fullShare y5
            ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ (∃ X, owns (c : Thread nD τ) arg3 fullShare X) ∗ (∃ X, owns (c : Thread nD τ) arg4 fullShare X) ∗ (∃ X, owns (c : Thread nD τ) arg5 fullShare X)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.Kernel.Frm

end
-- ==== Proof.K.Frame.lean ====
/-
  The frame of the pooling program: it terminates without a fault and its eight argument arrays end as they began.
  Nothing here depends on what the kernel computes. The proof data is relational and says nothing of any buffer's
  contents: at every grid point the body is handed its four staging buffers and three accumulators at SOME contents
  and hands them back at some contents (one of three cases, by the point's number mod 5); the later host lines write
  only their own result buffers, none of which is an argument or one of the pipeline's arrays.
-/
import proofs.«152827_j5093831213700_2_alg».proof.Proof.K.RunA
import proofs.«152827_j5093831213700_2_alg».proof.Proof.K.RunB
import proofs.«152827_j5093831213700_2_alg».proof.Proof.K.RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that names no contents -/

/-- The arrays as the region finds them; of what the body leaves in a staging buffer, nothing; between points the three
    accumulators at some contents; full shares; nothing owed. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdats m c).A w = V m c (Pipeline.arrRef spec0 w) := by
  dsimp only [rdats]

/-! ## The body at any grid point -/

set_option maxHeartbeats 4000000 in
/-- Whatever the four staging buffers hold, the body runs at point `t` and gives everything back: the point's number mod 5
    says whether it is a batch's first tile, its last, or one between. -/
theorem sound_body (c : Dev nD) (t : Fin cfg0.N) (Y : (w : Fin cfg0.W) → (cfg0.win w).block.Idx → Elt F (cfg0.win w).elt) :
    iprop(Pipeline.ΦA spec0 c ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop(Pipeline.ΦA spec0 c ∗ (rdats m c).owesAt () t.succ ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X))) := by
  unfold bodyAt0
  rw [show (rdats m c).owesAt () t.succ = (rdats m c).owesAt () t.castSucc from rfl, inv_eq]
  have hN : t.val < 40 := lt_of_lt_of_eq t.isLt (show cfg0.N = 40 from N_0)
  by_cases h0 : t.val % 5 = 0
  · have h1 : ¬ t.val % 5 = 4 := by omega
    iintro ⟨⟨⟨HS0, HS1, HS2⟩, Hg⟩, Ho, H0, H1, H2, H3⟩
    iapply (runA c (grid0.coords t) _ _ _ _ _ _ _ _ _ _ _ _ _ _ ((isFirst_iff t).mpr h0) (fun h => h1 ((isLast_iff t).mp h)) (Y 0) (Y 1) (Y 2) (Y 3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, ⟨%X1, H1⟩, ⟨%X2, H2⟩, ⟨%X3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    iexists _; isplitr; · ipureintro; trivial
    iexact H3
  · by_cases h1 : t.val % 5 = 4
    ·
      iintro ⟨⟨⟨HS0, HS1, HS2⟩, Hg⟩, Ho, H0, H1, H2, H3⟩
      iapply (runC c (grid0.coords t) _ _ _ _ _ _ _ _ _ _ _ _ _ _ (fun h => h0 ((isFirst_iff t).mp h)) ((isLast_iff t).mpr h1) (Y 0) (Y 1) (Y 2) (Y 3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, ⟨%X1, H1⟩, ⟨%X2, H2⟩, ⟨%X3, H3⟩, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexists _; isplitr; · ipureintro; trivial
                      iexact H0
      isplitl [H1]; · iexists _; isplitr; · ipureintro; trivial
                      iexact H1
      isplitl [H2]; · iexists _; isplitr; · ipureintro; trivial
                      iexact H2
      iexists _; isplitr; · ipureintro; trivial
      iexact H3
    ·
      iintro ⟨⟨⟨HS0, HS1, HS2⟩, Hg⟩, Ho, H0, H1, H2, H3⟩
      iapply (runB c (grid0.coords t) _ _ _ _ _ _ _ _ _ _ _ _ _ _ (fun h => h0 ((isFirst_iff t).mp h)) (fun h => h1 ((isLast_iff t).mp h)) (Y 0) (Y 1) (Y 2) (Y 3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, ⟨%X1, H1⟩, ⟨%X2, H2⟩, ⟨%X3, H3⟩, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexists _; isplitr; · ipureintro; trivial
                      iexact H0
      isplitl [H1]; · iexists _; isplitr; · ipureintro; trivial
                      iexact H1
      isplitl [H2]; · iexists _; isplitr; · ipureintro; trivial
                      iexact H2
      iexists _; isplitr; · ipureintro; trivial
      iexact H3

/-- The library's obligation for relational proof data, at every point. -/
theorem body_obligation (c : Dev nD) : (rdats (F := F) m c).BodyObligation (defs₀ (F := F)) Variants.none () Set.univ := fun t Y _ => by
  rw [bigSep_W0, bigSep_W0]
  exact sound_body m c t Y

/-! ## What the later lines write -/

/-- The eight argument arrays and the four arrays the pipeline stages (the reshaped x and the three results). -/
abbrev guarded : List (Ref sig .tc) :=
  [main_arg0, main_arg1, main_arg2, main_arg3, main_arg4, main_arg5, main_arg6, main_arg7, main_v0, main_v1_0, main_v1_1, main_v1_2]

theorem arr_guarded : ∀ w : Fin 4, Pipeline.arrRef spec0 w ∈ guarded := by decide

/-- The operation writes exactly one buffer, and that buffer is neither an argument nor an array of the pipeline. -/
def WritesAside (op : HloOp τ sig (Elt F)) : Prop :=
  ∃ y : Ref sig .tc, op.writes = {Proc.devRef .tc y} ∧ y ∉ guarded

theorem hostOps1_aside : (hostOps1 : List (HloOp τ sig (Elt F))).Forall WritesAside := by
  simp only [List.Forall]
  repeat' apply And.intro
  all_goals exact ⟨_, rfl, by decide⟩
theorem hostOps1_1_aside : (hostOps1_1 : List (HloOp τ sig (Elt F))).Forall WritesAside := by
  simp only [List.Forall]
  repeat' apply And.intro
  all_goals exact ⟨_, rfl, by decide⟩
theorem hostOps1_2_aside : (hostOps1_2 : List (HloOp τ sig (Elt F))).Forall WritesAside := by
  simp only [List.Forall]
  repeat' apply And.intro
  all_goals exact ⟨_, rfl, by decide⟩
theorem hostOps1_3_aside : (hostOps1_3 : List (HloOp τ sig (Elt F))).Forall WritesAside := by
  simp only [List.Forall]
  repeat' apply And.intro
  all_goals exact ⟨_, rfl, by decide⟩
theorem hostOps1_4_aside : (hostOps1_4 : List (HloOp τ sig (Elt F))).Forall WritesAside := by
  simp only [List.Forall]
  repeat' apply And.intro
  all_goals exact ⟨_, rfl, by decide⟩
theorem hostOps1_5_aside : (hostOps1_5 : List (HloOp τ sig (Elt F))).Forall WritesAside := by
  simp only [List.Forall]
  repeat' apply And.intro
  all_goals exact ⟨_, rfl, by decide⟩
theorem hostOps1_6_aside : (hostOps1_6 : List (HloOp τ sig (Elt F))).Forall WritesAside := by
  simp only [List.Forall]
  repeat' apply And.intro
  all_goals exact ⟨_, rfl, by decide⟩
theorem hostOps1_7_aside : (hostOps1_7 : List (HloOp τ sig (Elt F))).Forall WritesAside := by
  simp only [List.Forall]
  repeat' apply And.intro
  all_goals exact ⟨_, rfl, by decide⟩
theorem hostOps1_8_aside : (hostOps1_8 : List (HloOp τ sig (Elt F))).Forall WritesAside := by
  simp only [List.Forall]
  repeat' apply And.intro
  all_goals exact ⟨_, rfl, by decide⟩

theorem tail_aside : ∀ ops ∈ (tail : List (List (HloOp τ sig (Elt F)))), ∀ op ∈ ops, WritesAside op := by
  intro ops hops op hop
  simp only [List.mem_cons, List.mem_nil_iff, or_false] at hops
  rcases hops with rfl | rfl | rfl | rfl | rfl | rfl | rfl | rfl | rfl
  · exact (List.forall_iff_forall_mem.mp hostOps1_aside) op hop
  · exact (List.forall_iff_forall_mem.mp hostOps1_1_aside) op hop
  · exact (List.forall_iff_forall_mem.mp hostOps1_2_aside) op hop
  · exact (List.forall_iff_forall_mem.mp hostOps1_3_aside) op hop
  · exact (List.forall_iff_forall_mem.mp hostOps1_4_aside) op hop
  · exact (List.forall_iff_forall_mem.mp hostOps1_5_aside) op hop
  · exact (List.forall_iff_forall_mem.mp hostOps1_6_aside) op hop
  · exact (List.forall_iff_forall_mem.mp hostOps1_7_aside) op hop
  · exact (List.forall_iff_forall_mem.mp hostOps1_8_aside) op hop

/-- No later line writes an array of the pipeline. -/
theorem tail_keeps : ∀ ops ∈ (tail : List (List (HloOp τ sig (Elt F)))), ∀ op ∈ ops,
    ∀ w, Proc.devRef .tc (Pipeline.arrRef spec0 w) ∉ op.writes := by
  intro ops hops op hop w hw
  obtain ⟨y, hy, hg⟩ := tail_aside ops hops op hop
  rw [hy, Finset.mem_singleton] at hw
  exact hg (Proc.devRef_injective _ hw ▸ arr_guarded w)

/-- The buffers that are not arguments: every buffer a later line writes is one of them. -/
abbrev written : Finset (Ref sig .tc) :=
  Finset.univ.filter fun b => b ∉ ([main_arg0, main_arg1, main_arg2, main_arg3, main_arg4, main_arg5, main_arg6, main_arg7] : List (Ref sig .tc))

theorem tail_written : ∀ ops ∈ (tail : List (List (HloOp τ sig (Elt F)))), ∀ op ∈ ops,
    ∀ b : Ref sig .tc, Proc.devRef .tc b ∈ op.writes → b ∈ written := by
  intro ops hops op hop b hb
  obtain ⟨y, hy, hg⟩ := tail_aside ops hops op hop
  rw [hy, Finset.mem_singleton] at hb
  obtain rfl : b = y := Proc.devRef_injective _ hb
  refine Finset.mem_filter.mpr ⟨Finset.mem_univ _, fun h => hg ?_⟩
  simp only [guarded, List.mem_cons, List.mem_nil_iff, or_false] at h ⊢
  rcases h with h | h | h | h | h | h | h | h <;> simp [h]

/-! ## The run and the frame -/

theorem share_full (c : Dev nD) (w : Fin cfg0.W) : (rdats m c).share w = fullShare := by
  unfold RDat.share; split <;> rfl

set_option backward.isDefEq.respectTransparency.types false in
/-- Every weakly fair execution of the program terminates without a fault, and every unscoped buffer that is neither an
    array of the pipeline nor written by a later line ends as the region found it. -/
theorem run : θ_run defs (onTc (τ := τ) (main (F := F))) (s₀ m ρ)
    (Pipeline.RDat.FramePostR cfg0 (rdats m) written (V m)) :=
  Pipeline.RDat.θ_run_frame_around_T cfgs (0 : Fin 1) launch0 defs₀ Variants.none (rdats m) written m ρ main
    (hbody := body_obligation m) (hshare := share_full m) (howed := fun _ _ => rfl) (V₀ := V0 m) (opss := tail)
    (hsub := tail_sub) (hfresh := tail_fresh) (hkeep := tail_keeps) (hT := tail_written)
    (hmain := hmain m Variants.none) (hA := A_eq m) (hΦ := fun _ _ => rfl)

/-- An argument array bypasses the region (it is unscoped and no window stages it) and no later line writes it. -/
theorem arg_kept : ∀ b ∈ ([main_arg0, main_arg1, main_arg2, main_arg3, main_arg4, main_arg5, main_arg6, main_arg7] : List (Ref sig .tc)),
    b ∈ Pipeline.restRefs sig spec0 \ written := by decide

/-- The one reshape before the region writes its own result only: an argument is found as the program started with it. -/
theorem V_arg (c : Dev nD) : ∀ b ∈ ([main_arg0, main_arg1, main_arg2, main_arg3, main_arg4, main_arg5, main_arg6, main_arg7] : List (Ref sig .tc)),
    V m c b = m ((c : Thread nD τ).loc b) := by
  intro b hb
  simp only [List.mem_cons, List.mem_nil_iff, or_false] at hb
  rcases hb with rfl | rfl | rfl | rfl | rfl | rfl | rfl | rfl <;> rfl

/-- THE FRAME: the program terminates without a fault and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    have k : ∀ b ∈ ([main_arg0, main_arg1, main_arg2, main_arg3, main_arg4, main_arg5, main_arg6, main_arg7] : List (Ref sig .tc)),
        _ = m ((c.tc : Thread nD τ).loc b) := fun b hb => ((h c).2 b (arg_kept b hb)).trans (V_arg m c b hb)
    ⟨k main_arg0 (by decide), k main_arg1 (by decide), k main_arg2 (by decide), k main_arg3 (by decide), k main_arg4 (by decide), k main_arg5 (by decide), k main_arg6 (by decide), k main_arg7 (by decide)⟩) (run m ρ)

end Cert.Kernel.Frm

end
-- ==== Proof.KI.Kit.lean ====
/-
  The pooling kernel's program around its one region: a reshape of x before it, and after it nine stretches of host
  operations (the fold of the two lane halves, mean / variance / maximum, the degree histogram, the small network).
  This module fixes what the frame run is stated over: the buffer contents when the region is entered, the program as
  "lines, region, lines", what the later lines may touch, and the two conditions the body branches on — the first
  node tile of a batch (reset the accumulators) and the last (write them out) — in closed form over the 8 x 5 grid.
-/
import proofs.«152827_j5093831213700_2_alg».proof.Proof.Gen.KernelIdeal.Launch
import proofs.«152827_j5093831213700_2_alg».proof.Proof.Gen.KernelIdeal.Skeleton
import proofs.«152827_j5093831213700_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The stretches of host operations after the region, in order. -/
abbrev tail : List (List (HloOp τ sig (Elt F))) := [hostOps1, hostOps1_1, hostOps1_2, hostOps1_3, hostOps1_4, hostOps1_5, hostOps1_6, hostOps1_7, hostOps1_8]

/-- The buffer contents when the region is entered: the starting contents after the one reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The program is the reshape, the region, then the nine later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- The later lines touch only unscoped TensorCore buffers: the pipeline's arrays and the buffers that bypass the region. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! ## The body's two conditions -/

/-- "This is a batch's first node tile": the second grid coordinate is 0. -/
abbrev isFirst (i : grid0.Coords) : Prop := (Scalar.cmpi .ne (Scalar.extui (Scalar.cmpi .eq (BitVec.ofNat 32 (i 1).val) 0#32)) 0#32) = 1#1
/-- Over the 40 grid points, in row-major order: the points whose number is 0 mod 5. -/
theorem isFirst_iff : ∀ t : Fin cfg0.N, isFirst (grid0.coords t) ↔ t.val % 5 = 0 :=
  (by decide +kernel : ∀ t : Fin grid0.N, isFirst (grid0.coords t) ↔ t.val % 5 = 0)

/-- "This is a batch's last node tile": the second grid coordinate is 4. -/
abbrev isLast (i : grid0.Coords) : Prop := k0_cond2 i = 1#1
/-- The points whose number is 4 mod 5. -/
theorem isLast_iff : ∀ t : Fin cfg0.N, isLast (grid0.coords t) ↔ t.val % 5 = 4 :=
  (by decide +kernel : ∀ t : Fin grid0.N, isLast (grid0.coords t) ↔ t.val % 5 = 4)

/-! ## The three accumulators -/

/-- The running sum, the running sum of squares and the running maximum live in three scratch buffers of the kernel's own. -/
abbrev accSum : Memref sig .tc .vmem S1x128 .f32 := Memref.whole cc0_scratch0
abbrev accSq : Memref sig .tc .vmem S1x128 .f32 := Memref.whole cc0_scratch1
abbrev accMax : Memref sig .tc .vmem S1x128 .f32 := Memref.whole cc0_scratch2

/-- Between grid points the kernel holds its three accumulators, each at some contents, and the generator register. -/
theorem inv_eq (c : Dev nD) :
    (Pipeline.ΦA spec0 c : sProp 𝕄)
      = iprop(iprop((∃ d, owns (c : Thread nD τ) accSum fullShare d) ∗ (∃ d, owns (c : Thread nD τ) accSq fullShare d)
          ∗ (∃ d, owns (c : Thread nD τ) accMax fullShare d)) ∗ (∃ r, prngReg c r)) := by
  unfold Pipeline.ΦA; rw [scopedRest0_eq]; simp only [accSum, accSq, accMax, owns_whole]; try rfl

end Cert.KernelIdeal.Frm

end
-- ==== Proof.KI.RunA.lean ====
/-
  The pooling kernel's body at a batch's first node tile (the accumulators are reset, then updated; nothing is written out).
  Nothing is said here of what the accumulators or the outputs hold: the body loads, adds (or takes the maximum) and
  stores through whole one-row rectangles, so from buffers at any contents it runs to its end without a fault and hands
  every buffer back, the input block as it was.
-/
import proofs.«152827_j5093831213700_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 2000000 in
/-- The body at a batch's first node tile (the accumulators are reset, then updated; nothing is written out): it runs, and every buffer comes back. -/
theorem runA (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : isFirst i) (h1 : ¬isLast i)
    (x0 : Vec F S1x10000x128 .f32) (y3 y4 y5 : Vec F S1x1x128 .f32) (E : Set ℕ) (K : PUnit → sProp 𝕄) :
    iprop(owns (c : Thread nD τ) arg2 fullShare x0 ∗ owns (c : Thread nD τ) arg3 fullShare y3 ∗ owns (c : Thread nD τ) arg4 fullShare y4 ∗ owns (c : Thread nD τ) arg5 fullShare y5
            ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ (∃ X, owns (c : Thread nD τ) arg3 fullShare X) ∗ (∃ X, owns (c : Thread nD τ) arg4 fullShare X) ∗ (∃ X, owns (c : Thread nD τ) arg5 fullShare X)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.KernelIdeal.Frm

end
-- ==== Proof.KI.RunB.lean ====
/-
  The pooling kernel's body at a middle node tile (the accumulators are updated; nothing is written out).
  Nothing is said here of what the accumulators or the outputs hold: the body loads, adds (or takes the maximum) and
  stores through whole one-row rectangles, so from buffers at any contents it runs to its end without a fault and hands
  every buffer back, the input block as it was.
-/
import proofs.«152827_j5093831213700_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 2000000 in
/-- The body at a middle node tile (the accumulators are updated; nothing is written out): it runs, and every buffer comes back. -/
theorem runB (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : ¬isFirst i) (h1 : ¬isLast i)
    (x0 : Vec F S1x10000x128 .f32) (y3 y4 y5 : Vec F S1x1x128 .f32) (E : Set ℕ) (K : PUnit → sProp 𝕄) :
    iprop(owns (c : Thread nD τ) arg2 fullShare x0 ∗ owns (c : Thread nD τ) arg3 fullShare y3 ∗ owns (c : Thread nD τ) arg4 fullShare y4 ∗ owns (c : Thread nD τ) arg5 fullShare y5
            ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ (∃ X, owns (c : Thread nD τ) arg3 fullShare X) ∗ (∃ X, owns (c : Thread nD τ) arg4 fullShare X) ∗ (∃ X, owns (c : Thread nD τ) arg5 fullShare X)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.KernelIdeal.Frm

end
-- ==== Proof.KI.RunC.lean ====
/-
  The pooling kernel's body at a batch's last node tile (the accumulators are updated, then copied to the three outputs).
  Nothing is said here of what the accumulators or the outputs hold: the body loads, adds (or takes the maximum) and
  stores through whole one-row rectangles, so from buffers at any contents it runs to its end without a fault and hands
  every buffer back, the input block as it was.
-/
import proofs.«152827_j5093831213700_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 2000000 in
/-- The body at a batch's last node tile (the accumulators are updated, then copied to the three outputs): it runs, and every buffer comes back. -/
theorem runC (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : ¬isFirst i) (h1 : isLast i)
    (x0 : Vec F S1x10000x128 .f32) (y3 y4 y5 : Vec F S1x1x128 .f32) (E : Set ℕ) (K : PUnit → sProp 𝕄) :
    iprop(owns (c : Thread nD τ) arg2 fullShare x0 ∗ owns (c : Thread nD τ) arg3 fullShare y3 ∗ owns (c : Thread nD τ) arg4 fullShare y4 ∗ owns (c : Thread nD τ) arg5 fullShare y5
            ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ (∃ X, owns (c : Thread nD τ) arg3 fullShare X) ∗ (∃ X, owns (c : Thread nD τ) arg4 fullShare X) ∗ (∃ X, owns (c : Thread nD τ) arg5 fullShare X)
            ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__pool_kernel i arg2 harg2 arg3 harg3 arg4 harg4 arg5 harg5 arg6 harg6 arg7 harg7 arg8 harg8) K := by
  simp only [cc0__pool_kernel_eq_skeleton]; unfold cc0__pool_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4; obtain rfl := harg5.eq_unread hf5
  sl_exec (disch := first | exact h0 | exact h1)
  sl_step
  iapply Hk
  isplitl [H2]
  · iexists _; isplitr; · ipureintro; exact harg2.read_unread _
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

end Cert.KernelIdeal.Frm

end
-- ==== Proof.KI.Frame.lean ====
/-
  The frame of the pooling program: it terminates without a fault and its eight argument arrays end as they began.
  Nothing here depends on what the kernel computes. The proof data is relational and says nothing of any buffer's
  contents: at every grid point the body is handed its four staging buffers and three accumulators at SOME contents
  and hands them back at some contents (one of three cases, by the point's number mod 5); the later host lines write
  only their own result buffers, none of which is an argument or one of the pipeline's arrays.
-/
import proofs.«152827_j5093831213700_2_alg».proof.Proof.KI.RunA
import proofs.«152827_j5093831213700_2_alg».proof.Proof.KI.RunB
import proofs.«152827_j5093831213700_2_alg».proof.Proof.KI.RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that names no contents -/

/-- The arrays as the region finds them; of what the body leaves in a staging buffer, nothing; between points the three
    accumulators at some contents; full shares; nothing owed. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdats m c).A w = V m c (Pipeline.arrRef spec0 w) := by
  dsimp only [rdats]

/-! ## The body at any grid point -/

set_option maxHeartbeats 4000000 in
/-- Whatever the four staging buffers hold, the body runs at point `t` and gives everything back: the point's number mod 5
    says whether it is a batch's first tile, its last, or one between. -/
theorem sound_body (c : Dev nD) (t : Fin cfg0.N) (Y : (w : Fin cfg0.W) → (cfg0.win w).block.Idx → Elt F (cfg0.win w).elt) :
    iprop(Pipeline.ΦA spec0 c ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop(Pipeline.ΦA spec0 c ∗ (rdats m c).owesAt () t.succ ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X))) := by
  unfold bodyAt0
  rw [show (rdats m c).owesAt () t.succ = (rdats m c).owesAt () t.castSucc from rfl, inv_eq]
  have hN : t.val < 40 := lt_of_lt_of_eq t.isLt (show cfg0.N = 40 from N_0)
  by_cases h0 : t.val % 5 = 0
  · have h1 : ¬ t.val % 5 = 4 := by omega
    iintro ⟨⟨⟨HS0, HS1, HS2⟩, Hg⟩, Ho, H0, H1, H2, H3⟩
    iapply (runA c (grid0.coords t) _ _ _ _ _ _ _ _ _ _ _ _ _ _ ((isFirst_iff t).mpr h0) (fun h => h1 ((isLast_iff t).mp h)) (Y 0) (Y 1) (Y 2) (Y 3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, ⟨%X1, H1⟩, ⟨%X2, H2⟩, ⟨%X3, H3⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    iexists _; isplitr; · ipureintro; trivial
    iexact H3
  · by_cases h1 : t.val % 5 = 4
    ·
      iintro ⟨⟨⟨HS0, HS1, HS2⟩, Hg⟩, Ho, H0, H1, H2, H3⟩
      iapply (runC c (grid0.coords t) _ _ _ _ _ _ _ _ _ _ _ _ _ _ (fun h => h0 ((isFirst_iff t).mp h)) ((isLast_iff t).mpr h1) (Y 0) (Y 1) (Y 2) (Y 3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, ⟨%X1, H1⟩, ⟨%X2, H2⟩, ⟨%X3, H3⟩, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexists _; isplitr; · ipureintro; trivial
                      iexact H0
      isplitl [H1]; · iexists _; isplitr; · ipureintro; trivial
                      iexact H1
      isplitl [H2]; · iexists _; isplitr; · ipureintro; trivial
                      iexact H2
      iexists _; isplitr; · ipureintro; trivial
      iexact H3
    ·
      iintro ⟨⟨⟨HS0, HS1, HS2⟩, Hg⟩, Ho, H0, H1, H2, H3⟩
      iapply (runB c (grid0.coords t) _ _ _ _ _ _ _ _ _ _ _ _ _ _ (fun h => h0 ((isFirst_iff t).mp h)) (fun h => h1 ((isLast_iff t).mp h)) (Y 0) (Y 1) (Y 2) (Y 3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, ⟨%X1, H1⟩, ⟨%X2, H2⟩, ⟨%X3, H3⟩, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexists _; isplitr; · ipureintro; trivial
                      iexact H0
      isplitl [H1]; · iexists _; isplitr; · ipureintro; trivial
                      iexact H1
      isplitl [H2]; · iexists _; isplitr; · ipureintro; trivial
                      iexact H2
      iexists _; isplitr; · ipureintro; trivial
      iexact H3

/-- The library's obligation for relational proof data, at every point. -/
theorem body_obligation (c : Dev nD) : (rdats (F := F) m c).BodyObligation (defs₀ (F := F)) Variants.none () Set.univ := fun t Y _ => by
  rw [bigSep_W0, bigSep_W0]
  exact sound_body m c t Y

/-! ## What the later lines write -/

/-- The eight argument arrays and the four arrays the pipeline stages (the reshaped x and the three results). -/
abbrev guarded : List (Ref sig .tc) :=
  [main_arg0, main_arg1, main_arg2, main_arg3, main_arg4, main_arg5, main_arg6, main_arg7, main_v0, main_v1_0, main_v1_1, main_v1_2]

theorem arr_guarded : ∀ w : Fin 4, Pipeline.arrRef spec0 w ∈ guarded := by decide

/-- The operation writes exactly one buffer, and that buffer is neither an argument nor an array of the pipeline. -/
def WritesAside (op : HloOp τ sig (Elt F)) : Prop :=
  ∃ y : Ref sig .tc, op.writes = {Proc.devRef .tc y} ∧ y ∉ guarded

theorem hostOps1_aside : (hostOps1 : List (HloOp τ sig (Elt F))).Forall WritesAside := by
  simp only [List.Forall]
  repeat' apply And.intro
  all_goals exact ⟨_, rfl, by decide⟩
theorem hostOps1_1_aside : (hostOps1_1 : List (HloOp τ sig (Elt F))).Forall WritesAside := by
  simp only [List.Forall]
  repeat' apply And.intro
  all_goals exact ⟨_, rfl, by decide⟩
theorem hostOps1_2_aside : (hostOps1_2 : List (HloOp τ sig (Elt F))).Forall WritesAside := by
  simp only [List.Forall]
  repeat' apply And.intro
  all_goals exact ⟨_, rfl, by decide⟩
theorem hostOps1_3_aside : (hostOps1_3 : List (HloOp τ sig (Elt F))).Forall WritesAside := by
  simp only [List.Forall]
  repeat' apply And.intro
  all_goals exact ⟨_, rfl, by decide⟩
theorem hostOps1_4_aside : (hostOps1_4 : List (HloOp τ sig (Elt F))).Forall WritesAside := by
  simp only [List.Forall]
  repeat' apply And.intro
  all_goals exact ⟨_, rfl, by decide⟩
theorem hostOps1_5_aside : (hostOps1_5 : List (HloOp τ sig (Elt F))).Forall WritesAside := by
  simp only [List.Forall]
  repeat' apply And.intro
  all_goals exact ⟨_, rfl, by decide⟩
theorem hostOps1_6_aside : (hostOps1_6 : List (HloOp τ sig (Elt F))).Forall WritesAside := by
  simp only [List.Forall]
  repeat' apply And.intro
  all_goals exact ⟨_, rfl, by decide⟩
theorem hostOps1_7_aside : (hostOps1_7 : List (HloOp τ sig (Elt F))).Forall WritesAside := by
  simp only [List.Forall]
  repeat' apply And.intro
  all_goals exact ⟨_, rfl, by decide⟩
theorem hostOps1_8_aside : (hostOps1_8 : List (HloOp τ sig (Elt F))).Forall WritesAside := by
  simp only [List.Forall]
  repeat' apply And.intro
  all_goals exact ⟨_, rfl, by decide⟩

theorem tail_aside : ∀ ops ∈ (tail : List (List (HloOp τ sig (Elt F)))), ∀ op ∈ ops, WritesAside op := by
  intro ops hops op hop
  simp only [List.mem_cons, List.mem_nil_iff, or_false] at hops
  rcases hops with rfl | rfl | rfl | rfl | rfl | rfl | rfl | rfl | rfl
  · exact (List.forall_iff_forall_mem.mp hostOps1_aside) op hop
  · exact (List.forall_iff_forall_mem.mp hostOps1_1_aside) op hop
  · exact (List.forall_iff_forall_mem.mp hostOps1_2_aside) op hop
  · exact (List.forall_iff_forall_mem.mp hostOps1_3_aside) op hop
  · exact (List.forall_iff_forall_mem.mp hostOps1_4_aside) op hop
  · exact (List.forall_iff_forall_mem.mp hostOps1_5_aside) op hop
  · exact (List.forall_iff_forall_mem.mp hostOps1_6_aside) op hop
  · exact (List.forall_iff_forall_mem.mp hostOps1_7_aside) op hop
  · exact (List.forall_iff_forall_mem.mp hostOps1_8_aside) op hop

/-- No later line writes an array of the pipeline. -/
theorem tail_keeps : ∀ ops ∈ (tail : List (List (HloOp τ sig (Elt F)))), ∀ op ∈ ops,
    ∀ w, Proc.devRef .tc (Pipeline.arrRef spec0 w) ∉ op.writes := by
  intro ops hops op hop w hw
  obtain ⟨y, hy, hg⟩ := tail_aside ops hops op hop
  rw [hy, Finset.mem_singleton] at hw
  exact hg (Proc.devRef_injective _ hw ▸ arr_guarded w)

/-- The buffers that are not arguments: every buffer a later line writes is one of them. -/
abbrev written : Finset (Ref sig .tc) :=
  Finset.univ.filter fun b => b ∉ ([main_arg0, main_arg1, main_arg2, main_arg3, main_arg4, main_arg5, main_arg6, main_arg7] : List (Ref sig .tc))

theorem tail_written : ∀ ops ∈ (tail : List (List (HloOp τ sig (Elt F)))), ∀ op ∈ ops,
    ∀ b : Ref sig .tc, Proc.devRef .tc b ∈ op.writes → b ∈ written := by
  intro ops hops op hop b hb
  obtain ⟨y, hy, hg⟩ := tail_aside ops hops op hop
  rw [hy, Finset.mem_singleton] at hb
  obtain rfl : b = y := Proc.devRef_injective _ hb
  refine Finset.mem_filter.mpr ⟨Finset.mem_univ _, fun h => hg ?_⟩
  simp only [guarded, List.mem_cons, List.mem_nil_iff, or_false] at h ⊢
  rcases h with h | h | h | h | h | h | h | h <;> simp [h]

/-! ## The run and the frame -/

theorem share_full (c : Dev nD) (w : Fin cfg0.W) : (rdats m c).share w = fullShare := by
  unfold RDat.share; split <;> rfl

set_option backward.isDefEq.respectTransparency.types false in
/-- Every weakly fair execution of the program terminates without a fault, and every unscoped buffer that is neither an
    array of the pipeline nor written by a later line ends as the region found it. -/
theorem run : θ_run defs (onTc (τ := τ) (main (F := F))) (s₀ m ρ)
    (Pipeline.RDat.FramePostR cfg0 (rdats m) written (V m)) :=
  Pipeline.RDat.θ_run_frame_around_T cfgs (0 : Fin 1) launch0 defs₀ Variants.none (rdats m) written m ρ main
    (hbody := body_obligation m) (hshare := share_full m) (howed := fun _ _ => rfl) (V₀ := V0 m) (opss := tail)
    (hsub := tail_sub) (hfresh := tail_fresh) (hkeep := tail_keeps) (hT := tail_written)
    (hmain := hmain m Variants.none) (hA := A_eq m) (hΦ := fun _ _ => rfl)

/-- An argument array bypasses the region (it is unscoped and no window stages it) and no later line writes it. -/
theorem arg_kept : ∀ b ∈ ([main_arg0, main_arg1, main_arg2, main_arg3, main_arg4, main_arg5, main_arg6, main_arg7] : List (Ref sig .tc)),
    b ∈ Pipeline.restRefs sig spec0 \ written := by decide

/-- The one reshape before the region writes its own result only: an argument is found as the program started with it. -/
theorem V_arg (c : Dev nD) : ∀ b ∈ ([main_arg0, main_arg1, main_arg2, main_arg3, main_arg4, main_arg5, main_arg6, main_arg7] : List (Ref sig .tc)),
    V m c b = m ((c : Thread nD τ).loc b) := by
  intro b hb
  simp only [List.mem_cons, List.mem_nil_iff, or_false] at hb
  rcases hb with rfl | rfl | rfl | rfl | rfl | rfl | rfl | rfl <;> rfl

/-- THE FRAME: the program terminates without a fault and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    have k : ∀ b ∈ ([main_arg0, main_arg1, main_arg2, main_arg3, main_arg4, main_arg5, main_arg6, main_arg7] : List (Ref sig .tc)),
        _ = m ((c.tc : Thread nD τ).loc b) := fun b hb => ((h c).2 b (arg_kept b hb)).trans (V_arg m c b hb)
    ⟨k main_arg0 (by decide), k main_arg1 (by decide), k main_arg2 (by decide), k main_arg3 (by decide), k main_arg4 (by decide), k main_arg5 (by decide), k main_arg6 (by decide), k main_arg7 (by decide)⟩) (run m ρ)

end Cert.KernelIdeal.Frm

end
-- ==== Proof.RefOps.lean ====
/- The reference's @main as a list: its 129 host operations in order, every called function's
   operations written at its call site over that call's buffers, and that each operation touches only
   TensorCore buffers. A transcription of the printed program; nothing is argued here. -/
import proofs.«152827_j5093831213700_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 129 operations, in order. -/
abbrev ops : List (HloOp τ sig (Elt F)) :=
  [ nullary main_cst (constant S_ .f32 0x00000000#32),
    binary main_arg0 main_cst main_v0 ((fun x v => Host.reduceAdd x v reducesTo_S8x100000x64_S8x64_d1 h_S_) : (⟨S8x100000x64, .f32⟩ : BufTy).Contents (Elt F) → (⟨S_, .f32⟩ : BufTy).Contents (Elt F) → (⟨S8x64, .f32⟩ : BufTy).Contents (Elt F)),
    nullary main_cst_0 (constant S_ .f32 0x47C35000#32),
    unary main_cst_0 main_v1 (broadcastInDim S8x64 ![] bcast_S_S8x64 : (⟨S_, .f32⟩ : BufTy).Contents (Elt F) → (⟨S8x64, .f32⟩ : BufTy).Contents (Elt F)),
    binary main_v0 main_v1 main_v2 (Host.divf : (⟨S8x64, .f32⟩ : BufTy).Contents (Elt F) → (⟨S8x64, .f32⟩ : BufTy).Contents (Elt F) → (⟨S8x64, .f32⟩ : BufTy).Contents (Elt F)),
    nullary main_cst_1 (constant S_ .f32 0xFF800000#32),
    binary main_arg0 main_cst_1 main_v3 ((fun x v => Host.reduce FloatOps.maximumf x v reducesTo_S8x100000x64_S8x64_d1 h_S_) : (⟨S8x100000x64, .f32⟩ : BufTy).Contents (Elt F) → (⟨S_, .f32⟩ : BufTy).Contents (Elt F) → (⟨S8x64, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S8x100000x64_S8x64_d1 h_S_),
    TRef.unary main_call0.call0.v0 main_call0.call0.v1 (broadcastInDim S8x1x64 ![0, 2] bcast_S8x64_S8x1x64_0_2),
    TRef.nullary main_call0.call0.cst_0 (constant S_ .f32 0x47C35000#32),
    TRef.unary main_call0.call0.cst_0 main_call0.call0.v2 (broadcastInDim S8x1x64 ![] bcast_S_S8x1x64),
    TRef.binary main_call0.call0.v1 main_call0.call0.v2 main_call0.call0.v3 Host.divf,
    TRef.unary main_call0.call0.v3 main_call0.call0.v4 (broadcastInDim S8x100000x64 ![0, 1, 2] bcast_S8x1x64_S8x100000x64_0_1_2),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x47C35000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8x100000x64_S8x64_d1 h_S_),
    TRef.unary main_call0.call0.v8 main_call0.call0.v10 (broadcastInDim S8x64 ![] bcast_S_S8x64),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8x64 ![] bcast_S_S8x64),
    TRef.ternary main_call0.call0.v12 main_call0.call0.v11 main_call0.call0.call0.v1 main_call0.call0.call0.v2 (fun p a b => select (broadcastInDim S8x64 ![] bcast_S_S8x64 p) a b),
    TRef.unary main_call0.call0.call0.v2 main_call0.v1 Host.sqrt,
    nullary main_cst_2 (constant S_ .f32 0x00000000#32),
    unary main_cst_2 main_v5 (broadcastInDim S100000 ![] bcast_S_S100000 : (⟨S_, .f32⟩ : BufTy).Contents (Elt F) → (⟨S100000, .f32⟩ : BufTy).Contents (Elt F)),
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    nullary main_c_3 (constantI S_ 32 0#32),
    unary main_c_3 main_v8 (broadcastInDim S3200000 ![] bcast_S_S3200000 : (⟨S_, .i32⟩ : BufTy).Contents (Elt F) → (⟨S3200000, .i32⟩ : BufTy).Contents (Elt F)),
    binary main_v7 main_v8 main_v9 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v10 (broadcastInDim S3200000 ![] bcast_S_S3200000 : (⟨S_, .i32⟩ : BufTy).Contents (Elt F) → (⟨S3200000, .i32⟩ : BufTy).Contents (Elt F)),
    binary main_v7 main_v10 main_v11 (addi : (⟨S3200000, .i32⟩ : BufTy).Contents (Elt F) → (⟨S3200000, .i32⟩ : BufTy).Contents (Elt F) → (⟨S3200000, .i32⟩ : BufTy).Contents (Elt F)),
    ternary main_v9 main_v11 main_v7 main_v12 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v12 main_v13 (broadcastInDim S3200000x1 ![0] bcast_S3200000_S3200000x1_0 : (⟨S3200000, .i32⟩ : BufTy).Contents (Elt F) → (⟨S3200000x1, .i32⟩ : BufTy).Contents (Elt F)),
    nullary main_cst_5 (constant S_ .f32 0x3F800000#32),
    unary main_cst_5 main_v14 (broadcastInDim S3200000 ![] bcast_S_S3200000 : (⟨S_, .f32⟩ : BufTy).Contents (Elt F) → (⟨S3200000, .f32⟩ : BufTy).Contents (Elt F)),
    ternary main_v5 main_v13 main_v14 main_v15 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_6 (constant S_ .f32 0x00000000#32),
    binary main_v15 main_cst_6 main_v16 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    nullary main_cst_7 (constant S_ .f32 0x47C35000#32),
    binary main_v16 main_cst_7 main_v17 (Host.divf : (⟨S_, .f32⟩ : BufTy).Contents (Elt F) → (⟨S_, .f32⟩ : BufTy).Contents (Elt F) → (⟨S_, .f32⟩ : BufTy).Contents (Elt F)),
    nullary main_c_8 (constantI S_ 32 1#32),
    TRef.nullary main_call1.call0.cst (constant S_ .f32 0x00000000#32),
    TRef.binary (.of main_v15) main_call1.call0.cst main_call1.call0.v0 (fun x v => Host.reduceAdd x v reducesTo_S100000_S_d0 h_S_),
    TRef.unary main_call1.call0.v0 main_call1.call0.v1 (broadcastInDim S1 ![] bcast_S_S1),
    TRef.nullary main_call1.call0.cst_0 (constant S_ .f32 0x47C35000#32),
    TRef.unary main_call1.call0.cst_0 main_call1.call0.v2 (broadcastInDim S1 ![] bcast_S_S1),
    TRef.binary main_call1.call0.v1 main_call1.call0.v2 main_call1.call0.v3 Host.divf,
    TRef.unary main_call1.call0.v3 main_call1.call0.v4 (broadcastInDim S100000 ![0] bcast_S1_S100000_0),
    TRef.binary (.of main_v15) main_call1.call0.v4 main_call1.call0.v5 subf,
    TRef.binary main_call1.call0.v5 main_call1.call0.v5 main_call1.call0.v6 mulf,
    TRef.unary (.of main_c_8) main_call1.call0.v7 (sitofp .f32),
    TRef.nullary main_call1.call0.cst_1 (constant S_ .f32 0x47C35000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S100000_S_d0 h_S_),
    TRef.binary main_call1.call0.v9 main_call1.call0.v8 main_call1.call0.v10 Host.divf,
    TRef.nullary main_call1.call0.cst_3 (constant S_ .f32 0x00000000#32),
    TRef.binary main_call1.call0.v8 main_call1.call0.cst_3 main_call1.call0.v11 (cmpf .ogt),
    TRef.nullary main_call1.call0.cst_4 (constant S_ .f32 0x7FC00000#32),
    TRef.unary main_call1.call0.cst_4 main_call1.call0.call0.v0 id,
    TRef.ternary main_call1.call0.v11 main_call1.call0.v10 main_call1.call0.call0.v0 main_call1.call0.call0.v1 select,
    TRef.unary main_call1.call0.call0.v1 main_call1.v1 Host.sqrt,
    nullary main_cst_9 (constant S_ .f32 0x39A7C61A#32),
    nullary main_cst_10 (constant S_ .f32 0x3F935D96#32),
    unary main_v17 main_v19 (broadcastInDim S1 ![] bcast_S_S1 : (⟨S_, .f32⟩ : BufTy).Contents (Elt F) → (⟨S1, .f32⟩ : BufTy).Contents (Elt F)),
    unary main_v18 main_v20 (broadcastInDim S1 ![] bcast_S_S1 : (⟨S_, .f32⟩ : BufTy).Contents (Elt F) → (⟨S1, .f32⟩ : BufTy).Contents (Elt F)),
    unary main_cst_9 main_v21 (broadcastInDim S1 ![] bcast_S_S1 : (⟨S_, .f32⟩ : BufTy).Contents (Elt F) → (⟨S1, .f32⟩ : BufTy).Contents (Elt F)),
    unary main_cst_10 main_v22 (broadcastInDim S1 ![] bcast_S_S1 : (⟨S_, .f32⟩ : BufTy).Contents (Elt F) → (⟨S1, .f32⟩ : BufTy).Contents (Elt F)),
    nary ![main_v19, main_v20, main_v21, main_v22] main_v23 (fun u => concatenate S4 0 [⟨S1, u 0⟩, ⟨S1, u 1⟩, ⟨S1, u 2⟩, ⟨S1, u 3⟩] concatenates_S1_S1_S1_S1_S4_d0),
    unary main_v23 main_v24 (broadcastInDim S1x4 ![1] bcast_S4_S1x4_1 : (⟨S4, .f32⟩ : BufTy).Contents (Elt F) → (⟨S1x4, .f32⟩ : BufTy).Contents (Elt F)),
    unary main_v24 main_v25 (broadcastInDim S8x4 ![0, 1] bcast_S1x4_S8x4_0_1 : (⟨S1x4, .f32⟩ : BufTy).Contents (Elt F) → (⟨S8x4, .f32⟩ : BufTy).Contents (Elt F)),
    nary ![main_v2, main_v3, main_v4, main_v25] main_v26 (fun u => concatenate S8x196 1 [⟨S8x64, u 0⟩, ⟨S8x64, u 1⟩, ⟨S8x64, u 2⟩, ⟨S8x4, u 3⟩] concatenates_S8x64_S8x64_S8x64_S8x4_S8x196_d1),
    binary main_v26 main_arg2 main_v27 ((fun l r => Host.dotGeneral dot_S8x196_S196x64_S8x64_1_0_0_1_n_n none l r) : (⟨S8x196, .f32⟩ : BufTy).Contents (Elt F) → (⟨S196x64, .f32⟩ : BufTy).Contents (Elt F) → (⟨S8x64, .f32⟩ : BufTy).Contents (Elt F)),
    unary main_arg3 main_v28 (broadcastInDim S1x64 ![1] bcast_S64_S1x64_1 : (⟨S64, .f32⟩ : BufTy).Contents (Elt F) → (⟨S1x64, .f32⟩ : BufTy).Contents (Elt F)),
    unary main_v28 main_v29 (broadcastInDim S8x64 ![0, 1] bcast_S1x64_S8x64_0_1 : (⟨S1x64, .f32⟩ : BufTy).Contents (Elt F) → (⟨S8x64, .f32⟩ : BufTy).Contents (Elt F)),
    binary main_v27 main_v29 main_v30 (addf : (⟨S8x64, .f32⟩ : BufTy).Contents (Elt F) → (⟨S8x64, .f32⟩ : BufTy).Contents (Elt F) → (⟨S8x64, .f32⟩ : BufTy).Contents (Elt F)),
    TRef.nullary main_call2.cst (constant S_ .f32 0x00000000#32),
    TRef.unary main_call2.cst main_call2.v0 (broadcastInDim S8x64 ![] bcast_S_S8x64),
    TRef.binary (.of main_v30) main_call2.v0 main_call2.v1 maximumf,
    binary main_v31 main_arg4 main_v32 ((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F)),
    unary main_arg5 main_v33 (broadcastInDim S1x32 ![1] bcast_S32_S1x32_1 : (⟨S32, .f32⟩ : BufTy).Contents (Elt F) → (⟨S1x32, .f32⟩ : BufTy).Contents (Elt F)),
    unary main_v33 main_v34 (broadcastInDim S8x32 ![0, 1] bcast_S1x32_S8x32_0_1 : (⟨S1x32, .f32⟩ : BufTy).Contents (Elt F) → (⟨S8x32, .f32⟩ : BufTy).Contents (Elt F)),
    binary main_v32 main_v34 main_v35 (addf : (⟨S8x32, .f32⟩ : BufTy).Contents (Elt F) → (⟨S8x32, .f32⟩ : BufTy).Contents (Elt F) → (⟨S8x32, .f32⟩ : BufTy).Contents (Elt F)),
    TRef.nullary main_call3.cst (constant S_ .f32 0x00000000#32),
    TRef.unary main_call3.cst main_call3.v0 (broadcastInDim S8x32 ![] bcast_S_S8x32),
    TRef.binary (.of main_v35) main_call3.v0 main_call3.v1 maximumf,
    binary main_v36 main_arg6 main_v37 ((fun l r => Host.dotGeneral dot_S8x32_S32x1_S8x1_1_0_0_1_n_n none l r) : (⟨S8x32, .f32⟩ : BufTy).Contents (Elt F) → (⟨S32x1, .f32⟩ : BufTy).Contents (Elt F) → (⟨S8x1, .f32⟩ : BufTy).Contents (Elt F)),
    unary main_arg7 main_v38 (broadcastInDim S1x1 ![1] bcast_S1_S1x1_1 : (⟨S1, .f32⟩ : BufTy).Contents (Elt F) → (⟨S1x1, .f32⟩ : BufTy).Contents (Elt F)),
    unary main_v38 main_v39 (broadcastInDim S8x1 ![0, 1] bcast_S1x1_S8x1_0_1 : (⟨S1x1, .f32⟩ : BufTy).Contents (Elt F) → (⟨S8x1, .f32⟩ : BufTy).Contents (Elt F)),
    binary main_v37 main_v39 main_v40 (addf : (⟨S8x1, .f32⟩ : BufTy).Contents (Elt F) → (⟨S8x1, .f32⟩ : BufTy).Contents (Elt F) → (⟨S8x1, .f32⟩ : BufTy).Contents (Elt F)),
    unary main_v40 main_v41 (Host.negf : (⟨S8x1, .f32⟩ : BufTy).Contents (Elt F) → (⟨S8x1, .f32⟩ : BufTy).Contents (Elt F)),
    unary main_v41 main_v42 (Host.exp : (⟨S8x1, .f32⟩ : BufTy).Contents (Elt F) → (⟨S8x1, .f32⟩ : BufTy).Contents (Elt F)),
    nullary main_cst_11 (constant S_ .f32 0x3F800000#32),
    unary main_cst_11 main_v43 (broadcastInDim S8x1 ![] bcast_S_S8x1 : (⟨S_, .f32⟩ : BufTy).Contents (Elt F) → (⟨S8x1, .f32⟩ : BufTy).Contents (Elt F)),
    binary main_v43 main_v42 main_v44 (addf : (⟨S8x1, .f32⟩ : BufTy).Contents (Elt F) → (⟨S8x1, .f32⟩ : BufTy).Contents (Elt F) → (⟨S8x1, .f32⟩ : BufTy).Contents (Elt F)),
    nullary main_cst_12 (constant S_ .f32 0x3F800000#32),
    unary main_cst_12 main_v45 (broadcastInDim S8x1 ![] bcast_S_S8x1 : (⟨S_, .f32⟩ : BufTy).Contents (Elt F) → (⟨S8x1, .f32⟩ : BufTy).Contents (Elt F)),
    binary main_v45 main_v44 main_v46 (Host.divf : (⟨S8x1, .f32⟩ : BufTy).Contents (Elt F) → (⟨S8x1, .f32⟩ : BufTy).Contents (Elt F) → (⟨S8x1, .f32⟩ : BufTy).Contents (Elt F)),
    reshape main_v46 main_v47 rfl shapeCasts_S8x1_S8,
    nullary main_cst_13 (constant S_ .f32 0x423C0000#32),
    unary main_cst_13 main_v48 (broadcastInDim S8 ![] bcast_S_S8 : (⟨S_, .f32⟩ : BufTy).Contents (Elt F) → (⟨S8, .f32⟩ : BufTy).Contents (Elt F)),
    binary main_v47 main_v48 main_v49 (mulf : (⟨S8, .f32⟩ : BufTy).Contents (Elt F) → (⟨S8, .f32⟩ : BufTy).Contents (Elt F) → (⟨S8, .f32⟩ : BufTy).Contents (Elt F)),
    nullary main_cst_14 (constant S_ .f32 0x40400000#32),
    unary main_cst_14 main_v50 (broadcastInDim S8 ![] bcast_S_S8 : (⟨S_, .f32⟩ : BufTy).Contents (Elt F) → (⟨S8, .f32⟩ : BufTy).Contents (Elt F)),
    binary main_v50 main_v49 main_v51 (addf : (⟨S8, .f32⟩ : BufTy).Contents (Elt F) → (⟨S8, .f32⟩ : BufTy).Contents (Elt F) → (⟨S8, .f32⟩ : BufTy).Contents (Elt F)),
    TRef.unary (.of main_v51) main_call4.v0 Host.roundeven,
    binary main_v52 main_v51 main_v53 (subf : (⟨S8, .f32⟩ : BufTy).Contents (Elt F) → (⟨S8, .f32⟩ : BufTy).Contents (Elt F) → (⟨S8, .f32⟩ : BufTy).Contents (Elt F)),
    binary main_v51 main_v53 main_v54 (addf : (⟨S8, .f32⟩ : BufTy).Contents (Elt F) → (⟨S8, .f32⟩ : BufTy).Contents (Elt F) → (⟨S8, .f32⟩ : BufTy).Contents (Elt F)),
    nullary main_cst_15 (constant S_ .f32 0x00000000#32),
    binary main_v54 main_cst_15 main_v55 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_16 (constant S_ .f32 0x41000000#32),
    binary main_v55 main_cst_16 main_v56 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    binary main_v47 main_cst_17 main_v57 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_18 (constant S_ .f32 0x41000000#32),
    binary main_v57 main_cst_18 main_v58 (Host.divf : (⟨S_, .f32⟩ : BufTy).Contents (Elt F) → (⟨S_, .f32⟩ : BufTy).Contents (Elt F) → (⟨S_, .f32⟩ : BufTy).Contents (Elt F)),
    unary main_v56 main_v59 (broadcastInDim S1 ![] bcast_S_S1 : (⟨S_, .f32⟩ : BufTy).Contents (Elt F) → (⟨S1, .f32⟩ : BufTy).Contents (Elt F)),
    unary main_v58 main_v60 (broadcastInDim S1 ![] bcast_S_S1 : (⟨S_, .f32⟩ : BufTy).Contents (Elt F) → (⟨S1, .f32⟩ : BufTy).Contents (Elt F)),
    binary main_v59 main_v60 main_v61 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

/-- The first 31 operations: the mean, the maximum and the standard deviation of x. -/
abbrev opsA : List (HloOp τ sig (Elt F)) :=
  [ nullary main_cst (constant S_ .f32 0x00000000#32),
    binary main_arg0 main_cst main_v0 ((fun x v => Host.reduceAdd x v reducesTo_S8x100000x64_S8x64_d1 h_S_) : (⟨S8x100000x64, .f32⟩ : BufTy).Contents (Elt F) → (⟨S_, .f32⟩ : BufTy).Contents (Elt F) → (⟨S8x64, .f32⟩ : BufTy).Contents (Elt F)),
    nullary main_cst_0 (constant S_ .f32 0x47C35000#32),
    unary main_cst_0 main_v1 (broadcastInDim S8x64 ![] bcast_S_S8x64 : (⟨S_, .f32⟩ : BufTy).Contents (Elt F) → (⟨S8x64, .f32⟩ : BufTy).Contents (Elt F)),
    binary main_v0 main_v1 main_v2 (Host.divf : (⟨S8x64, .f32⟩ : BufTy).Contents (Elt F) → (⟨S8x64, .f32⟩ : BufTy).Contents (Elt F) → (⟨S8x64, .f32⟩ : BufTy).Contents (Elt F)),
    nullary main_cst_1 (constant S_ .f32 0xFF800000#32),
    binary main_arg0 main_cst_1 main_v3 ((fun x v => Host.reduce FloatOps.maximumf x v reducesTo_S8x100000x64_S8x64_d1 h_S_) : (⟨S8x100000x64, .f32⟩ : BufTy).Contents (Elt F) → (⟨S_, .f32⟩ : BufTy).Contents (Elt F) → (⟨S8x64, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S8x100000x64_S8x64_d1 h_S_),
    TRef.unary main_call0.call0.v0 main_call0.call0.v1 (broadcastInDim S8x1x64 ![0, 2] bcast_S8x64_S8x1x64_0_2),
    TRef.nullary main_call0.call0.cst_0 (constant S_ .f32 0x47C35000#32),
    TRef.unary main_call0.call0.cst_0 main_call0.call0.v2 (broadcastInDim S8x1x64 ![] bcast_S_S8x1x64),
    TRef.binary main_call0.call0.v1 main_call0.call0.v2 main_call0.call0.v3 Host.divf,
    TRef.unary main_call0.call0.v3 main_call0.call0.v4 (broadcastInDim S8x100000x64 ![0, 1, 2] bcast_S8x1x64_S8x100000x64_0_1_2),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x47C35000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8x100000x64_S8x64_d1 h_S_),
    TRef.unary main_call0.call0.v8 main_call0.call0.v10 (broadcastInDim S8x64 ![] bcast_S_S8x64),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8x64 ![] bcast_S_S8x64),
    TRef.ternary main_call0.call0.v12 main_call0.call0.v11 main_call0.call0.call0.v1 main_call0.call0.call0.v2 (fun p a b => select (broadcastInDim S8x64 ![] bcast_S_S8x64 p) a b),
    TRef.unary main_call0.call0.call0.v2 main_call0.v1 Host.sqrt ]

/-- The next 50: the degree histogram and the four structural numbers. -/
abbrev opsB : List (HloOp τ sig (Elt F)) :=
  [ nullary main_cst_2 (constant S_ .f32 0x00000000#32),
    unary main_cst_2 main_v5 (broadcastInDim S100000 ![] bcast_S_S100000 : (⟨S_, .f32⟩ : BufTy).Contents (Elt F) → (⟨S100000, .f32⟩ : BufTy).Contents (Elt F)),
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    nullary main_c_3 (constantI S_ 32 0#32),
    unary main_c_3 main_v8 (broadcastInDim S3200000 ![] bcast_S_S3200000 : (⟨S_, .i32⟩ : BufTy).Contents (Elt F) → (⟨S3200000, .i32⟩ : BufTy).Contents (Elt F)),
    binary main_v7 main_v8 main_v9 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v10 (broadcastInDim S3200000 ![] bcast_S_S3200000 : (⟨S_, .i32⟩ : BufTy).Contents (Elt F) → (⟨S3200000, .i32⟩ : BufTy).Contents (Elt F)),
    binary main_v7 main_v10 main_v11 (addi : (⟨S3200000, .i32⟩ : BufTy).Contents (Elt F) → (⟨S3200000, .i32⟩ : BufTy).Contents (Elt F) → (⟨S3200000, .i32⟩ : BufTy).Contents (Elt F)),
    ternary main_v9 main_v11 main_v7 main_v12 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v12 main_v13 (broadcastInDim S3200000x1 ![0] bcast_S3200000_S3200000x1_0 : (⟨S3200000, .i32⟩ : BufTy).Contents (Elt F) → (⟨S3200000x1, .i32⟩ : BufTy).Contents (Elt F)),
    nullary main_cst_5 (constant S_ .f32 0x3F800000#32),
    unary main_cst_5 main_v14 (broadcastInDim S3200000 ![] bcast_S_S3200000 : (⟨S_, .f32⟩ : BufTy).Contents (Elt F) → (⟨S3200000, .f32⟩ : BufTy).Contents (Elt F)),
    ternary main_v5 main_v13 main_v14 main_v15 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_6 (constant S_ .f32 0x00000000#32),
    binary main_v15 main_cst_6 main_v16 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    nullary main_cst_7 (constant S_ .f32 0x47C35000#32),
    binary main_v16 main_cst_7 main_v17 (Host.divf : (⟨S_, .f32⟩ : BufTy).Contents (Elt F) → (⟨S_, .f32⟩ : BufTy).Contents (Elt F) → (⟨S_, .f32⟩ : BufTy).Contents (Elt F)),
    nullary main_c_8 (constantI S_ 32 1#32),
    TRef.nullary main_call1.call0.cst (constant S_ .f32 0x00000000#32),
    TRef.binary (.of main_v15) main_call1.call0.cst main_call1.call0.v0 (fun x v => Host.reduceAdd x v reducesTo_S100000_S_d0 h_S_),
    TRef.unary main_call1.call0.v0 main_call1.call0.v1 (broadcastInDim S1 ![] bcast_S_S1),
    TRef.nullary main_call1.call0.cst_0 (constant S_ .f32 0x47C35000#32),
    TRef.unary main_call1.call0.cst_0 main_call1.call0.v2 (broadcastInDim S1 ![] bcast_S_S1),
    TRef.binary main_call1.call0.v1 main_call1.call0.v2 main_call1.call0.v3 Host.divf,
    TRef.unary main_call1.call0.v3 main_call1.call0.v4 (broadcastInDim S100000 ![0] bcast_S1_S100000_0),
    TRef.binary (.of main_v15) main_call1.call0.v4 main_call1.call0.v5 subf,
    TRef.binary main_call1.call0.v5 main_call1.call0.v5 main_call1.call0.v6 mulf,
    TRef.unary (.of main_c_8) main_call1.call0.v7 (sitofp .f32),
    TRef.nullary main_call1.call0.cst_1 (constant S_ .f32 0x47C35000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S100000_S_d0 h_S_),
    TRef.binary main_call1.call0.v9 main_call1.call0.v8 main_call1.call0.v10 Host.divf,
    TRef.nullary main_call1.call0.cst_3 (constant S_ .f32 0x00000000#32),
    TRef.binary main_call1.call0.v8 main_call1.call0.cst_3 main_call1.call0.v11 (cmpf .ogt),
    TRef.nullary main_call1.call0.cst_4 (constant S_ .f32 0x7FC00000#32),
    TRef.unary main_call1.call0.cst_4 main_call1.call0.call0.v0 id,
    TRef.ternary main_call1.call0.v11 main_call1.call0.v10 main_call1.call0.call0.v0 main_call1.call0.call0.v1 select,
    TRef.unary main_call1.call0.call0.v1 main_call1.v1 Host.sqrt,
    nullary main_cst_9 (constant S_ .f32 0x39A7C61A#32),
    nullary main_cst_10 (constant S_ .f32 0x3F935D96#32),
    unary main_v17 main_v19 (broadcastInDim S1 ![] bcast_S_S1 : (⟨S_, .f32⟩ : BufTy).Contents (Elt F) → (⟨S1, .f32⟩ : BufTy).Contents (Elt F)),
    unary main_v18 main_v20 (broadcastInDim S1 ![] bcast_S_S1 : (⟨S_, .f32⟩ : BufTy).Contents (Elt F) → (⟨S1, .f32⟩ : BufTy).Contents (Elt F)),
    unary main_cst_9 main_v21 (broadcastInDim S1 ![] bcast_S_S1 : (⟨S_, .f32⟩ : BufTy).Contents (Elt F) → (⟨S1, .f32⟩ : BufTy).Contents (Elt F)),
    unary main_cst_10 main_v22 (broadcastInDim S1 ![] bcast_S_S1 : (⟨S_, .f32⟩ : BufTy).Contents (Elt F) → (⟨S1, .f32⟩ : BufTy).Contents (Elt F)),
    nary ![main_v19, main_v20, main_v21, main_v22] main_v23 (fun u => concatenate S4 0 [⟨S1, u 0⟩, ⟨S1, u 1⟩, ⟨S1, u 2⟩, ⟨S1, u 3⟩] concatenates_S1_S1_S1_S1_S4_d0),
    unary main_v23 main_v24 (broadcastInDim S1x4 ![1] bcast_S4_S1x4_1 : (⟨S4, .f32⟩ : BufTy).Contents (Elt F) → (⟨S1x4, .f32⟩ : BufTy).Contents (Elt F)),
    unary main_v24 main_v25 (broadcastInDim S8x4 ![0, 1] bcast_S1x4_S8x4_0_1 : (⟨S1x4, .f32⟩ : BufTy).Contents (Elt F) → (⟨S8x4, .f32⟩ : BufTy).Contents (Elt F)) ]

/-- The last 48: the pooled numbers side by side, the network, the two batch means. -/
abbrev opsC : List (HloOp τ sig (Elt F)) :=
  [ nary ![main_v2, main_v3, main_v4, main_v25] main_v26 (fun u => concatenate S8x196 1 [⟨S8x64, u 0⟩, ⟨S8x64, u 1⟩, ⟨S8x64, u 2⟩, ⟨S8x4, u 3⟩] concatenates_S8x64_S8x64_S8x64_S8x4_S8x196_d1),
    binary main_v26 main_arg2 main_v27 ((fun l r => Host.dotGeneral dot_S8x196_S196x64_S8x64_1_0_0_1_n_n none l r) : (⟨S8x196, .f32⟩ : BufTy).Contents (Elt F) → (⟨S196x64, .f32⟩ : BufTy).Contents (Elt F) → (⟨S8x64, .f32⟩ : BufTy).Contents (Elt F)),
    unary main_arg3 main_v28 (broadcastInDim S1x64 ![1] bcast_S64_S1x64_1 : (⟨S64, .f32⟩ : BufTy).Contents (Elt F) → (⟨S1x64, .f32⟩ : BufTy).Contents (Elt F)),
    unary main_v28 main_v29 (broadcastInDim S8x64 ![0, 1] bcast_S1x64_S8x64_0_1 : (⟨S1x64, .f32⟩ : BufTy).Contents (Elt F) → (⟨S8x64, .f32⟩ : BufTy).Contents (Elt F)),
    binary main_v27 main_v29 main_v30 (addf : (⟨S8x64, .f32⟩ : BufTy).Contents (Elt F) → (⟨S8x64, .f32⟩ : BufTy).Contents (Elt F) → (⟨S8x64, .f32⟩ : BufTy).Contents (Elt F)),
    TRef.nullary main_call2.cst (constant S_ .f32 0x00000000#32),
    TRef.unary main_call2.cst main_call2.v0 (broadcastInDim S8x64 ![] bcast_S_S8x64),
    TRef.binary (.of main_v30) main_call2.v0 main_call2.v1 maximumf,
    binary main_v31 main_arg4 main_v32 ((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F)),
    unary main_arg5 main_v33 (broadcastInDim S1x32 ![1] bcast_S32_S1x32_1 : (⟨S32, .f32⟩ : BufTy).Contents (Elt F) → (⟨S1x32, .f32⟩ : BufTy).Contents (Elt F)),
    unary main_v33 main_v34 (broadcastInDim S8x32 ![0, 1] bcast_S1x32_S8x32_0_1 : (⟨S1x32, .f32⟩ : BufTy).Contents (Elt F) → (⟨S8x32, .f32⟩ : BufTy).Contents (Elt F)),
    binary main_v32 main_v34 main_v35 (addf : (⟨S8x32, .f32⟩ : BufTy).Contents (Elt F) → (⟨S8x32, .f32⟩ : BufTy).Contents (Elt F) → (⟨S8x32, .f32⟩ : BufTy).Contents (Elt F)),
    TRef.nullary main_call3.cst (constant S_ .f32 0x00000000#32),
    TRef.unary main_call3.cst main_call3.v0 (broadcastInDim S8x32 ![] bcast_S_S8x32),
    TRef.binary (.of main_v35) main_call3.v0 main_call3.v1 maximumf,
    binary main_v36 main_arg6 main_v37 ((fun l r => Host.dotGeneral dot_S8x32_S32x1_S8x1_1_0_0_1_n_n none l r) : (⟨S8x32, .f32⟩ : BufTy).Contents (Elt F) → (⟨S32x1, .f32⟩ : BufTy).Contents (Elt F) → (⟨S8x1, .f32⟩ : BufTy).Contents (Elt F)),
    unary main_arg7 main_v38 (broadcastInDim S1x1 ![1] bcast_S1_S1x1_1 : (⟨S1, .f32⟩ : BufTy).Contents (Elt F) → (⟨S1x1, .f32⟩ : BufTy).Contents (Elt F)),
    unary main_v38 main_v39 (broadcastInDim S8x1 ![0, 1] bcast_S1x1_S8x1_0_1 : (⟨S1x1, .f32⟩ : BufTy).Contents (Elt F) → (⟨S8x1, .f32⟩ : BufTy).Contents (Elt F)),
    binary main_v37 main_v39 main_v40 (addf : (⟨S8x1, .f32⟩ : BufTy).Contents (Elt F) → (⟨S8x1, .f32⟩ : BufTy).Contents (Elt F) → (⟨S8x1, .f32⟩ : BufTy).Contents (Elt F)),
    unary main_v40 main_v41 (Host.negf : (⟨S8x1, .f32⟩ : BufTy).Contents (Elt F) → (⟨S8x1, .f32⟩ : BufTy).Contents (Elt F)),
    unary main_v41 main_v42 (Host.exp : (⟨S8x1, .f32⟩ : BufTy).Contents (Elt F) → (⟨S8x1, .f32⟩ : BufTy).Contents (Elt F)),
    nullary main_cst_11 (constant S_ .f32 0x3F800000#32),
    unary main_cst_11 main_v43 (broadcastInDim S8x1 ![] bcast_S_S8x1 : (⟨S_, .f32⟩ : BufTy).Contents (Elt F) → (⟨S8x1, .f32⟩ : BufTy).Contents (Elt F)),
    binary main_v43 main_v42 main_v44 (addf : (⟨S8x1, .f32⟩ : BufTy).Contents (Elt F) → (⟨S8x1, .f32⟩ : BufTy).Contents (Elt F) → (⟨S8x1, .f32⟩ : BufTy).Contents (Elt F)),
    nullary main_cst_12 (constant S_ .f32 0x3F800000#32),
    unary main_cst_12 main_v45 (broadcastInDim S8x1 ![] bcast_S_S8x1 : (⟨S_, .f32⟩ : BufTy).Contents (Elt F) → (⟨S8x1, .f32⟩ : BufTy).Contents (Elt F)),
    binary main_v45 main_v44 main_v46 (Host.divf : (⟨S8x1, .f32⟩ : BufTy).Contents (Elt F) → (⟨S8x1, .f32⟩ : BufTy).Contents (Elt F) → (⟨S8x1, .f32⟩ : BufTy).Contents (Elt F)),
    reshape main_v46 main_v47 rfl shapeCasts_S8x1_S8,
    nullary main_cst_13 (constant S_ .f32 0x423C0000#32),
    unary main_cst_13 main_v48 (broadcastInDim S8 ![] bcast_S_S8 : (⟨S_, .f32⟩ : BufTy).Contents (Elt F) → (⟨S8, .f32⟩ : BufTy).Contents (Elt F)),
    binary main_v47 main_v48 main_v49 (mulf : (⟨S8, .f32⟩ : BufTy).Contents (Elt F) → (⟨S8, .f32⟩ : BufTy).Contents (Elt F) → (⟨S8, .f32⟩ : BufTy).Contents (Elt F)),
    nullary main_cst_14 (constant S_ .f32 0x40400000#32),
    unary main_cst_14 main_v50 (broadcastInDim S8 ![] bcast_S_S8 : (⟨S_, .f32⟩ : BufTy).Contents (Elt F) → (⟨S8, .f32⟩ : BufTy).Contents (Elt F)),
    binary main_v50 main_v49 main_v51 (addf : (⟨S8, .f32⟩ : BufTy).Contents (Elt F) → (⟨S8, .f32⟩ : BufTy).Contents (Elt F) → (⟨S8, .f32⟩ : BufTy).Contents (Elt F)),
    TRef.unary (.of main_v51) main_call4.v0 Host.roundeven,
    binary main_v52 main_v51 main_v53 (subf : (⟨S8, .f32⟩ : BufTy).Contents (Elt F) → (⟨S8, .f32⟩ : BufTy).Contents (Elt F) → (⟨S8, .f32⟩ : BufTy).Contents (Elt F)),
    binary main_v51 main_v53 main_v54 (addf : (⟨S8, .f32⟩ : BufTy).Contents (Elt F) → (⟨S8, .f32⟩ : BufTy).Contents (Elt F) → (⟨S8, .f32⟩ : BufTy).Contents (Elt F)),
    nullary main_cst_15 (constant S_ .f32 0x00000000#32),
    binary main_v54 main_cst_15 main_v55 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_16 (constant S_ .f32 0x41000000#32),
    binary main_v55 main_cst_16 main_v56 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    binary main_v47 main_cst_17 main_v57 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_18 (constant S_ .f32 0x41000000#32),
    binary main_v57 main_cst_18 main_v58 (Host.divf : (⟨S_, .f32⟩ : BufTy).Contents (Elt F) → (⟨S_, .f32⟩ : BufTy).Contents (Elt F) → (⟨S_, .f32⟩ : BufTy).Contents (Elt F)),
    unary main_v56 main_v59 (broadcastInDim S1 ![] bcast_S_S1 : (⟨S_, .f32⟩ : BufTy).Contents (Elt F) → (⟨S1, .f32⟩ : BufTy).Contents (Elt F)),
    unary main_v58 main_v60 (broadcastInDim S1 ![] bcast_S_S1 : (⟨S_, .f32⟩ : BufTy).Contents (Elt F) → (⟨S1, .f32⟩ : BufTy).Contents (Elt F)),
    binary main_v59 main_v60 main_v61 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

theorem ops_split : (ops : List (HloOp τ sig (Elt F))) = opsA ++ (opsB ++ opsC) := rfl

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., nullary_bufs_sub .., unary_bufs_sub .., unary_bufs_sub .., unary_bufs_sub .., unary_bufs_sub .., nary_bufs_sub .., unary_bufs_sub .., unary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., binary_bufs_sub ..⟩

end Cert.ReferenceIdeal.RefRun

end
-- ==== Proof.RefRun.lean ====
/-
  The reference program is a straight line of host operations once each called function (the unbiased standard
  deviation, which calls the variance, which calls the masked select; the two rectifiers; the rounding) is read
  at its call site: this module says so (`main_eq`), runs the line, and reads off that no operation writes
  an argument array.
-/
import proofs.«152827_j5093831213700_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the two halves of @main and nine function bodies, re-associated into one chain of 129 steps
set_option maxRecDepth 8192 in
/-- @main is the listed line: unfolding each function at its call and re-associating the sequencing leaves the
    129 operations in order. -/
theorem main_eq (c : Dev nD) : main (F := F) c = seq ops := by
  simp only [main, main_part0, main_part1, fn_std.body, fn_var.body, fn_where.body, fn_std_0.body, fn_var_1.body,
    fn_where_2.body, fn_relu.body, fn_relu_3.body, fn_round.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, and each buffer ends at the fold of the 129 operations
    over the contents the program was started with. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## No operation writes an argument array

Each of the 129 operations writes its own result buffer, and none of those is an argument: read at an argument, the
fold over the line is the starting contents. -/

theorem kept_arg0 (V : Valuation τ sig (Elt F)) :
    after ops V (Proc.devRef .tc main_arg0) = V (Proc.devRef .tc main_arg0) := by after_results_simp
theorem kept_arg1 (V : Valuation τ sig (Elt F)) :
    after ops V (Proc.devRef .tc main_arg1) = V (Proc.devRef .tc main_arg1) := by after_results_simp
theorem kept_arg2 (V : Valuation τ sig (Elt F)) :
    after ops V (Proc.devRef .tc main_arg2) = V (Proc.devRef .tc main_arg2) := by after_results_simp
theorem kept_arg3 (V : Valuation τ sig (Elt F)) :
    after ops V (Proc.devRef .tc main_arg3) = V (Proc.devRef .tc main_arg3) := by after_results_simp
theorem kept_arg4 (V : Valuation τ sig (Elt F)) :
    after ops V (Proc.devRef .tc main_arg4) = V (Proc.devRef .tc main_arg4) := by after_results_simp
theorem kept_arg5 (V : Valuation τ sig (Elt F)) :
    after ops V (Proc.devRef .tc main_arg5) = V (Proc.devRef .tc main_arg5) := by after_results_simp
theorem kept_arg6 (V : Valuation τ sig (Elt F)) :
    after ops V (Proc.devRef .tc main_arg6) = V (Proc.devRef .tc main_arg6) := by after_results_simp
theorem kept_arg7 (V : Valuation τ sig (Elt F)) :
    after ops V (Proc.devRef .tc main_arg7) = V (Proc.devRef .tc main_arg7) := by after_results_simp

/-- The reference terminates without a fault and its eight argument arrays end as they began. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_arg0).trans (kept_arg0 _), (h c main_arg1).trans (kept_arg1 _), (h c main_arg2).trans (kept_arg2 _),
     (h c main_arg3).trans (kept_arg3 _), (h c main_arg4).trans (kept_arg4 _), (h c main_arg5).trans (kept_arg5 _),
     (h c main_arg6).trans (kept_arg6 _), (h c main_arg7).trans (kept_arg7 _)⟩)
    (run_all m ρ)

end Cert.ReferenceIdeal.RefRun

end
-- ==== Proof.KVals.lean ====
/- The host lines of the printed program read as pure functions: each value below is the chain of the operations that
   compute it from the named inputs, one line per operation in program order (a called function's operations at its
   call). A transcription of the printed program; nothing is argued here. -/
import proofs.«152827_j5093831213700_2_alg».proof.Proof.Gen.KernelIdeal

noncomputable section

namespace Cert.KernelIdeal.Vals

open Cert.KernelIdeal Cert.KernelIdeal.Gen Idealize.ShloMosaic

variable {F : FTy → Type} [FloatOps F]

/-- The mean over the nodes: the two lane halves of the kernel's sums added, divided by 100000. -/
def kMean (s : FVec F S8x1x128 .f32) : FVec F S8x64 .f32 :=
  let main_v2 := shapeCast S8x128 s shapeCasts_S8x1x128_S8x128
  let main_v5 := (((extractStridedSlice S8x64 ![0, 0] · slices_S8x128_S8x64_0_0) : (⟨S8x128, .f32⟩ : BufTy).Contents (Elt F) → (⟨S8x64, .f32⟩ : BufTy).Contents (Elt F))) main_v2
  let main_v6 := (((extractStridedSlice S8x64 ![0, 64] · slices_S8x128_S8x64_0_64) : (⟨S8x128, .f32⟩ : BufTy).Contents (Elt F) → (⟨S8x64, .f32⟩ : BufTy).Contents (Elt F))) main_v2
  let main_v7 := ((addf : (⟨S8x64, .f32⟩ : BufTy).Contents (Elt F) → (⟨S8x64, .f32⟩ : BufTy).Contents (Elt F) → (⟨S8x64, .f32⟩ : BufTy).Contents (Elt F))) main_v5 main_v6
  let main_cst := (constant S_ .f32 0x47C35000#32)
  let main_v14 := ((broadcastInDim S8x64 ![] bcast_S_S8x64 : (⟨S_, .f32⟩ : BufTy).Contents (Elt F) → (⟨S8x64, .f32⟩ : BufTy).Contents (Elt F))) main_cst
  let main_v15 := ((Host.divf : (⟨S8x64, .f32⟩ : BufTy).Contents (Elt F) → (⟨S8x64, .f32⟩ : BufTy).Contents (Elt F) → (⟨S8x64, .f32⟩ : BufTy).Contents (Elt F))) main_v7 main_v14
  main_v15

/-- The maximum over the nodes: the larger of the two lane halves of the kernel's maxima. -/
def kMax (mx : FVec F S8x1x128 .f32) : FVec F S8x64 .f32 :=
  let main_v4 := shapeCast S8x128 mx shapeCasts_S8x1x128_S8x128
  let main_v11 := (((extractStridedSlice S8x64 ![0, 0] · slices_S8x128_S8x64_0_0) : (⟨S8x128, .f32⟩ : BufTy).Contents (Elt F) → (⟨S8x64, .f32⟩ : BufTy).Contents (Elt F))) main_v4
  let main_v12 := (((extractStridedSlice S8x64 ![0, 64] · slices_S8x128_S8x64_0_64) : (⟨S8x128, .f32⟩ : BufTy).Contents (Elt F) → (⟨S8x64, .f32⟩ : BufTy).Contents (Elt F))) main_v4
  let main_v13 := ((maximumf : (⟨S8x64, .f32⟩ : BufTy).Contents (Elt F) → (⟨S8x64, .f32⟩ : BufTy).Contents (Elt F) → (⟨S8x64, .f32⟩ : BufTy).Contents (Elt F))) main_v11 main_v12
  main_v13

/-- The unbiased standard deviation from the sum and the sum of squares: sqrt(max((q - s*s/N)/(N-1), 0)). -/
def kStd (s : FVec F S8x1x128 .f32) (q : FVec F S8x1x128 .f32) : FVec F S8x64 .f32 :=
  let main_v2 := shapeCast S8x128 s shapeCasts_S8x1x128_S8x128
  let main_v3 := shapeCast S8x128 q shapeCasts_S8x1x128_S8x128
  let main_v5 := (((extractStridedSlice S8x64 ![0, 0] · slices_S8x128_S8x64_0_0) : (⟨S8x128, .f32⟩ : BufTy).Contents (Elt F) → (⟨S8x64, .f32⟩ : BufTy).Contents (Elt F))) main_v2
  let main_v6 := (((extractStridedSlice S8x64 ![0, 64] · slices_S8x128_S8x64_0_64) : (⟨S8x128, .f32⟩ : BufTy).Contents (Elt F) → (⟨S8x64, .f32⟩ : BufTy).Contents (Elt F))) main_v2
  let main_v7 := ((addf : (⟨S8x64, .f32⟩ : BufTy).Contents (Elt F) → (⟨S8x64, .f32⟩ : BufTy).Contents (Elt F) → (⟨S8x64, .f32⟩ : BufTy).Contents (Elt F))) main_v5 main_v6
  let main_v8 := (((extractStridedSlice S8x64 ![0, 0] · slices_S8x128_S8x64_0_0) : (⟨S8x128, .f32⟩ : BufTy).Contents (Elt F) → (⟨S8x64, .f32⟩ : BufTy).Contents (Elt F))) main_v3
  let main_v9 := (((extractStridedSlice S8x64 ![0, 64] · slices_S8x128_S8x64_0_64) : (⟨S8x128, .f32⟩ : BufTy).Contents (Elt F) → (⟨S8x64, .f32⟩ : BufTy).Contents (Elt F))) main_v3
  let main_v10 := ((addf : (⟨S8x64, .f32⟩ : BufTy).Contents (Elt F) → (⟨S8x64, .f32⟩ : BufTy).Contents (Elt F) → (⟨S8x64, .f32⟩ : BufTy).Contents (Elt F))) main_v8 main_v9
  let main_v16 := ((mulf : (⟨S8x64, .f32⟩ : BufTy).Contents (Elt F) → (⟨S8x64, .f32⟩ : BufTy).Contents (Elt F) → (⟨S8x64, .f32⟩ : BufTy).Contents (Elt F))) main_v7 main_v7
  let main_cst_0 := (constant S_ .f32 0x47C35000#32)
  let main_v17 := ((broadcastInDim S8x64 ![] bcast_S_S8x64 : (⟨S_, .f32⟩ : BufTy).Contents (Elt F) → (⟨S8x64, .f32⟩ : BufTy).Contents (Elt F))) main_cst_0
  let main_v18 := ((Host.divf : (⟨S8x64, .f32⟩ : BufTy).Contents (Elt F) → (⟨S8x64, .f32⟩ : BufTy).Contents (Elt F) → (⟨S8x64, .f32⟩ : BufTy).Contents (Elt F))) main_v16 main_v17
  let main_v19 := ((subf : (⟨S8x64, .f32⟩ : BufTy).Contents (Elt F) → (⟨S8x64, .f32⟩ : BufTy).Contents (Elt F) → (⟨S8x64, .f32⟩ : BufTy).Contents (Elt F))) main_v10 main_v18
  let main_cst_1 := (constant S_ .f32 0x47C34F80#32)
  let main_v20 := ((broadcastInDim S8x64 ![] bcast_S_S8x64 : (⟨S_, .f32⟩ : BufTy).Contents (Elt F) → (⟨S8x64, .f32⟩ : BufTy).Contents (Elt F))) main_cst_1
  let main_v21 := ((Host.divf : (⟨S8x64, .f32⟩ : BufTy).Contents (Elt F) → (⟨S8x64, .f32⟩ : BufTy).Contents (Elt F) → (⟨S8x64, .f32⟩ : BufTy).Contents (Elt F))) main_v19 main_v20
  let main_cst_2 := (constant S_ .f32 0x00000000#32)
  let main_v22 := ((broadcastInDim S8x64 ![] bcast_S_S8x64 : (⟨S_, .f32⟩ : BufTy).Contents (Elt F) → (⟨S8x64, .f32⟩ : BufTy).Contents (Elt F))) main_cst_2
  let main_v23 := ((maximumf : (⟨S8x64, .f32⟩ : BufTy).Contents (Elt F) → (⟨S8x64, .f32⟩ : BufTy).Contents (Elt F) → (⟨S8x64, .f32⟩ : BufTy).Contents (Elt F))) main_v21 main_v22
  let main_v24 := ((Host.sqrt : (⟨S8x64, .f32⟩ : BufTy).Contents (Elt F) → (⟨S8x64, .f32⟩ : BufTy).Contents (Elt F))) main_v23
  main_v24

/-- The in-degree histogram: one added at each edge's target index (a negative index counted from the end). -/
def kDeg (e : IVec S2x3200000 32) : FVec F S100000 .f32 :=
  let main_v25 := (((extractStridedSlice S1x3200000 ![1, 0] · slices_S2x3200000_S1x3200000_1_0) : (⟨S2x3200000, .i32⟩ : BufTy).Contents (Elt F) → (⟨S1x3200000, .i32⟩ : BufTy).Contents (Elt F))) e
  let main_v26 := shapeCast S3200000 main_v25 shapeCasts_S1x3200000_S3200000
  let main_cst_3 := (constant S_ .f32 0x00000000#32)
  let main_v27 := ((broadcastInDim S100000 ![] bcast_S_S100000 : (⟨S_, .f32⟩ : BufTy).Contents (Elt F) → (⟨S100000, .f32⟩ : BufTy).Contents (Elt F))) main_cst_3
  let main_c := (constantI S_ 32 0#32)
  let main_v28 := ((broadcastInDim S3200000 ![] bcast_S_S3200000 : (⟨S_, .i32⟩ : BufTy).Contents (Elt F) → (⟨S3200000, .i32⟩ : BufTy).Contents (Elt F))) main_c
  let main_v29 := ((cmpi .slt : (⟨S3200000, .i32⟩ : BufTy).Contents (Elt F) → (⟨S3200000, .i32⟩ : BufTy).Contents (Elt F) → (⟨S3200000, .i1⟩ : BufTy).Contents (Elt F))) main_v26 main_v28
  let main_c_4 := (constantI S_ 32 100000#32)
  let main_v30 := ((broadcastInDim S3200000 ![] bcast_S_S3200000 : (⟨S_, .i32⟩ : BufTy).Contents (Elt F) → (⟨S3200000, .i32⟩ : BufTy).Contents (Elt F))) main_c_4
  let main_v31 := ((addi : (⟨S3200000, .i32⟩ : BufTy).Contents (Elt F) → (⟨S3200000, .i32⟩ : BufTy).Contents (Elt F) → (⟨S3200000, .i32⟩ : BufTy).Contents (Elt F))) main_v26 main_v30
  let main_v32 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F))) main_v29 main_v31 main_v26
  let main_v33 := ((broadcastInDim S3200000x1 ![0] bcast_S3200000_S3200000x1_0 : (⟨S3200000, .i32⟩ : BufTy).Contents (Elt F) → (⟨S3200000x1, .i32⟩ : BufTy).Contents (Elt F))) main_v32
  let main_cst_5 := (constant S_ .f32 0x3F800000#32)
  let main_v34 := ((broadcastInDim S3200000 ![] bcast_S_S3200000 : (⟨S_, .f32⟩ : BufTy).Contents (Elt F) → (⟨S3200000, .f32⟩ : BufTy).Contents (Elt F))) main_cst_5
  let main_v35 := (((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F))) main_v27 main_v33 main_v34
  main_v35

/-- The four structural numbers, one row per batch: the constant 32, the histogram's unbiased standard deviation, two constants. -/
def kStruct (deg : FVec F S100000 .f32) : FVec F S8x4 .f32 :=
  let main_c_6 := (constantI S_ 32 1#32)
  let main_call0_call0_cst := (constant S_ .f32 0x00000000#32)
  let main_call0_call0_v0 := ((fun x v => Host.reduceAdd x v reducesTo_S100000_S_d0 h_S_)) deg main_call0_call0_cst
  let main_call0_call0_v1 := ((broadcastInDim S1 ![] bcast_S_S1)) main_call0_call0_v0
  let main_call0_call0_cst_0 := (constant S_ .f32 0x47C35000#32)
  let main_call0_call0_v2 := ((broadcastInDim S1 ![] bcast_S_S1)) main_call0_call0_cst_0
  let main_call0_call0_v3 := (Host.divf) main_call0_call0_v1 main_call0_call0_v2
  let main_call0_call0_v4 := ((broadcastInDim S100000 ![0] bcast_S1_S100000_0)) main_call0_call0_v3
  let main_call0_call0_v5 := (subf) deg main_call0_call0_v4
  let main_call0_call0_v6 := (mulf) main_call0_call0_v5 main_call0_call0_v5
  let main_call0_call0_v7 := ((sitofp .f32)) main_c_6
  let main_call0_call0_cst_1 := (constant S_ .f32 0x47C35000#32)
  let main_call0_call0_v8 := (subf) main_call0_call0_cst_1 main_call0_call0_v7
  let main_call0_call0_cst_2 := (constant S_ .f32 0x00000000#32)
  let main_call0_call0_v9 := ((fun x v => Host.reduceAdd x v reducesTo_S100000_S_d0 h_S_)) main_call0_call0_v6 main_call0_call0_cst_2
  let main_call0_call0_v10 := (Host.divf) main_call0_call0_v9 main_call0_call0_v8
  let main_call0_call0_cst_3 := (constant S_ .f32 0x00000000#32)
  let main_call0_call0_v11 := ((cmpf .ogt)) main_call0_call0_v8 main_call0_call0_cst_3
  let main_call0_call0_cst_4 := (constant S_ .f32 0x7FC00000#32)
  let main_call0_call0_call0_v0 := (id) main_call0_call0_cst_4
  let main_call0_v0 := (select) main_call0_call0_v11 main_call0_call0_v10 main_call0_call0_call0_v0
  let main_v36 := (Host.sqrt) main_call0_v0
  let main_cst_7 := (constant S_ .f32 0x42000000#32)
  let main_cst_8 := (constant S_ .f32 0x39A7C61A#32)
  let main_cst_9 := (constant S_ .f32 0x3F935D96#32)
  let main_v37 := ((broadcastInDim S1 ![] bcast_S_S1 : (⟨S_, .f32⟩ : BufTy).Contents (Elt F) → (⟨S1, .f32⟩ : BufTy).Contents (Elt F))) main_cst_7
  let main_v38 := ((broadcastInDim S1 ![] bcast_S_S1 : (⟨S_, .f32⟩ : BufTy).Contents (Elt F) → (⟨S1, .f32⟩ : BufTy).Contents (Elt F))) main_v36
  let main_v39 := ((broadcastInDim S1 ![] bcast_S_S1 : (⟨S_, .f32⟩ : BufTy).Contents (Elt F) → (⟨S1, .f32⟩ : BufTy).Contents (Elt F))) main_cst_8
  let main_v40 := ((broadcastInDim S1 ![] bcast_S_S1 : (⟨S_, .f32⟩ : BufTy).Contents (Elt F) → (⟨S1, .f32⟩ : BufTy).Contents (Elt F))) main_cst_9
  let main_v41 := concatenate S4 0 [⟨S1, main_v37⟩, ⟨S1, main_v38⟩, ⟨S1, main_v39⟩, ⟨S1, main_v40⟩] concatenates_S1_S1_S1_S1_S4_d0
  let main_v42 := ((broadcastInDim S1x4 ![1] bcast_S4_S1x4_1 : (⟨S4, .f32⟩ : BufTy).Contents (Elt F) → (⟨S1x4, .f32⟩ : BufTy).Contents (Elt F))) main_v41
  let main_v43 := ((broadcastInDim S8x4 ![0, 1] bcast_S1x4_S8x4_0_1 : (⟨S1x4, .f32⟩ : BufTy).Contents (Elt F) → (⟨S8x4, .f32⟩ : BufTy).Contents (Elt F))) main_v42
  main_v43

/-- The 196 pooled numbers of each batch, side by side. -/
def kFront (p1 : FVec F S8x64 .f32) (p2 : FVec F S8x64 .f32) (p3 : FVec F S8x64 .f32) (p4 : FVec F S8x4 .f32) : FVec F S8x196 .f32 :=
  let main_v44 := concatenate S8x196 1 [⟨S8x64, p1⟩, ⟨S8x64, p2⟩, ⟨S8x64, p3⟩, ⟨S8x4, p4⟩] concatenates_S8x64_S8x64_S8x64_S8x4_S8x196_d1
  main_v44

/-- The network on the pooled numbers, the rounding, the two batch means. -/
def kHead (gf : FVec F S8x196 .f32) (w1 : FVec F S196x64 .f32) (b1 : FVec F S64 .f32) (w2 : FVec F S64x32 .f32) (b2 : FVec F S32 .f32) (w3 : FVec F S32x1 .f32) (b3 : FVec F S1 .f32) : FVec F S2 .f32 :=
  let main_v45 := (((fun l r => Host.dotGeneral dot_S8x196_S196x64_S8x64_1_0_0_1_n_n none l r) : (⟨S8x196, .f32⟩ : BufTy).Contents (Elt F) → (⟨S196x64, .f32⟩ : BufTy).Contents (Elt F) → (⟨S8x64, .f32⟩ : BufTy).Contents (Elt F))) gf w1
  let main_v46 := ((broadcastInDim S1x64 ![1] bcast_S64_S1x64_1 : (⟨S64, .f32⟩ : BufTy).Contents (Elt F) → (⟨S1x64, .f32⟩ : BufTy).Contents (Elt F))) b1
  let main_v47 := ((broadcastInDim S8x64 ![0, 1] bcast_S1x64_S8x64_0_1 : (⟨S1x64, .f32⟩ : BufTy).Contents (Elt F) → (⟨S8x64, .f32⟩ : BufTy).Contents (Elt F))) main_v46
  let main_v48 := ((addf : (⟨S8x64, .f32⟩ : BufTy).Contents (Elt F) → (⟨S8x64, .f32⟩ : BufTy).Contents (Elt F) → (⟨S8x64, .f32⟩ : BufTy).Contents (Elt F))) main_v45 main_v47
  let main_call1_cst := (constant S_ .f32 0x00000000#32)
  let main_call1_v0 := ((broadcastInDim S8x64 ![] bcast_S_S8x64)) main_call1_cst
  let main_v49 := (maximumf) main_v48 main_call1_v0
  let main_v50 := (((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F))) main_v49 w2
  let main_v51 := ((broadcastInDim S1x32 ![1] bcast_S32_S1x32_1 : (⟨S32, .f32⟩ : BufTy).Contents (Elt F) → (⟨S1x32, .f32⟩ : BufTy).Contents (Elt F))) b2
  let main_v52 := ((broadcastInDim S8x32 ![0, 1] bcast_S1x32_S8x32_0_1 : (⟨S1x32, .f32⟩ : BufTy).Contents (Elt F) → (⟨S8x32, .f32⟩ : BufTy).Contents (Elt F))) main_v51
  let main_v53 := ((addf : (⟨S8x32, .f32⟩ : BufTy).Contents (Elt F) → (⟨S8x32, .f32⟩ : BufTy).Contents (Elt F) → (⟨S8x32, .f32⟩ : BufTy).Contents (Elt F))) main_v50 main_v52
  let main_call2_cst := (constant S_ .f32 0x00000000#32)
  let main_call2_v0 := ((broadcastInDim S8x32 ![] bcast_S_S8x32)) main_call2_cst
  let main_v54 := (maximumf) main_v53 main_call2_v0
  let main_v55 := (((fun l r => Host.dotGeneral dot_S8x32_S32x1_S8x1_1_0_0_1_n_n none l r) : (⟨S8x32, .f32⟩ : BufTy).Contents (Elt F) → (⟨S32x1, .f32⟩ : BufTy).Contents (Elt F) → (⟨S8x1, .f32⟩ : BufTy).Contents (Elt F))) main_v54 w3
  let main_v56 := ((broadcastInDim S1x1 ![1] bcast_S1_S1x1_1 : (⟨S1, .f32⟩ : BufTy).Contents (Elt F) → (⟨S1x1, .f32⟩ : BufTy).Contents (Elt F))) b3
  let main_v57 := ((broadcastInDim S8x1 ![0, 1] bcast_S1x1_S8x1_0_1 : (⟨S1x1, .f32⟩ : BufTy).Contents (Elt F) → (⟨S8x1, .f32⟩ : BufTy).Contents (Elt F))) main_v56
  let main_v58 := ((addf : (⟨S8x1, .f32⟩ : BufTy).Contents (Elt F) → (⟨S8x1, .f32⟩ : BufTy).Contents (Elt F) → (⟨S8x1, .f32⟩ : BufTy).Contents (Elt F))) main_v55 main_v57
  let main_v59 := ((Host.negf : (⟨S8x1, .f32⟩ : BufTy).Contents (Elt F) → (⟨S8x1, .f32⟩ : BufTy).Contents (Elt F))) main_v58
  let main_v60 := ((Host.exp : (⟨S8x1, .f32⟩ : BufTy).Contents (Elt F) → (⟨S8x1, .f32⟩ : BufTy).Contents (Elt F))) main_v59
  let main_cst_10 := (constant S_ .f32 0x3F800000#32)
  let main_v61 := ((broadcastInDim S8x1 ![] bcast_S_S8x1 : (⟨S_, .f32⟩ : BufTy).Contents (Elt F) → (⟨S8x1, .f32⟩ : BufTy).Contents (Elt F))) main_cst_10
  let main_v62 := ((addf : (⟨S8x1, .f32⟩ : BufTy).Contents (Elt F) → (⟨S8x1, .f32⟩ : BufTy).Contents (Elt F) → (⟨S8x1, .f32⟩ : BufTy).Contents (Elt F))) main_v61 main_v60
  let main_cst_11 := (constant S_ .f32 0x3F800000#32)
  let main_v63 := ((broadcastInDim S8x1 ![] bcast_S_S8x1 : (⟨S_, .f32⟩ : BufTy).Contents (Elt F) → (⟨S8x1, .f32⟩ : BufTy).Contents (Elt F))) main_cst_11
  let main_v64 := ((Host.divf : (⟨S8x1, .f32⟩ : BufTy).Contents (Elt F) → (⟨S8x1, .f32⟩ : BufTy).Contents (Elt F) → (⟨S8x1, .f32⟩ : BufTy).Contents (Elt F))) main_v63 main_v62
  let main_v65 := shapeCast S8 main_v64 shapeCasts_S8x1_S8
  let main_cst_12 := (constant S_ .f32 0x423C0000#32)
  let main_v66 := ((broadcastInDim S8 ![] bcast_S_S8 : (⟨S_, .f32⟩ : BufTy).Contents (Elt F) → (⟨S8, .f32⟩ : BufTy).Contents (Elt F))) main_cst_12
  let main_v67 := ((mulf : (⟨S8, .f32⟩ : BufTy).Contents (Elt F) → (⟨S8, .f32⟩ : BufTy).Contents (Elt F) → (⟨S8, .f32⟩ : BufTy).Contents (Elt F))) main_v65 main_v66
  let main_cst_13 := (constant S_ .f32 0x40400000#32)
  let main_v68 := ((broadcastInDim S8 ![] bcast_S_S8 : (⟨S_, .f32⟩ : BufTy).Contents (Elt F) → (⟨S8, .f32⟩ : BufTy).Contents (Elt F))) main_cst_13
  let main_v69 := ((addf : (⟨S8, .f32⟩ : BufTy).Contents (Elt F) → (⟨S8, .f32⟩ : BufTy).Contents (Elt F) → (⟨S8, .f32⟩ : BufTy).Contents (Elt F))) main_v68 main_v67
  let main_v70 := (Host.roundeven) main_v69
  let main_v71 := ((subf : (⟨S8, .f32⟩ : BufTy).Contents (Elt F) → (⟨S8, .f32⟩ : BufTy).Contents (Elt F) → (⟨S8, .f32⟩ : BufTy).Contents (Elt F))) main_v70 main_v69
  let main_v72 := ((addf : (⟨S8, .f32⟩ : BufTy).Contents (Elt F) → (⟨S8, .f32⟩ : BufTy).Contents (Elt F) → (⟨S8, .f32⟩ : BufTy).Contents (Elt F))) main_v69 main_v71
  let main_cst_14 := (constant S_ .f32 0x00000000#32)
  let main_v73 := (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))) main_v72 main_cst_14
  let main_cst_15 := (constant S_ .f32 0x41000000#32)
  let main_v74 := ((Host.divf : (⟨S_, .f32⟩ : BufTy).Contents (Elt F) → (⟨S_, .f32⟩ : BufTy).Contents (Elt F) → (⟨S_, .f32⟩ : BufTy).Contents (Elt F))) main_v73 main_cst_15
  let main_cst_16 := (constant S_ .f32 0x00000000#32)
  let main_v75 := (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))) main_v65 main_cst_16
  let main_cst_17 := (constant S_ .f32 0x41000000#32)
  let main_v76 := ((Host.divf : (⟨S_, .f32⟩ : BufTy).Contents (Elt F) → (⟨S_, .f32⟩ : BufTy).Contents (Elt F) → (⟨S_, .f32⟩ : BufTy).Contents (Elt F))) main_v75 main_cst_17
  let main_v77 := ((broadcastInDim S1 ![] bcast_S_S1 : (⟨S_, .f32⟩ : BufTy).Contents (Elt F) → (⟨S1, .f32⟩ : BufTy).Contents (Elt F))) main_v74
  let main_v78 := ((broadcastInDim S1 ![] bcast_S_S1 : (⟨S_, .f32⟩ : BufTy).Contents (Elt F) → (⟨S1, .f32⟩ : BufTy).Contents (Elt F))) main_v76
  let main_v79 := (((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))) main_v77 main_v78
  main_v79

/-- The first layer before its rectifier: the structural rows from the histogram, the 196 pooled numbers side by side, times the first weights, plus the first bias. -/
def kPre (p1 : FVec F S8x64 .f32) (p2 : FVec F S8x64 .f32) (p3 : FVec F S8x64 .f32) (deg : FVec F S100000 .f32) (w1 : FVec F S196x64 .f32) (b1 : FVec F S64 .f32) : FVec F S8x64 .f32 :=
  let main_c_6 := (constantI S_ 32 1#32)
  let main_call0_call0_cst := (constant S_ .f32 0x00000000#32)
  let main_call0_call0_v0 := ((fun x v => Host.reduceAdd x v reducesTo_S100000_S_d0 h_S_)) deg main_call0_call0_cst
  let main_call0_call0_v1 := ((broadcastInDim S1 ![] bcast_S_S1)) main_call0_call0_v0
  let main_call0_call0_cst_0 := (constant S_ .f32 0x47C35000#32)
  let main_call0_call0_v2 := ((broadcastInDim S1 ![] bcast_S_S1)) main_call0_call0_cst_0
  let main_call0_call0_v3 := (Host.divf) main_call0_call0_v1 main_call0_call0_v2
  let main_call0_call0_v4 := ((broadcastInDim S100000 ![0] bcast_S1_S100000_0)) main_call0_call0_v3
  let main_call0_call0_v5 := (subf) deg main_call0_call0_v4
  let main_call0_call0_v6 := (mulf) main_call0_call0_v5 main_call0_call0_v5
  let main_call0_call0_v7 := ((sitofp .f32)) main_c_6
  let main_call0_call0_cst_1 := (constant S_ .f32 0x47C35000#32)
  let main_call0_call0_v8 := (subf) main_call0_call0_cst_1 main_call0_call0_v7
  let main_call0_call0_cst_2 := (constant S_ .f32 0x00000000#32)
  let main_call0_call0_v9 := ((fun x v => Host.reduceAdd x v reducesTo_S100000_S_d0 h_S_)) main_call0_call0_v6 main_call0_call0_cst_2
  let main_call0_call0_v10 := (Host.divf) main_call0_call0_v9 main_call0_call0_v8
  let main_call0_call0_cst_3 := (constant S_ .f32 0x00000000#32)
  let main_call0_call0_v11 := ((cmpf .ogt)) main_call0_call0_v8 main_call0_call0_cst_3
  let main_call0_call0_cst_4 := (constant S_ .f32 0x7FC00000#32)
  let main_call0_call0_call0_v0 := (id) main_call0_call0_cst_4
  let main_call0_v0 := (select) main_call0_call0_v11 main_call0_call0_v10 main_call0_call0_call0_v0
  let main_v36 := (Host.sqrt) main_call0_v0
  let main_cst_7 := (constant S_ .f32 0x42000000#32)
  let main_cst_8 := (constant S_ .f32 0x39A7C61A#32)
  let main_cst_9 := (constant S_ .f32 0x3F935D96#32)
  let main_v37 := ((broadcastInDim S1 ![] bcast_S_S1 : (⟨S_, .f32⟩ : BufTy).Contents (Elt F) → (⟨S1, .f32⟩ : BufTy).Contents (Elt F))) main_cst_7
  let main_v38 := ((broadcastInDim S1 ![] bcast_S_S1 : (⟨S_, .f32⟩ : BufTy).Contents (Elt F) → (⟨S1, .f32⟩ : BufTy).Contents (Elt F))) main_v36
  let main_v39 := ((broadcastInDim S1 ![] bcast_S_S1 : (⟨S_, .f32⟩ : BufTy).Contents (Elt F) → (⟨S1, .f32⟩ : BufTy).Contents (Elt F))) main_cst_8
  let main_v40 := ((broadcastInDim S1 ![] bcast_S_S1 : (⟨S_, .f32⟩ : BufTy).Contents (Elt F) → (⟨S1, .f32⟩ : BufTy).Contents (Elt F))) main_cst_9
  let main_v41 := concatenate S4 0 [⟨S1, main_v37⟩, ⟨S1, main_v38⟩, ⟨S1, main_v39⟩, ⟨S1, main_v40⟩] concatenates_S1_S1_S1_S1_S4_d0
  let main_v42 := ((broadcastInDim S1x4 ![1] bcast_S4_S1x4_1 : (⟨S4, .f32⟩ : BufTy).Contents (Elt F) → (⟨S1x4, .f32⟩ : BufTy).Contents (Elt F))) main_v41
  let main_v43 := ((broadcastInDim S8x4 ![0, 1] bcast_S1x4_S8x4_0_1 : (⟨S1x4, .f32⟩ : BufTy).Contents (Elt F) → (⟨S8x4, .f32⟩ : BufTy).Contents (Elt F))) main_v42
  let main_v44 := concatenate S8x196 1 [⟨S8x64, p1⟩, ⟨S8x64, p2⟩, ⟨S8x64, p3⟩, ⟨S8x4, main_v43⟩] concatenates_S8x64_S8x64_S8x64_S8x4_S8x196_d1
  let main_v45 := (((fun l r => Host.dotGeneral dot_S8x196_S196x64_S8x64_1_0_0_1_n_n none l r) : (⟨S8x196, .f32⟩ : BufTy).Contents (Elt F) → (⟨S196x64, .f32⟩ : BufTy).Contents (Elt F) → (⟨S8x64, .f32⟩ : BufTy).Contents (Elt F))) main_v44 w1
  let main_v46 := ((broadcastInDim S1x64 ![1] bcast_S64_S1x64_1 : (⟨S64, .f32⟩ : BufTy).Contents (Elt F) → (⟨S1x64, .f32⟩ : BufTy).Contents (Elt F))) b1
  let main_v47 := ((broadcastInDim S8x64 ![0, 1] bcast_S1x64_S8x64_0_1 : (⟨S1x64, .f32⟩ : BufTy).Contents (Elt F) → (⟨S8x64, .f32⟩ : BufTy).Contents (Elt F))) main_v46
  let main_v48 := ((addf : (⟨S8x64, .f32⟩ : BufTy).Contents (Elt F) → (⟨S8x64, .f32⟩ : BufTy).Contents (Elt F) → (⟨S8x64, .f32⟩ : BufTy).Contents (Elt F))) main_v45 main_v47
  main_v48

/-- From the first layer's sums on: the rectifier, the second and third layers, the logistic, the rounding, the two batch means. -/
def kPost (h1 : FVec F S8x64 .f32) (w2 : FVec F S64x32 .f32) (b2 : FVec F S32 .f32) (w3 : FVec F S32x1 .f32) (b3 : FVec F S1 .f32) : FVec F S2 .f32 :=
  let main_call1_cst := (constant S_ .f32 0x00000000#32)
  let main_call1_v0 := ((broadcastInDim S8x64 ![] bcast_S_S8x64)) main_call1_cst
  let main_v49 := (maximumf) h1 main_call1_v0
  let main_v50 := (((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F))) main_v49 w2
  let main_v51 := ((broadcastInDim S1x32 ![1] bcast_S32_S1x32_1 : (⟨S32, .f32⟩ : BufTy).Contents (Elt F) → (⟨S1x32, .f32⟩ : BufTy).Contents (Elt F))) b2
  let main_v52 := ((broadcastInDim S8x32 ![0, 1] bcast_S1x32_S8x32_0_1 : (⟨S1x32, .f32⟩ : BufTy).Contents (Elt F) → (⟨S8x32, .f32⟩ : BufTy).Contents (Elt F))) main_v51
  let main_v53 := ((addf : (⟨S8x32, .f32⟩ : BufTy).Contents (Elt F) → (⟨S8x32, .f32⟩ : BufTy).Contents (Elt F) → (⟨S8x32, .f32⟩ : BufTy).Contents (Elt F))) main_v50 main_v52
  let main_call2_cst := (constant S_ .f32 0x00000000#32)
  let main_call2_v0 := ((broadcastInDim S8x32 ![] bcast_S_S8x32)) main_call2_cst
  let main_v54 := (maximumf) main_v53 main_call2_v0
  let main_v55 := (((fun l r => Host.dotGeneral dot_S8x32_S32x1_S8x1_1_0_0_1_n_n none l r) : (⟨S8x32, .f32⟩ : BufTy).Contents (Elt F) → (⟨S32x1, .f32⟩ : BufTy).Contents (Elt F) → (⟨S8x1, .f32⟩ : BufTy).Contents (Elt F))) main_v54 w3
  let main_v56 := ((broadcastInDim S1x1 ![1] bcast_S1_S1x1_1 : (⟨S1, .f32⟩ : BufTy).Contents (Elt F) → (⟨S1x1, .f32⟩ : BufTy).Contents (Elt F))) b3
  let main_v57 := ((broadcastInDim S8x1 ![0, 1] bcast_S1x1_S8x1_0_1 : (⟨S1x1, .f32⟩ : BufTy).Contents (Elt F) → (⟨S8x1, .f32⟩ : BufTy).Contents (Elt F))) main_v56
  let main_v58 := ((addf : (⟨S8x1, .f32⟩ : BufTy).Contents (Elt F) → (⟨S8x1, .f32⟩ : BufTy).Contents (Elt F) → (⟨S8x1, .f32⟩ : BufTy).Contents (Elt F))) main_v55 main_v57
  let main_v59 := ((Host.negf : (⟨S8x1, .f32⟩ : BufTy).Contents (Elt F) → (⟨S8x1, .f32⟩ : BufTy).Contents (Elt F))) main_v58
  let main_v60 := ((Host.exp : (⟨S8x1, .f32⟩ : BufTy).Contents (Elt F) → (⟨S8x1, .f32⟩ : BufTy).Contents (Elt F))) main_v59
  let main_cst_10 := (constant S_ .f32 0x3F800000#32)
  let main_v61 := ((broadcastInDim S8x1 ![] bcast_S_S8x1 : (⟨S_, .f32⟩ : BufTy).Contents (Elt F) → (⟨S8x1, .f32⟩ : BufTy).Contents (Elt F))) main_cst_10
  let main_v62 := ((addf : (⟨S8x1, .f32⟩ : BufTy).Contents (Elt F) → (⟨S8x1, .f32⟩ : BufTy).Contents (Elt F) → (⟨S8x1, .f32⟩ : BufTy).Contents (Elt F))) main_v61 main_v60
  let main_cst_11 := (constant S_ .f32 0x3F800000#32)
  let main_v63 := ((broadcastInDim S8x1 ![] bcast_S_S8x1 : (⟨S_, .f32⟩ : BufTy).Contents (Elt F) → (⟨S8x1, .f32⟩ : BufTy).Contents (Elt F))) main_cst_11
  let main_v64 := ((Host.divf : (⟨S8x1, .f32⟩ : BufTy).Contents (Elt F) → (⟨S8x1, .f32⟩ : BufTy).Contents (Elt F) → (⟨S8x1, .f32⟩ : BufTy).Contents (Elt F))) main_v63 main_v62
  let main_v65 := shapeCast S8 main_v64 shapeCasts_S8x1_S8
  let main_cst_12 := (constant S_ .f32 0x423C0000#32)
  let main_v66 := ((broadcastInDim S8 ![] bcast_S_S8 : (⟨S_, .f32⟩ : BufTy).Contents (Elt F) → (⟨S8, .f32⟩ : BufTy).Contents (Elt F))) main_cst_12
  let main_v67 := ((mulf : (⟨S8, .f32⟩ : BufTy).Contents (Elt F) → (⟨S8, .f32⟩ : BufTy).Contents (Elt F) → (⟨S8, .f32⟩ : BufTy).Contents (Elt F))) main_v65 main_v66
  let main_cst_13 := (constant S_ .f32 0x40400000#32)
  let main_v68 := ((broadcastInDim S8 ![] bcast_S_S8 : (⟨S_, .f32⟩ : BufTy).Contents (Elt F) → (⟨S8, .f32⟩ : BufTy).Contents (Elt F))) main_cst_13
  let main_v69 := ((addf : (⟨S8, .f32⟩ : BufTy).Contents (Elt F) → (⟨S8, .f32⟩ : BufTy).Contents (Elt F) → (⟨S8, .f32⟩ : BufTy).Contents (Elt F))) main_v68 main_v67
  let main_v70 := (Host.roundeven) main_v69
  let main_v71 := ((subf : (⟨S8, .f32⟩ : BufTy).Contents (Elt F) → (⟨S8, .f32⟩ : BufTy).Contents (Elt F) → (⟨S8, .f32⟩ : BufTy).Contents (Elt F))) main_v70 main_v69
  let main_v72 := ((addf : (⟨S8, .f32⟩ : BufTy).Contents (Elt F) → (⟨S8, .f32⟩ : BufTy).Contents (Elt F) → (⟨S8, .f32⟩ : BufTy).Contents (Elt F))) main_v69 main_v71
  let main_cst_14 := (constant S_ .f32 0x00000000#32)
  let main_v73 := (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))) main_v72 main_cst_14
  let main_cst_15 := (constant S_ .f32 0x41000000#32)
  let main_v74 := ((Host.divf : (⟨S_, .f32⟩ : BufTy).Contents (Elt F) → (⟨S_, .f32⟩ : BufTy).Contents (Elt F) → (⟨S_, .f32⟩ : BufTy).Contents (Elt F))) main_v73 main_cst_15
  let main_cst_16 := (constant S_ .f32 0x00000000#32)
  let main_v75 := (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))) main_v65 main_cst_16
  let main_cst_17 := (constant S_ .f32 0x41000000#32)
  let main_v76 := ((Host.divf : (⟨S_, .f32⟩ : BufTy).Contents (Elt F) → (⟨S_, .f32⟩ : BufTy).Contents (Elt F) → (⟨S_, .f32⟩ : BufTy).Contents (Elt F))) main_v75 main_cst_17
  let main_v77 := ((broadcastInDim S1 ![] bcast_S_S1 : (⟨S_, .f32⟩ : BufTy).Contents (Elt F) → (⟨S1, .f32⟩ : BufTy).Contents (Elt F))) main_v74
  let main_v78 := ((broadcastInDim S1 ![] bcast_S_S1 : (⟨S_, .f32⟩ : BufTy).Contents (Elt F) → (⟨S1, .f32⟩ : BufTy).Contents (Elt F))) main_v76
  let main_v79 := (((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))) main_v77 main_v78
  main_v79

/-- The constant mean degree 32, as a one-element vector. -/
def kS1  : FVec F S1 .f32 :=
  let main_cst_7 := (constant S_ .f32 0x42000000#32)
  let main_v37 := ((broadcastInDim S1 ![] bcast_S_S1 : (⟨S_, .f32⟩ : BufTy).Contents (Elt F) → (⟨S1, .f32⟩ : BufTy).Contents (Elt F))) main_cst_7
  main_v37

/-- The histogram's unbiased standard deviation, as a one-element vector. -/
def kS2 (deg : FVec F S100000 .f32) (one : IVec S_ 32) : FVec F S1 .f32 :=
  let main_call0_call0_cst := (constant S_ .f32 0x00000000#32)
  let main_call0_call0_v0 := ((fun x v => Host.reduceAdd x v reducesTo_S100000_S_d0 h_S_)) deg main_call0_call0_cst
  let main_call0_call0_v1 := ((broadcastInDim S1 ![] bcast_S_S1)) main_call0_call0_v0
  let main_call0_call0_cst_0 := (constant S_ .f32 0x47C35000#32)
  let main_call0_call0_v2 := ((broadcastInDim S1 ![] bcast_S_S1)) main_call0_call0_cst_0
  let main_call0_call0_v3 := (Host.divf) main_call0_call0_v1 main_call0_call0_v2
  let main_call0_call0_v4 := ((broadcastInDim S100000 ![0] bcast_S1_S100000_0)) main_call0_call0_v3
  let main_call0_call0_v5 := (subf) deg main_call0_call0_v4
  let main_call0_call0_v6 := (mulf) main_call0_call0_v5 main_call0_call0_v5
  let main_call0_call0_v7 := ((sitofp .f32)) one
  let main_call0_call0_cst_1 := (constant S_ .f32 0x47C35000#32)
  let main_call0_call0_v8 := (subf) main_call0_call0_cst_1 main_call0_call0_v7
  let main_call0_call0_cst_2 := (constant S_ .f32 0x00000000#32)
  let main_call0_call0_v9 := ((fun x v => Host.reduceAdd x v reducesTo_S100000_S_d0 h_S_)) main_call0_call0_v6 main_call0_call0_cst_2
  let main_call0_call0_v10 := (Host.divf) main_call0_call0_v9 main_call0_call0_v8
  let main_call0_call0_cst_3 := (constant S_ .f32 0x00000000#32)
  let main_call0_call0_v11 := ((cmpf .ogt)) main_call0_call0_v8 main_call0_call0_cst_3
  let main_call0_call0_cst_4 := (constant S_ .f32 0x7FC00000#32)
  let main_call0_call0_call0_v0 := (id) main_call0_call0_cst_4
  let main_call0_v0 := (select) main_call0_call0_v11 main_call0_call0_v10 main_call0_call0_call0_v0
  let main_v36 := (Host.sqrt) main_call0_v0
  let main_v38 := ((broadcastInDim S1 ![] bcast_S_S1 : (⟨S_, .f32⟩ : BufTy).Contents (Elt F) → (⟨S1, .f32⟩ : BufTy).Contents (Elt F))) main_v36
  main_v38

/-- The density constant, as a one-element vector. -/
def kS3  : FVec F S1 .f32 :=
  let main_cst_8 := (constant S_ .f32 0x39A7C61A#32)
  let main_v39 := ((broadcastInDim S1 ![] bcast_S_S1 : (⟨S_, .f32⟩ : BufTy).Contents (Elt F) → (⟨S1, .f32⟩ : BufTy).Contents (Elt F))) main_cst_8
  main_v39

/-- The size constant, as a one-element vector. -/
def kS4  : FVec F S1 .f32 :=
  let main_cst_9 := (constant S_ .f32 0x3F935D96#32)
  let main_v40 := ((broadcastInDim S1 ![] bcast_S_S1 : (⟨S_, .f32⟩ : BufTy).Contents (Elt F) → (⟨S1, .f32⟩ : BufTy).Contents (Elt F))) main_cst_9
  main_v40

/-- Four one-element vectors side by side, repeated for each batch. -/
def kRows (a1 : FVec F S1 .f32) (a2 : FVec F S1 .f32) (a3 : FVec F S1 .f32) (a4 : FVec F S1 .f32) : FVec F S8x4 .f32 :=
  let main_v41 := concatenate S4 0 [⟨S1, a1⟩, ⟨S1, a2⟩, ⟨S1, a3⟩, ⟨S1, a4⟩] concatenates_S1_S1_S1_S1_S4_d0
  let main_v42 := ((broadcastInDim S1x4 ![1] bcast_S4_S1x4_1 : (⟨S4, .f32⟩ : BufTy).Contents (Elt F) → (⟨S1x4, .f32⟩ : BufTy).Contents (Elt F))) main_v41
  let main_v43 := ((broadcastInDim S8x4 ![0, 1] bcast_S1x4_S8x4_0_1 : (⟨S1x4, .f32⟩ : BufTy).Contents (Elt F) → (⟨S8x4, .f32⟩ : BufTy).Contents (Elt F))) main_v42
  main_v43

/-- The pooled numbers side by side, times the first weights, plus the first bias. -/
def kLayer (p1 : FVec F S8x64 .f32) (p2 : FVec F S8x64 .f32) (p3 : FVec F S8x64 .f32) (p4 : FVec F S8x4 .f32) (w1 : FVec F S196x64 .f32) (b1 : FVec F S64 .f32) : FVec F S8x64 .f32 :=
  let main_v44 := concatenate S8x196 1 [⟨S8x64, p1⟩, ⟨S8x64, p2⟩, ⟨S8x64, p3⟩, ⟨S8x4, p4⟩] concatenates_S8x64_S8x64_S8x64_S8x4_S8x196_d1
  let main_v45 := (((fun l r => Host.dotGeneral dot_S8x196_S196x64_S8x64_1_0_0_1_n_n none l r) : (⟨S8x196, .f32⟩ : BufTy).Contents (Elt F) → (⟨S196x64, .f32⟩ : BufTy).Contents (Elt F) → (⟨S8x64, .f32⟩ : BufTy).Contents (Elt F))) main_v44 w1
  let main_v46 := ((broadcastInDim S1x64 ![1] bcast_S64_S1x64_1 : (⟨S64, .f32⟩ : BufTy).Contents (Elt F) → (⟨S1x64, .f32⟩ : BufTy).Contents (Elt F))) b1
  let main_v47 := ((broadcastInDim S8x64 ![0, 1] bcast_S1x64_S8x64_0_1 : (⟨S1x64, .f32⟩ : BufTy).Contents (Elt F) → (⟨S8x64, .f32⟩ : BufTy).Contents (Elt F))) main_v46
  let main_v48 := ((addf : (⟨S8x64, .f32⟩ : BufTy).Contents (Elt F) → (⟨S8x64, .f32⟩ : BufTy).Contents (Elt F) → (⟨S8x64, .f32⟩ : BufTy).Contents (Elt F))) main_v45 main_v47
  main_v48

end Cert.KernelIdeal.Vals

end
-- ==== Proof.KI.KRes.lean ====
/-
  The kernel program's later host lines, read in three stretches against ANY contents of the buffers they start from: the
  first 43 lines turn the pooling kernel's three result arrays into the mean, the maximum and the standard deviation, and
  the edge list into the degree histogram; the next 36 build the structural rows and the first layer's sums; the rest run
  the network from there and take the two batch means.
-/
import proofs.«152827_j5093831213700_2_alg».proof.Proof.KI.Frame
import proofs.«152827_j5093831213700_2_alg».proof.Proof.KVals

set_option maxRecDepth 65536

noncomputable section

namespace Cert.KernelIdeal.Val

open Cert.KernelIdeal Cert.KernelIdeal.Gen Cert.KernelIdeal.Frm Cert.KernelIdeal.Vals Idealize.ShloMosaic.StableHlo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The program's result as a function of the kernel's three result arrays and the arguments. -/
def kOut (s q mx : FVec F S8x1x128 .f32) (e : IVec S2x3200000 32) (w1 : FVec F S196x64 .f32) (b1 : FVec F S64 .f32)
    (w2 : FVec F S64x32 .f32) (b2 : FVec F S32 .f32) (w3 : FVec F S32x1 .f32) (b3 : FVec F S1 .f32) : FVec F S2 .f32 :=
  kHead (kFront (kMean s) (kMax mx) (kStd s q) (kStruct (kDeg e))) w1 b1 w2 b2 w3 b3

/-- The network from the first layer's sums on, after the lines that build them, is the network on the pooled numbers. -/
theorem post_pre (p1 p2 p3 : FVec F S8x64 .f32) (deg : FVec F S100000 .f32) (w1 : FVec F S196x64 .f32) (b1 : FVec F S64 .f32)
    (w2 : FVec F S64x32 .f32) (b2 : FVec F S32 .f32) (w3 : FVec F S32x1 .f32) (b3 : FVec F S1 .f32) :
    kPost (kPre p1 p2 p3 deg w1 b1) w2 b2 w3 b3 = kHead (kFront p1 p2 p3 (kStruct deg)) w1 b1 w2 b2 w3 b3 := rfl

abbrev restA : List (HloOp τ sig (Elt F)) := hostOps1_1 ++ (hostOps1_2)
abbrev restB : List (HloOp τ sig (Elt F)) := hostOps1_3 ++ (hostOps1_4 ++ (hostOps1_5 ++ (hostOps1_6 ++ (hostOps1_7 ++ (hostOps1_8)))))

theorem tail_split : (tail (F := F)).flatten = hostOps1 ++ (restA ++ restB) := by
  simp only [tail, restA, restB, List.flatten_cons, List.flatten_nil, List.append_nil, List.append_assoc]

/-! ## First stretch -/

theorem s1_mean (W : Valuation τ sig (Elt F)) : after hostOps1 W (Proc.devRef .tc main_v15) = kMean (W (Proc.devRef .tc main_v1_0)) := by
  after_results_simp
  rfl
theorem s1_max (W : Valuation τ sig (Elt F)) : after hostOps1 W (Proc.devRef .tc main_v13) = kMax (W (Proc.devRef .tc main_v1_2)) := by
  after_results_simp
  rfl
theorem s1_std (W : Valuation τ sig (Elt F)) : after hostOps1 W (Proc.devRef .tc main_v24) = kStd (W (Proc.devRef .tc main_v1_0)) (W (Proc.devRef .tc main_v1_1)) := by
  after_results_simp
  rfl
theorem s1_one (W : Valuation τ sig (Elt F)) : after hostOps1 W (Proc.devRef .tc main_c_6) = constantI S_ 32 1#32 := by
  after_results_simp
theorem s1_deg (W : Valuation τ sig (Elt F)) : after hostOps1 W (Proc.devRef .tc main_v35) = kDeg (W (Proc.devRef .tc main_arg1)) := by
  after_results_simp
  rfl
theorem hostOps1_keep_main_arg2 (W : Valuation τ sig (Elt F)) : after hostOps1 W (Proc.devRef .tc main_arg2) = W (Proc.devRef .tc main_arg2) := by after_results_simp
theorem hostOps1_keep_main_arg3 (W : Valuation τ sig (Elt F)) : after hostOps1 W (Proc.devRef .tc main_arg3) = W (Proc.devRef .tc main_arg3) := by after_results_simp
theorem hostOps1_keep_main_arg4 (W : Valuation τ sig (Elt F)) : after hostOps1 W (Proc.devRef .tc main_arg4) = W (Proc.devRef .tc main_arg4) := by after_results_simp
theorem hostOps1_keep_main_arg5 (W : Valuation τ sig (Elt F)) : after hostOps1 W (Proc.devRef .tc main_arg5) = W (Proc.devRef .tc main_arg5) := by after_results_simp
theorem hostOps1_keep_main_arg6 (W : Valuation τ sig (Elt F)) : after hostOps1 W (Proc.devRef .tc main_arg6) = W (Proc.devRef .tc main_arg6) := by after_results_simp
theorem hostOps1_keep_main_arg7 (W : Valuation τ sig (Elt F)) : after hostOps1 W (Proc.devRef .tc main_arg7) = W (Proc.devRef .tc main_arg7) := by after_results_simp

/-! ## Second stretch, in three parts

A concatenation's operands are read where the part starts, so each part begins at a concatenation. -/

/-- The standard deviation of the histogram and the four one-element vectors. -/
abbrev partP : List (HloOp τ sig (Elt F)) := hostOps1_1 ++
  [ StableHlo.nullary main_cst_7 (constant S_ .f32 0x42000000#32),
    StableHlo.nullary main_cst_8 (constant S_ .f32 0x39A7C61A#32),
    StableHlo.nullary main_cst_9 (constant S_ .f32 0x3F935D96#32),
    StableHlo.unary main_cst_7 main_v37 (broadcastInDim S1 ![] bcast_S_S1 : (⟨S_, .f32⟩ : BufTy).Contents (Elt F) → (⟨S1, .f32⟩ : BufTy).Contents (Elt F)),
    StableHlo.unary main_v36 main_v38 (broadcastInDim S1 ![] bcast_S_S1 : (⟨S_, .f32⟩ : BufTy).Contents (Elt F) → (⟨S1, .f32⟩ : BufTy).Contents (Elt F)),
    StableHlo.unary main_cst_8 main_v39 (broadcastInDim S1 ![] bcast_S_S1 : (⟨S_, .f32⟩ : BufTy).Contents (Elt F) → (⟨S1, .f32⟩ : BufTy).Contents (Elt F)),
    StableHlo.unary main_cst_9 main_v40 (broadcastInDim S1 ![] bcast_S_S1 : (⟨S_, .f32⟩ : BufTy).Contents (Elt F) → (⟨S1, .f32⟩ : BufTy).Contents (Elt F)) ]
/-- The structural rows. -/
abbrev partQ : List (HloOp τ sig (Elt F)) :=
  [ StableHlo.nary ![main_v37, main_v38, main_v39, main_v40] main_v41 (fun u => concatenate S4 0 [⟨S1, u 0⟩, ⟨S1, u 1⟩, ⟨S1, u 2⟩, ⟨S1, u 3⟩] concatenates_S1_S1_S1_S1_S4_d0),
    StableHlo.unary main_v41 main_v42 (broadcastInDim S1x4 ![1] bcast_S4_S1x4_1 : (⟨S4, .f32⟩ : BufTy).Contents (Elt F) → (⟨S1x4, .f32⟩ : BufTy).Contents (Elt F)),
    StableHlo.unary main_v42 main_v43 (broadcastInDim S8x4 ![0, 1] bcast_S1x4_S8x4_0_1 : (⟨S1x4, .f32⟩ : BufTy).Contents (Elt F) → (⟨S8x4, .f32⟩ : BufTy).Contents (Elt F)) ]
/-- The pooled numbers side by side and the first layer's sums. -/
abbrev partR : List (HloOp τ sig (Elt F)) :=
  [ StableHlo.nary ![main_v15, main_v13, main_v24, main_v43] main_v44 (fun u => concatenate S8x196 1 [⟨S8x64, u 0⟩, ⟨S8x64, u 1⟩, ⟨S8x64, u 2⟩, ⟨S8x4, u 3⟩] concatenates_S8x64_S8x64_S8x64_S8x4_S8x196_d1),
    StableHlo.binary main_v44 main_arg2 main_v45 ((fun l r => Host.dotGeneral dot_S8x196_S196x64_S8x64_1_0_0_1_n_n none l r) : (⟨S8x196, .f32⟩ : BufTy).Contents (Elt F) → (⟨S196x64, .f32⟩ : BufTy).Contents (Elt F) → (⟨S8x64, .f32⟩ : BufTy).Contents (Elt F)),
    StableHlo.unary main_arg3 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S8x64 ![0, 1] bcast_S1x64_S8x64_0_1 : (⟨S1x64, .f32⟩ : BufTy).Contents (Elt F) → (⟨S8x64, .f32⟩ : BufTy).Contents (Elt F)),
    StableHlo.binary main_v45 main_v47 main_v48 (addf : (⟨S8x64, .f32⟩ : BufTy).Contents (Elt F) → (⟨S8x64, .f32⟩ : BufTy).Contents (Elt F) → (⟨S8x64, .f32⟩ : BufTy).Contents (Elt F)) ]

theorem restA_split : (restA : List (HloOp τ sig (Elt F))) = partP ++ (partQ ++ partR) := by
  simp only [restA, partP, partQ, partR, hostOps1_2, List.append_assoc, List.cons_append, List.nil_append, List.append_nil]

theorem pre_parts (p1 p2 p3 : FVec F S8x64 .f32) (deg : FVec F S100000 .f32) (w1 : FVec F S196x64 .f32) (b1 : FVec F S64 .f32) :
    kLayer p1 p2 p3 (kRows kS1 (kS2 deg (constantI S_ 32 1#32)) kS3 kS4) w1 b1 = kPre p1 p2 p3 deg w1 b1 := rfl

theorem partP_s1 (W : Valuation τ sig (Elt F)) : after partP W (Proc.devRef .tc main_v37) = kS1 := by
  simp only [partP, hostOps1_1, List.cons_append, List.nil_append, List.append_nil]
  after_results_simp
  rfl
theorem partP_s2 (W : Valuation τ sig (Elt F)) : after partP W (Proc.devRef .tc main_v38) = kS2 (W (Proc.devRef .tc main_v35)) (W (Proc.devRef .tc main_c_6)) := by
  simp only [partP, hostOps1_1, List.cons_append, List.nil_append, List.append_nil]
  after_results_simp
  rfl
theorem partP_s3 (W : Valuation τ sig (Elt F)) : after partP W (Proc.devRef .tc main_v39) = kS3 := by
  simp only [partP, hostOps1_1, List.cons_append, List.nil_append, List.append_nil]
  after_results_simp
  rfl
theorem partP_s4 (W : Valuation τ sig (Elt F)) : after partP W (Proc.devRef .tc main_v40) = kS4 := by
  simp only [partP, hostOps1_1, List.cons_append, List.nil_append, List.append_nil]
  after_results_simp
  rfl
theorem partP_keep_main_v15 (W : Valuation τ sig (Elt F)) : after partP W (Proc.devRef .tc main_v15) = W (Proc.devRef .tc main_v15) := by
  simp only [partP, hostOps1_1, List.cons_append, List.nil_append, List.append_nil]
  after_results_simp
theorem partP_keep_main_v13 (W : Valuation τ sig (Elt F)) : after partP W (Proc.devRef .tc main_v13) = W (Proc.devRef .tc main_v13) := by
  simp only [partP, hostOps1_1, List.cons_append, List.nil_append, List.append_nil]
  after_results_simp
theorem partP_keep_main_v24 (W : Valuation τ sig (Elt F)) : after partP W (Proc.devRef .tc main_v24) = W (Proc.devRef .tc main_v24) := by
  simp only [partP, hostOps1_1, List.cons_append, List.nil_append, List.append_nil]
  after_results_simp
theorem partP_keep_main_arg2 (W : Valuation τ sig (Elt F)) : after partP W (Proc.devRef .tc main_arg2) = W (Proc.devRef .tc main_arg2) := by
  simp only [partP, hostOps1_1, List.cons_append, List.nil_append, List.append_nil]
  after_results_simp
theorem partP_keep_main_arg3 (W : Valuation τ sig (Elt F)) : after partP W (Proc.devRef .tc main_arg3) = W (Proc.devRef .tc main_arg3) := by
  simp only [partP, hostOps1_1, List.cons_append, List.nil_append, List.append_nil]
  after_results_simp
theorem partP_keep_main_arg4 (W : Valuation τ sig (Elt F)) : after partP W (Proc.devRef .tc main_arg4) = W (Proc.devRef .tc main_arg4) := by
  simp only [partP, hostOps1_1, List.cons_append, List.nil_append, List.append_nil]
  after_results_simp
theorem partP_keep_main_arg5 (W : Valuation τ sig (Elt F)) : after partP W (Proc.devRef .tc main_arg5) = W (Proc.devRef .tc main_arg5) := by
  simp only [partP, hostOps1_1, List.cons_append, List.nil_append, List.append_nil]
  after_results_simp
theorem partP_keep_main_arg6 (W : Valuation τ sig (Elt F)) : after partP W (Proc.devRef .tc main_arg6) = W (Proc.devRef .tc main_arg6) := by
  simp only [partP, hostOps1_1, List.cons_append, List.nil_append, List.append_nil]
  after_results_simp
theorem partP_keep_main_arg7 (W : Valuation τ sig (Elt F)) : after partP W (Proc.devRef .tc main_arg7) = W (Proc.devRef .tc main_arg7) := by
  simp only [partP, hostOps1_1, List.cons_append, List.nil_append, List.append_nil]
  after_results_simp

theorem partQ_rows (W : Valuation τ sig (Elt F)) :
    after partQ W (Proc.devRef .tc main_v43) = kRows (W (Proc.devRef .tc main_v37)) (W (Proc.devRef .tc main_v38)) (W (Proc.devRef .tc main_v39)) (W (Proc.devRef .tc main_v40)) := by
  after_results_simp
  rfl
theorem partQ_keep_main_v15 (W : Valuation τ sig (Elt F)) : after partQ W (Proc.devRef .tc main_v15) = W (Proc.devRef .tc main_v15) := by after_results_simp
theorem partQ_keep_main_v13 (W : Valuation τ sig (Elt F)) : after partQ W (Proc.devRef .tc main_v13) = W (Proc.devRef .tc main_v13) := by after_results_simp
theorem partQ_keep_main_v24 (W : Valuation τ sig (Elt F)) : after partQ W (Proc.devRef .tc main_v24) = W (Proc.devRef .tc main_v24) := by after_results_simp
theorem partQ_keep_main_arg2 (W : Valuation τ sig (Elt F)) : after partQ W (Proc.devRef .tc main_arg2) = W (Proc.devRef .tc main_arg2) := by after_results_simp
theorem partQ_keep_main_arg3 (W : Valuation τ sig (Elt F)) : after partQ W (Proc.devRef .tc main_arg3) = W (Proc.devRef .tc main_arg3) := by after_results_simp
theorem partQ_keep_main_arg4 (W : Valuation τ sig (Elt F)) : after partQ W (Proc.devRef .tc main_arg4) = W (Proc.devRef .tc main_arg4) := by after_results_simp
theorem partQ_keep_main_arg5 (W : Valuation τ sig (Elt F)) : after partQ W (Proc.devRef .tc main_arg5) = W (Proc.devRef .tc main_arg5) := by after_results_simp
theorem partQ_keep_main_arg6 (W : Valuation τ sig (Elt F)) : after partQ W (Proc.devRef .tc main_arg6) = W (Proc.devRef .tc main_arg6) := by after_results_simp
theorem partQ_keep_main_arg7 (W : Valuation τ sig (Elt F)) : after partQ W (Proc.devRef .tc main_arg7) = W (Proc.devRef .tc main_arg7) := by after_results_simp

theorem partR_layer (W : Valuation τ sig (Elt F)) :
    after partR W (Proc.devRef .tc main_v48)
      = kLayer (W (Proc.devRef .tc main_v15)) (W (Proc.devRef .tc main_v13)) (W (Proc.devRef .tc main_v24)) (W (Proc.devRef .tc main_v43)) (W (Proc.devRef .tc main_arg2)) (W (Proc.devRef .tc main_arg3)) := by
  after_results_simp
  rfl
theorem partR_keep_main_arg4 (W : Valuation τ sig (Elt F)) : after partR W (Proc.devRef .tc main_arg4) = W (Proc.devRef .tc main_arg4) := by after_results_simp
theorem partR_keep_main_arg5 (W : Valuation τ sig (Elt F)) : after partR W (Proc.devRef .tc main_arg5) = W (Proc.devRef .tc main_arg5) := by after_results_simp
theorem partR_keep_main_arg6 (W : Valuation τ sig (Elt F)) : after partR W (Proc.devRef .tc main_arg6) = W (Proc.devRef .tc main_arg6) := by after_results_simp
theorem partR_keep_main_arg7 (W : Valuation τ sig (Elt F)) : after partR W (Proc.devRef .tc main_arg7) = W (Proc.devRef .tc main_arg7) := by after_results_simp

theorem s2_pre (W : Valuation τ sig (Elt F)) :
    after restA W (Proc.devRef .tc main_v48)
      = kLayer (W (Proc.devRef .tc main_v15)) (W (Proc.devRef .tc main_v13)) (W (Proc.devRef .tc main_v24))
          (kRows kS1 (kS2 (W (Proc.devRef .tc main_v35)) (W (Proc.devRef .tc main_c_6))) kS3 kS4) (W (Proc.devRef .tc main_arg2)) (W (Proc.devRef .tc main_arg3)) := by
  rw [restA_split, StableHlo.after_append, StableHlo.after_append, partR_layer, partQ_rows, partQ_keep_main_v15, partQ_keep_main_v13,
    partQ_keep_main_v24, partQ_keep_main_arg2, partQ_keep_main_arg3, partP_s1, partP_s2, partP_s3, partP_s4, partP_keep_main_v15,
    partP_keep_main_v13, partP_keep_main_v24, partP_keep_main_arg2, partP_keep_main_arg3]
theorem restA_keep_main_arg4 (W : Valuation τ sig (Elt F)) : after restA W (Proc.devRef .tc main_arg4) = W (Proc.devRef .tc main_arg4) := by
  rw [restA_split, StableHlo.after_append, StableHlo.after_append, partR_keep_main_arg4, partQ_keep_main_arg4, partP_keep_main_arg4]
theorem restA_keep_main_arg5 (W : Valuation τ sig (Elt F)) : after restA W (Proc.devRef .tc main_arg5) = W (Proc.devRef .tc main_arg5) := by
  rw [restA_split, StableHlo.after_append, StableHlo.after_append, partR_keep_main_arg5, partQ_keep_main_arg5, partP_keep_main_arg5]
theorem restA_keep_main_arg6 (W : Valuation τ sig (Elt F)) : after restA W (Proc.devRef .tc main_arg6) = W (Proc.devRef .tc main_arg6) := by
  rw [restA_split, StableHlo.after_append, StableHlo.after_append, partR_keep_main_arg6, partQ_keep_main_arg6, partP_keep_main_arg6]
theorem restA_keep_main_arg7 (W : Valuation τ sig (Elt F)) : after restA W (Proc.devRef .tc main_arg7) = W (Proc.devRef .tc main_arg7) := by
  rw [restA_split, StableHlo.after_append, StableHlo.after_append, partR_keep_main_arg7, partQ_keep_main_arg7, partP_keep_main_arg7]

/-! ## Third stretch -/

set_option maxHeartbeats 4000000 in
theorem s3_post (W : Valuation τ sig (Elt F)) :
    after restB W (Proc.devRef .tc main_v79)
      = kPost (W (Proc.devRef .tc main_v48)) (W (Proc.devRef .tc main_arg4)) (W (Proc.devRef .tc main_arg5)) (W (Proc.devRef .tc main_arg6)) (W (Proc.devRef .tc main_arg7)) := by
  simp only [restB, hostOps1_3, hostOps1_4, hostOps1_5, hostOps1_6, hostOps1_7, hostOps1_8, List.cons_append, List.nil_append, List.append_nil]
  after_results_simp
  rfl

/-! ## Together -/

theorem tail_eq (W : Valuation τ sig (Elt F)) :
    after (tail (F := F)).flatten W (Proc.devRef .tc main_v79)
      = kOut (W (Proc.devRef .tc main_v1_0)) (W (Proc.devRef .tc main_v1_1)) (W (Proc.devRef .tc main_v1_2)) (W (Proc.devRef .tc main_arg1))
          (W (Proc.devRef .tc main_arg2)) (W (Proc.devRef .tc main_arg3)) (W (Proc.devRef .tc main_arg4)) (W (Proc.devRef .tc main_arg5))
          (W (Proc.devRef .tc main_arg6)) (W (Proc.devRef .tc main_arg7)) := by
  rw [tail_split, StableHlo.after_append, StableHlo.after_append, s3_post, s2_pre, restA_keep_main_arg4, restA_keep_main_arg5,
    restA_keep_main_arg6, restA_keep_main_arg7, s1_mean, s1_max, s1_std, s1_deg, s1_one, hostOps1_keep_main_arg2, hostOps1_keep_main_arg3,
    hostOps1_keep_main_arg4, hostOps1_keep_main_arg5, hostOps1_keep_main_arg6, hostOps1_keep_main_arg7, pre_parts, post_pre]
  rfl

end Cert.KernelIdeal.Val

end
-- ==== Proof.KI.VRunA.lean ====
/-
  The body at a batch's first node tile, with what it leaves NAMED: the three accumulators are overwritten (zero, zero,
  minus infinity) and then updated with the tile's column sums, column sums of squares and column maxima, so what they
  hold afterwards depends on the tile alone; the three output buffers are not touched.
-/
import proofs.«152827_j5093831213700_2_alg».proof.Proof.KI.Frame

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores into the three accumulators at a first tile, as pieces, with the run that leaves them. -/
noncomputable def runA (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : isFirst i) (h1 : ¬isLast i) (x0 : Vec F S1x10000x128 .f32) :
    Σ' (LS0 LS1 : List (View.Piece (Elt F) S1x128 .f32)), { LS2 : List (View.Piece (Elt F) S1x128 .f32) //
      ∀ (xi1 xi2 xi3 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, fun xi1 xi2 xi3 E K => ?run⟩
  case run =>
    simp only [cc0__pool_kernel_eq_skeleton]; unfold cc0__pool_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf2; obtain rfl := harg3.eq_unread hf3; obtain rfl := harg4.eq_unread hf4; obtain rfl := harg5.eq_unread hf5
    sl_exec (disch := first | exact h0 | exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Val

end
-- ==== Proof.KI.VRunB.lean ====
/-
  The body at a middle node tile, with what it leaves NAMED: each accumulator, found at the contents the tile before left,
  is updated with this tile's column sums, sums of squares and maxima; the three output buffers are not touched.
-/
import proofs.«152827_j5093831213700_2_alg».proof.Proof.KI.Frame

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores into the three accumulators at a middle tile, as pieces, with the run that leaves them. -/
noncomputable def runB (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : ¬isFirst i) (h1 : ¬isLast i) (x0 : Vec F S1x10000x128 .f32) (xs0 xs1 xs2 : Vec F S1x128 .f32) :
    Σ' (LS0 LS1 : List (View.Piece (Elt F) S1x128 .f32)), { LS2 : List (View.Piece (Elt F) S1x128 .f32) //
      ∀ (xi1 xi2 xi3 : Vec F S1x1x128 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare xi1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, fun xi1 xi2 xi3 E K => ?run⟩
  case run =>
    simp only [cc0__pool_kernel_eq_skeleton]; unfold cc0__pool_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact h0 | exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Val

end
-- ==== Proof.KI.VRunC.lean ====
/-
  The body at a batch's last node tile, with what it leaves NAMED: each accumulator, found at the contents the tile
  before left, is updated with this tile's column sums, sums of squares and maxima, and then copied (as a 1 x 1 x 128
  block) into its output buffer, whatever that held.
-/
import proofs.«152827_j5093831213700_2_alg».proof.Proof.KI.Frame

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores into the three outputs and the three accumulators at a last tile, as pieces, with the run that leaves them. -/
noncomputable def runC (c : Dev nD) (i : grid0.Coords) (arg2 : Memref sig .tc .vmem S1x10000x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (h0 : ¬isFirst i) (h1 : isLast i) (x0 : Vec F S1x10000x128 .f32) (xs0 xs1 xs2 : Vec F S1x128 .f32) :
    Σ' (L1 L2 L3 : List (View.Piece (Elt F) S1x1x128 .f32)) (LS0 LS1 : List (View.Piece (Elt F) S1x128 .f32)), { LS2 : List (View.Piece (Elt F) S1x128 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__pool_kernel i arg2 harg2 arg3 harg3 arg4 harg4 arg5 harg5 arg6 harg6 arg7 harg7 arg8 harg8) K } := by
  refine ⟨?_, ?_, ?_, ?_, ?_, ?_, fun E K => ?run⟩
  case run =>
    simp only [cc0__pool_kernel_eq_skeleton]; unfold cc0__pool_kernel_skel
    unfold owns
    iintro ⟨⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
    obtain rfl := harg2.eq_unread hf2
    obtain rfl := harg6.eq_unread hf6; obtain rfl := harg7.eq_unread hf7; obtain rfl := harg8.eq_unread hf8
    sl_exec (disch := first | exact h0 | exact h1)
    sl_step
    iapply Hk
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.KernelIdeal.Val

end
-- ==== Proof.KI.VData.lean ====
/-
  The pooling kernel's run with every buffer's contents NAMED. The three accumulators are carried from one grid point to
  the next: what they hold after point n is defined by recursion on n from the three cases of the body (a batch's first
  tile: from the tile alone; a later tile: from the tile and what the point before left), and at a batch's last tile the
  three output buffers receive copies of them. This module defines those contents, proves the stores cover each buffer
  (so that what is read back does not depend on what was there), states the region's invariant point by point and
  assembles the proof data.
-/
import proofs.«152827_j5093831213700_2_alg».proof.Proof.KI.VRunA
import proofs.«152827_j5093831213700_2_alg».proof.Proof.KI.VRunB
import proofs.«152827_j5093831213700_2_alg».proof.Proof.KI.VRunC
import Idealize.ShloMosaic.Lib.Ring

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- Each window's current staging buffer at point `t`, and that it is a whole buffer. -/
abbrev ms0 (t : Fin cfg0.N) : Memref sig .tc .vmem S1x10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128 .f32 := win0_3.stage (cfg0.slots t 3)
abbrev hs3 (t : Fin cfg0.N) : (ms3 t).IsWhole := hstage0_3 ((cfg0.slots t 3).cast nbuf0_3)

/-- The views through which the accumulators' and the outputs' contents are stated (any view of the shape would do). -/
abbrev VS0 : View sig .tc .vmem S1x128 .f32 := accSum.view
abbrev VS1 : View sig .tc .vmem S1x128 .f32 := accSq.view
abbrev VS2 : View sig .tc .vmem S1x128 .f32 := accMax.view
abbrev VO : View sig .tc .vmem S1x1x128 .f32 := (Memref.whole cc0_stg1_0 : Memref sig .tc .vmem S1x1x128 .f32).view

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves -/

/-- After a batch's first tile: the accumulators, from the tile alone. -/
def stepA (c : Dev nD) (t : Fin cfg0.N) (h0 : t.val % 5 = 0) (h1 : ¬t.val % 5 = 4) : Vec F S1x128 .f32 × Vec F S1x128 .f32 × Vec F S1x128 .f32 :=
  (VS0.read (Elt F) (VS0.writes (Elt F) VS0.junk (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).1),
   VS1.read (Elt F) (VS1.writes (Elt F) VS1.junk (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).2.1),
   VS2.read (Elt F) (VS2.writes (Elt F) VS2.junk (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).2.2.1))

/-- After a middle tile: the accumulators, from the tile and what they held. -/
def stepB (c : Dev nD) (t : Fin cfg0.N) (h0 : ¬t.val % 5 = 0) (h1 : ¬t.val % 5 = 4) (s : Vec F S1x128 .f32 × Vec F S1x128 .f32 × Vec F S1x128 .f32) : Vec F S1x128 .f32 × Vec F S1x128 .f32 × Vec F S1x128 .f32 :=
  (VS0.read (Elt F) (VS0.writes (Elt F) VS0.junk (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).1),
   VS1.read (Elt F) (VS1.writes (Elt F) VS1.junk (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).2.1),
   VS2.read (Elt F) (VS2.writes (Elt F) VS2.junk (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).2.2.1))

/-- After a batch's last tile: the accumulators, from the tile and what they held, -/
def stepC (c : Dev nD) (t : Fin cfg0.N) (h0 : ¬t.val % 5 = 0) (h1 : t.val % 5 = 4) (s : Vec F S1x128 .f32 × Vec F S1x128 .f32 × Vec F S1x128 .f32) : Vec F S1x128 .f32 × Vec F S1x128 .f32 × Vec F S1x128 .f32 :=
  (VS0.read (Elt F) (VS0.writes (Elt F) VS0.junk (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.1),
   VS1.read (Elt F) (VS1.writes (Elt F) VS1.junk (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.2.1),
   VS2.read (Elt F) (VS2.writes (Elt F) VS2.junk (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.2.2.1))

/-- and the three output buffers. -/
def outC (c : Dev nD) (t : Fin cfg0.N) (h0 : ¬t.val % 5 = 0) (h1 : t.val % 5 = 4) (s : Vec F S1x128 .f32 × Vec F S1x128 .f32 × Vec F S1x128 .f32) : Vec F S1x1x128 .f32 × Vec F S1x1x128 .f32 × Vec F S1x1x128 .f32 :=
  (VO.read (Elt F) (VO.writes (Elt F) VO.junk (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).1),
   VO.read (Elt F) (VO.writes (Elt F) VO.junk (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.1),
   VO.read (Elt F) (VO.writes (Elt F) VO.junk (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.1))

/-! ## The stores cover each buffer

Each store is of a whole buffer (one row of 128, or a 1 x 1 x 128 block), so after the body every element of a stored
buffer has been written: what is read back is the stored values, whatever the buffer held. -/

theorem coverA0 (c : Dev nD) (t : Fin cfg0.N) (h0 : t.val % 5 = 0) (h1 : ¬t.val % 5 = 4) (y : S1x128.Idx) :
    ∃ pc ∈ (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).1, y ∈ pc.1.set :=
  View.cover_of_tiledL (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).1 S1x128.size (by sl_kernel_rfl) y

theorem coverA1 (c : Dev nD) (t : Fin cfg0.N) (h0 : t.val % 5 = 0) (h1 : ¬t.val % 5 = 4) (y : S1x128.Idx) :
    ∃ pc ∈ (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).2.1, y ∈ pc.1.set :=
  View.cover_of_tiledL (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).2.1 S1x128.size (by sl_kernel_rfl) y

theorem coverA2 (c : Dev nD) (t : Fin cfg0.N) (h0 : t.val % 5 = 0) (h1 : ¬t.val % 5 = 4) (y : S1x128.Idx) :
    ∃ pc ∈ (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).2.2.1, y ∈ pc.1.set :=
  View.cover_of_tiledL (runA c (grid0.coords t) (ms0 t) (hs0 t) (ms1 t) (hs1 t) (ms2 t) (hs2 t) (ms3 t) (hs3 t) accSum (Memref.isWhole_whole _) accSq (Memref.isWhole_whole _) accMax (Memref.isWhole_whole _) ((isFirst_iff t).mpr h0) (fun h => h1 ((isLast_iff t).mp h)) (iblk m c 0 t)).2.2.1 S1x128.size (by sl_kernel_rfl) y

theorem coverB0 (c : Dev nD) (t : Fin cfg0.N) (h0 : ¬t.val % 5 = 0) (h1 : ¬t.val % 5 = 4) (s : Vec F S1x128 .f32 × Vec F S1x128 .f32 × Vec F S1x128 .f32) (y : S1x128.Idx) :
    ∃ pc ∈ (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).1, y ∈ pc.1.set :=
  View.cover_of_tiledL (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).1 S1x128.size (by sl_kernel_rfl) y

theorem coverB1 (c : Dev nD) (t : Fin cfg0.N) (h0 : ¬t.val % 5 = 0) (h1 : ¬t.val % 5 = 4) (s : Vec F S1x128 .f32 × Vec F S1x128 .f32 × Vec F S1x128 .f32) (y : S1x128.Idx) :
    ∃ pc ∈ (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).2.1, y ∈ pc.1.set :=
  View.cover_of_tiledL (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).2.1 S1x128.size (by sl_kernel_rfl) y

theorem coverB2 (c : Dev nD) (t : Fin cfg0.N) (h0 : ¬t.val % 5 = 0) (h1 : ¬t.val % 5 = 4) (s : Vec F S1x128 .f32 × Vec F S1x128 .f32 × Vec F S1x128 .f32) (y : S1x128.Idx) :
    ∃ pc ∈ (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).2.2.1, y ∈ pc.1.set :=
  View.cover_of_tiledL (runB c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) (fun h => h1 ((isLast_iff t).mp h)) (iblk m c 0 t) s.1 s.2.1 s.2.2).2.2.1 S1x128.size (by sl_kernel_rfl) y

theorem coverC0 (c : Dev nD) (t : Fin cfg0.N) (h0 : ¬t.val % 5 = 0) (h1 : t.val % 5 = 4) (s : Vec F S1x128 .f32 × Vec F S1x128 .f32 × Vec F S1x128 .f32) (y : S1x128.Idx) :
    ∃ pc ∈ (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.1, y ∈ pc.1.set :=
  View.cover_of_tiledL (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.1 S1x128.size (by sl_kernel_rfl) y

theorem coverC1 (c : Dev nD) (t : Fin cfg0.N) (h0 : ¬t.val % 5 = 0) (h1 : t.val % 5 = 4) (s : Vec F S1x128 .f32 × Vec F S1x128 .f32 × Vec F S1x128 .f32) (y : S1x128.Idx) :
    ∃ pc ∈ (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.2.1, y ∈ pc.1.set :=
  View.cover_of_tiledL (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.2.1 S1x128.size (by sl_kernel_rfl) y

theorem coverC2 (c : Dev nD) (t : Fin cfg0.N) (h0 : ¬t.val % 5 = 0) (h1 : t.val % 5 = 4) (s : Vec F S1x128 .f32 × Vec F S1x128 .f32 × Vec F S1x128 .f32) (y : S1x128.Idx) :
    ∃ pc ∈ (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.2.2.1, y ∈ pc.1.set :=
  View.cover_of_tiledL (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.2.2.2.1 S1x128.size (by sl_kernel_rfl) y

theorem coverO1 (c : Dev nD) (t : Fin cfg0.N) (h0 : ¬t.val % 5 = 0) (h1 : t.val % 5 = 4) (s : Vec F S1x128 .f32 × Vec F S1x128 .f32 × Vec F S1x128 .f32) (y : S1x1x128.Idx) :
    ∃ pc ∈ (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).1, y ∈ pc.1.set :=
  View.cover_of_tiledL (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).1 S1x1x128.size (by sl_kernel_rfl) y

theorem coverO2 (c : Dev nD) (t : Fin cfg0.N) (h0 : ¬t.val % 5 = 0) (h1 : t.val % 5 = 4) (s : Vec F S1x128 .f32 × Vec F S1x128 .f32 × Vec F S1x128 .f32) (y : S1x1x128.Idx) :
    ∃ pc ∈ (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.1, y ∈ pc.1.set :=
  View.cover_of_tiledL (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.1 S1x1x128.size (by sl_kernel_rfl) y

theorem coverO3 (c : Dev nD) (t : Fin cfg0.N) (h0 : ¬t.val % 5 = 0) (h1 : t.val % 5 = 4) (s : Vec F S1x128 .f32 × Vec F S1x128 .f32 × Vec F S1x128 .f32) (y : S1x1x128.Idx) :
    ∃ pc ∈ (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.1, y ∈ pc.1.set :=
  View.cover_of_tiledL (runC c (grid0.coords t) (ms0 t) (hs0 t) (ms1 t) (hs1 t) (ms2 t) (hs2 t) (ms3 t) (hs3 t) accSum (Memref.isWhole_whole _) accSq (Memref.isWhole_whole _) accMax (Memref.isWhole_whole _) (fun h => h0 ((isFirst_iff t).mp h)) ((isLast_iff t).mpr h1) (iblk m c 0 t) s.1 s.2.1 s.2.2).2.2.1 S1x1x128.size (by sl_kernel_rfl) y

/-! ## The accumulators, point by point -/

/-- What the three accumulators hold after grid point `n` (row-major over batches, then node tiles): at a batch's first
    tile what that tile alone gives, otherwise the tile's update of what point `n - 1` left. -/
def scr (c : Dev nD) : (n : ℕ) → n < cfg0.N → Vec F S1x128 .f32 × Vec F S1x128 .f32 × Vec F S1x128 .f32
  | 0, hn => stepA m c ⟨0, hn⟩ (Nat.zero_mod _) (show ¬ (0 % 5 = 4) by decide)
  | n + 1, hn =>
    if h0 : (n + 1) % 5 = 0 then
      if h1 : (n + 1) % 5 = 4 then False.elim (by omega)
      else stepA m c ⟨n + 1, hn⟩ h0 h1
    else
      if h1 : (n + 1) % 5 = 4 then stepC m c ⟨n + 1, hn⟩ h0 h1 (scr c n (Nat.lt_of_succ_lt hn))
      else stepB m c ⟨n + 1, hn⟩ h0 h1 (scr c n (Nat.lt_of_succ_lt hn))

theorem scr_A (c : Dev nD) (t : Fin cfg0.N) (h0 : t.val % 5 = 0) (h1 : ¬t.val % 5 = 4) :
    scr m c t.val t.isLt = stepA m c t h0 h1 := by
  obtain ⟨n, hn⟩ := t
  cases n with
  | zero => rfl
  | succ n => exact (dif_pos h0).trans ((dif_neg h1).trans rfl)

theorem scr_B (c : Dev nD) (t : Fin cfg0.N) (h0 : ¬t.val % 5 = 0) (h1 : ¬t.val % 5 = 4) :
    scr m c t.val t.isLt = stepB m c t h0 h1 (scr m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scr_C (c : Dev nD) (t : Fin cfg0.N) (h0 : ¬t.val % 5 = 0) (h1 : t.val % 5 = 4) :
    scr m c t.val t.isLt = stepC m c t h0 h1 (scr m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the three output buffers hold after the body at point `t`: at a batch's last tile the copies of the accumulators;
    elsewhere the body does not touch them and this value is never consulted. -/
def outAt (c : Dev nD) (t : Fin cfg0.N) : Vec F S1x1x128 .f32 × Vec F S1x1x128 .f32 × Vec F S1x1x128 .f32 :=
  if h1 : t.val % 5 = 4 then outC m c t (by omega) h1 (scr m c (t.val - 1) (Nat.lt_of_le_of_lt (Nat.sub_le _ _) t.isLt))
  else (VO.read (Elt F) VO.junk, VO.read (Elt F) VO.junk, VO.read (Elt F) VO.junk)

theorem outAt_C (c : Dev nD) (t : Fin cfg0.N) (h0 : ¬t.val % 5 = 0) (h1 : t.val % 5 = 4) :
    outAt m c t = outC m c t h0 h1 (scr m c (t.val - 1) (Nat.lt_of_le_of_lt (Nat.sub_le _ _) t.isLt)) := dif_pos h1

/-! ## The region's invariant -/

/-- Before grid point `n`: at the start, the three accumulators at anything; afterwards, at what point `n - 1` left. -/
def PhiS (c : Dev nD) : (n : ℕ) → n ≤ cfg0.N → sProp 𝕄
  | 0, _ => Pipeline.ΦA spec0 c
  | n + 1, hn => iprop(iprop(owns (c : Thread nD τ) accSum fullShare (scr m c n hn).1 ∗ owns (c : Thread nD τ) accSq fullShare (scr m c n hn).2.1
      ∗ owns (c : Thread nD τ) accMax fullShare (scr m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accSum fullShare (scr m c n hn).1 ∗ owns (c : Thread nD τ) accSq fullShare (scr m c n hn).2.1
      ∗ owns (c : Thread nD τ) accMax fullShare (scr m c n hn).2.2) ∗ (∃ r, prngReg c r)) := rfl

theorem PhiS_pos (c : Dev nD) (n : ℕ) (h : n ≤ cfg0.N) (hz : n ≠ 0) :
    PhiS m c n h = iprop(iprop(owns (c : Thread nD τ) accSum fullShare (scr m c (n - 1) (by omega)).1 ∗ owns (c : Thread nD τ) accSq fullShare (scr m c (n - 1) (by omega)).2.1
      ∗ owns (c : Thread nD τ) accMax fullShare (scr m c (n - 1) (by omega)).2.2) ∗ (∃ r, prngReg c r)) := by
  cases n with
  | zero => exact absurd rfl hz
  | succ n => rfl

/-! ## The proof data -/

/-- The arrays as the region finds them; after the body at point `t` the input's buffer at its block and the outputs' at
    `outAt`; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outAt m c t).1
    | ⟨2, _⟩ => (outAt m c t).2.1
    | ⟨3, _⟩ => (outAt m c t).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = (outAt m c t).1 := by dsimp only [dats]
theorem after2 (c : Dev nD) (t : Fin cfg0.N) : (dats m 0 c).after 2 t = (outAt m c t).2.1 := by dsimp only [dats]
theorem after3 (c : Dev nD) (t : Fin cfg0.N) : (dats m 0 c).after 3 t = (outAt m c t).2.2 := by dsimp only [dats]

/-- The input's current staging buffer holds its block at every point (it is fetched at every point, uncut, never idle). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

/-! ## Where the windows are idle -/

theorem live0 : ∀ t : Fin cfg0.N, cfg0.idle 0 (grid0.coords t) = false := by decide +kernel
theorem idle1 : ∀ t : Fin cfg0.N, ¬isLast (grid0.coords t) → cfg0.idle 1 (grid0.coords t) = true := by decide +kernel
theorem live1 : ∀ t : Fin cfg0.N, isLast (grid0.coords t) → cfg0.idle 1 (grid0.coords t) = false := by decide +kernel
theorem noflush1 : ∀ t : Fin cfg0.N, ¬isLast (grid0.coords t) → (cfg0.win 1).flush t = false := by decide +kernel
theorem idle2 : ∀ t : Fin cfg0.N, ¬isLast (grid0.coords t) → cfg0.idle 2 (grid0.coords t) = true := by decide +kernel
theorem live2 : ∀ t : Fin cfg0.N, isLast (grid0.coords t) → cfg0.idle 2 (grid0.coords t) = false := by decide +kernel
theorem noflush2 : ∀ t : Fin cfg0.N, ¬isLast (grid0.coords t) → (cfg0.win 2).flush t = false := by decide +kernel
theorem idle3 : ∀ t : Fin cfg0.N, ¬isLast (grid0.coords t) → cfg0.idle 3 (grid0.coords t) = true := by decide +kernel
theorem live3 : ∀ t : Fin cfg0.N, isLast (grid0.coords t) → cfg0.idle 3 (grid0.coords t) = false := by decide +kernel
theorem noflush3 : ∀ t : Fin cfg0.N, ¬isLast (grid0.coords t) → (cfg0.win 3).flush t = false := by decide +kernel

end Cert.KernelIdeal.Val

end
-- ==== Proof.KI.VBody.lean ====
/-
  The body obligation of the value-tracking run: at every grid point, from the invariant before the point (the three
  accumulators at what the point before left, or at anything at the very first point) and the four staging buffers, the
  body runs and leaves the invariant after the point, the input buffer at its block, and the outputs either untouched
  (not a batch's last tile) or at the copies of the accumulators (a last tile). Then the launch.
-/
import proofs.«152827_j5093831213700_2_alg».proof.Proof.KI.VData

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 16000000 in
/-- The body at any point, by the point's number mod 5. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0 t) fullShare ((dats m 0 c).after 0 t) from by
    unfold Dat.leavesExact; rw [live0 t], after0]
  by_cases h0 : t.val % 5 = 0
  · have h1 : ¬ t.val % 5 = 4 := by omega
    have hl : ¬ isLast (grid0.coords t) := fun h => h1 ((isLast_iff t).mp h)
    rw [Dat.leavesExact_idle (dats m 0 c) 1 t (idle1 t hl) (noflush1 t hl), Dat.leavesExact_idle (dats m 0 c) 2 t (idle2 t hl) (noflush2 t hl),
      Dat.leavesExact_idle (dats m 0 c) 3 t (idle3 t hl) (noflush3 t hl)]
    rw [scr_A m c t h0 h1]
    unfold stepA; dsimp only
    by_cases hz : t.val = 0
    · rw [PhiS_castSucc m c t, PhiS_zero m c _ _ hz, inv_eq]
      iintro ⟨⟨⟨HS0, HS1, HS2⟩, Hg⟩, Ho, ⟨%d0, H0⟩, ⟨%d1, H1⟩, ⟨%d2, H2⟩, ⟨%d3, H3⟩⟩
      iapply ((runA c (grid0.coords t) _ _ _ _ _ _ _ _ _ _ _ _ _ _ ((isFirst_iff t).mpr h0) (fun h => h1 ((isLast_iff t).mp h)) (iblk m c 0 t)).2.2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA0 m c t h0 h1)
          isplitl [HS1]
          · unfold owns; iexists _; isplitr
            swap; · iexact HS1
            ipureintro; exact View.read_writes_of_cover _ _ _ _ _ (coverA1 m c t h0 h1)
          unfold owns; iexists _; isplitr
          swap; · iexact HS2
          ipureintro; exact View.read_writes_of_cover _ _ _ _ _ (coverA2 m c t h0 h1)
        iexact Hg
      isplitl [Ho]; · iexact Ho
      isplitl [H0]; · iexact H0
      isplitl [H1]; · iexists _; iexact H1
      isplitl [H2]; · iexists _; iexact H2
      iexists _; iexact H3
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((runA c (grid0.coords t) _ _ _ _ _ _ _ _ _ _ _ _ _ _ ((isFirst_iff t).mpr h0) (fun h => h1 ((isLast_iff t).mp h)) (iblk m c 0 t)).2.2.2 _ _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA0 m c t h0 h1)
          isplitl [HS1]
          · unfold owns; iexists _; isplitr
            swap; · iexact HS1
            ipureintro; exact View.read_writes_of_cover _ _ _ _ _ (coverA1 m c t h0 h1)
          unfold owns; iexists _; isplitr
          swap; · iexact HS2
          ipureintro; exact View.read_writes_of_cover _ _ _ _ _ (coverA2 m c t h0 h1)
        iexact Hg
      isplitl [Ho]; · iexact Ho
      isplitl [H0]; · iexact H0
      isplitl [H1]; · iexists _; iexact H1
      isplitl [H2]; · iexists _; iexact H2
      iexists _; iexact H3
  · have hz : t.val ≠ 0 := fun hz => h0 (by rw [hz])
    by_cases h1 : t.val % 5 = 4
    · have hl : isLast (grid0.coords t) := (isLast_iff t).mpr h1
      rw [show (dats m 0 c).leavesExact 1 t = owns (c : Thread nD τ) (ms1 t) fullShare ((dats m 0 c).after 1 t) from by
        unfold Dat.leavesExact; rw [live1 t hl], after1]
      rw [show (dats m 0 c).leavesExact 2 t = owns (c : Thread nD τ) (ms2 t) fullShare ((dats m 0 c).after 2 t) from by
        unfold Dat.leavesExact; rw [live2 t hl], after2]
      rw [show (dats m 0 c).leavesExact 3 t = owns (c : Thread nD τ) (ms3 t) fullShare ((dats m 0 c).after 3 t) from by
        unfold Dat.leavesExact; rw [live3 t hl], after3]
      rw [outAt_C m c t h0 h1, scr_C m c t h0 h1]
      unfold outC stepC; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((runC c (grid0.coords t) _ _ _ _ _ _ _ _ _ _ _ _ _ _ (fun h => h0 ((isFirst_iff t).mp h)) ((isLast_iff t).mpr h1) (iblk m c 0 t) _ _ _).2.2.2.2.2.2 Set.univ _)
      isplitl [H0]; · iexact H0
      isplitl [H1]; · iexists _; iexact H1
      isplitl [H2]; · iexists _; iexact H2
      isplitl [H3]; · iexists _; iexact H3
      isplitl [HS0]; · iexact HS0
      isplitl [HS1]; · iexact HS1
      isplitl [HS2]; · iexact HS2
      iintro ⟨H0, ⟨%e1, H1⟩, ⟨%e2, H2⟩, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverC0 m c t h0 h1 _)
          isplitl [HS1]
          · unfold owns; iexists _; isplitr
            swap; · iexact HS1
            ipureintro; exact View.read_writes_of_cover _ _ _ _ _ (coverC1 m c t h0 h1 _)
          unfold owns; iexists _; isplitr
          swap; · iexact HS2
          ipureintro; exact View.read_writes_of_cover _ _ _ _ _ (coverC2 m c t h0 h1 _)
        iexact Hg
      isplitl [Ho]; · iexact Ho
      isplitl [H0]; · iexact H0
      isplitl [H1]
      · unfold owns; iexists _; isplitr
        swap; · iexact H1
        ipureintro; exact View.read_writes_of_cover _ _ _ _ _ (coverO1 m c t h0 h1 _)
      isplitl [H2]
      · unfold owns; iexists _; isplitr
        swap; · iexact H2
        ipureintro; exact View.read_writes_of_cover _ _ _ _ _ (coverO2 m c t h0 h1 _)
      unfold owns; iexists _; isplitr
      swap; · iexact H3
      ipureintro; exact View.read_writes_of_cover _ _ _ _ _ (coverO3 m c t h0 h1 _)
    · have hl : ¬ isLast (grid0.coords t) := fun h => h1 ((isLast_iff t).mp h)
      rw [Dat.leavesExact_idle (dats m 0 c) 1 t (idle1 t hl) (noflush1 t hl), Dat.leavesExact_idle (dats m 0 c) 2 t (idle2 t hl) (noflush2 t hl),
        Dat.leavesExact_idle (dats m 0 c) 3 t (idle3 t hl) (noflush3 t hl)]
      rw [scr_B m c t h0 h1]
      unfold stepB; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((runB c (grid0.coords t) _ _ _ _ _ _ _ _ _ _ _ _ _ _ (fun h => h0 ((isFirst_iff t).mp h)) (fun h => h1 ((isLast_iff t).mp h)) (iblk m c 0 t) _ _ _).2.2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverB0 m c t h0 h1 _)
          isplitl [HS1]
          · unfold owns; iexists _; isplitr
            swap; · iexact HS1
            ipureintro; exact View.read_writes_of_cover _ _ _ _ _ (coverB1 m c t h0 h1 _)
          unfold owns; iexists _; isplitr
          swap; · iexact HS2
          ipureintro; exact View.read_writes_of_cover _ _ _ _ _ (coverB2 m c t h0 h1 _)
        iexact Hg
      isplitl [Ho]; · iexact Ho
      isplitl [H0]; · iexact H0
      isplitl [H1]; · iexists _; iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 40 := N_0; omega), inv_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of the program terminates, and every final state has each array of the pipeline at what the
    proof data's write-backs make of it and every other unscoped buffer as the later lines leave it. -/
theorem run_main : θ_run defs (onTc (τ := τ) (main (F := F))) (s₀ m ρ)
    (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hin := hin m) (hout := hout m)

end Cert.KernelIdeal.Val

end
-- ==== Proof.KI.VCase.lean ====
/-
  What the body's stores leave, read back as values: at a first tile each accumulator is the tile's update of the reset
  value (zero, zero, minus infinity); at a later tile the tile's update of what it held; at a last tile each output is
  the updated accumulator recast as a 1 x 1 x 128 block. The "update" is the skeleton's payload: the accumulator plus the
  tile's column sums, plus its column sums of squares, or the larger of it and the tile's column maxima.
-/
import proofs.«152827_j5093831213700_2_alg».proof.Proof.KI.VData
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: each accumulator updated with the tile. -/
theorem stepB_eq (c : Dev nD) (t : Fin cfg0.N) (h0 : ¬t.val % 5 = 0) (h1 : ¬t.val % 5 = 4) (s : Vec F S1x128 .f32 × Vec F S1x128 .f32 × Vec F S1x128 .f32) :
    stepB m c t h0 h1 s = (k0_pay5 (iblk m c 0 t) s.1, k0_pay6 (iblk m c 0 t) s.2.1, k0_pay7 (iblk m c 0 t) s.2.2) := by
  unfold stepB
  refine Prod.ext ?_ (Prod.ext ?_ ?_) <;> dsimp only
  · rw [View.read_writes_eq_canon _ _ _ (coverB0 m c t h0 h1 s)]
    unfold runB
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)
  · rw [View.read_writes_eq_canon _ _ _ (coverB1 m c t h0 h1 s)]
    unfold runB
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)
  · rw [View.read_writes_eq_canon _ _ _ (coverB2 m c t h0 h1 s)]
    unfold runB
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)

/-- A last tile: the same update of the accumulators, -/
theorem stepC_eq (c : Dev nD) (t : Fin cfg0.N) (h0 : ¬t.val % 5 = 0) (h1 : t.val % 5 = 4) (s : Vec F S1x128 .f32 × Vec F S1x128 .f32 × Vec F S1x128 .f32) :
    stepC m c t h0 h1 s = (k0_pay5 (iblk m c 0 t) s.1, k0_pay6 (iblk m c 0 t) s.2.1, k0_pay7 (iblk m c 0 t) s.2.2) := by
  unfold stepC
  refine Prod.ext ?_ (Prod.ext ?_ ?_) <;> dsimp only
  · rw [View.read_writes_eq_canon _ _ _ (coverC0 m c t h0 h1 s)]
    unfold runC
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)
  · rw [View.read_writes_eq_canon _ _ _ (coverC1 m c t h0 h1 s)]
    unfold runC
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)
  · rw [View.read_writes_eq_canon _ _ _ (coverC2 m c t h0 h1 s)]
    unfold runC
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)

/-- A first tile: the update of the reset values. -/
theorem stepA_eq (c : Dev nD) (t : Fin cfg0.N) (h0 : t.val % 5 = 0) (h1 : ¬t.val % 5 = 4) :
    stepA m c t h0 h1 = (k0_pay5 (iblk m c 0 t) k0_pay1, k0_pay6 (iblk m c 0 t) k0_pay2, k0_pay7 (iblk m c 0 t) k0_pay3) := by
  unfold stepA
  refine Prod.ext ?_ (Prod.ext ?_ ?_) <;> dsimp only
  · rw [View.read_writes_eq_canon _ _ _ (coverA0 m c t h0 h1)]
    unfold runA
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)
  · rw [View.read_writes_eq_canon _ _ _ (coverA1 m c t h0 h1)]
    unfold runA
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)
  · rw [View.read_writes_eq_canon _ _ _ (coverA2 m c t h0 h1)]
    unfold runA
    dsimp only
    sl_unfold_words
    first
      | rw [View.canon_unit_zero hz2]
      | rw [View.canon_cons_unit_zero (S := S1x128) hz2]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 1; exact Memref.IsWhole.read_unread _ _)

end Cert.KernelIdeal.Val

end
-- ==== Proof.KI.VOut.lean ====
/-
  At a batch's last tile each output buffer receives its accumulator, just updated, recast as a 1 x 1 x 128 block.
-/
import proofs.«152827_j5093831213700_2_alg».proof.Proof.KI.VCase

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem outC_eq (c : Dev nD) (t : Fin cfg0.N) (h0 : ¬t.val % 5 = 0) (h1 : t.val % 5 = 4) (s : Vec F S1x128 .f32 × Vec F S1x128 .f32 × Vec F S1x128 .f32) :
    outC m c t h0 h1 s = (k0_pay8 (k0_pay5 (iblk m c 0 t) s.1), k0_pay9 (k0_pay6 (iblk m c 0 t) s.2.1), k0_pay10 (k0_pay7 (iblk m c 0 t) s.2.2)) := by
  unfold outC
  refine Prod.ext ?_ (Prod.ext ?_ ?_) <;> dsimp only
  · rw [View.read_writes_eq_canon _ _ _ (coverO1 m c t h0 h1 s)]
    unfold runC
    dsimp only
    sl_unfold_words
    rw [View.canon_unit_zero hz3]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 2; exact Memref.IsWhole.read_unread _ _)
  · rw [View.read_writes_eq_canon _ _ _ (coverO2 m c t h0 h1 s)]
    unfold runC
    dsimp only
    sl_unfold_words
    rw [View.canon_unit_zero hz3]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 2; exact Memref.IsWhole.read_unread _ _)
  · rw [View.read_writes_eq_canon _ _ _ (coverO3 m c t h0 h1 s)]
    unfold runC
    dsimp only
    sl_unfold_words
    rw [View.canon_unit_zero hz3]
    try rw [View.readCov_unit_zero (S := S1x128) _ hz2]
    simp only [View.readAt_eq_ld, Memref.IsWhole.read_unread, View.ld_unit_zero (S := S1x128) hz2, View.ld_unit_zero (S := S1x10000x128) hz3, View.ld_unit_zero (S := S1x1x128) hz3]
    try (congr 2; exact Memref.IsWhole.read_unread _ _)

end Cert.KernelIdeal.Val

end
-- ==== Proof.KI.KArr.lean ====
/-
  From the grid points to the three result arrays. A batch's five tiles update the accumulators in turn from their reset
  values, so after the batch's last tile each accumulator is five nested updates of the reset value; that tile copies
  them out, and the write-back puts the copy in the batch's row of the result array. The eight rows tile the array, so
  each result array is one function of the row and the lane.
-/
import proofs.«152827_j5093831213700_2_alg».proof.Proof.KI.VOut
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- One tile's update of the three accumulators: add the tile's column sums, add its column sums of squares, take the larger
    of the accumulator and its column maxima. -/
abbrev upd (x : Vec F S1x10000x128 .f32) (s : Vec F S1x128 .f32 × Vec F S1x128 .f32 × Vec F S1x128 .f32) : Vec F S1x128 .f32 × Vec F S1x128 .f32 × Vec F S1x128 .f32 := (k0_pay5 x s.1, k0_pay6 x s.2.1, k0_pay7 x s.2.2)

/-- The reset values: zero, zero, minus infinity, in every lane. -/
abbrev reset : Vec F S1x128 .f32 × Vec F S1x128 .f32 × Vec F S1x128 .f32 := (k0_pay1, k0_pay2, k0_pay3)

theorem scr_congr (c : Dev nD) (n n' : ℕ) (h : n < cfg0.N) (h' : n' < cfg0.N) (e : n = n') : scr m c n h = scr m c n' h' := by
  subst e; rfl

/-- At a first tile the accumulators are the tile's update of the reset values. -/
theorem scr_first (c : Dev nD) (t : Fin cfg0.N) (h0 : t.val % 5 = 0) : scr m c t.val t.isLt = upd (iblk m c 0 t) reset := by
  rw [scr_A m c t h0 (by omega), stepA_eq]

/-- At a later tile they are the tile's update of what the point before left. -/
theorem scr_next (c : Dev nD) (t t' : Fin cfg0.N) (h0 : ¬t.val % 5 = 0) (e : t'.val + 1 = t.val) :
    scr m c t.val t.isLt = upd (iblk m c 0 t) (scr m c t'.val t'.isLt) := by
  have k : scr m c (t.val - 1) (Nat.lt_of_le_of_lt (Nat.sub_le _ _) t.isLt) = scr m c t'.val t'.isLt :=
    scr_congr m c _ _ _ _ (by omega)
  by_cases h1 : t.val % 5 = 4
  · rw [scr_C m c t h0 h1, stepC_eq, k]
  · rw [scr_B m c t h0 h1, stepB_eq, k]

/-- Grid point `5 b + n`: tile `n` of batch `b`. -/
def pt (b : Fin 8) (n : ℕ) (hn : n < 5) : Fin cfg0.N := ⟨5 * b.val + n, by have := b.isLt; rw [show cfg0.N = 40 from N_0]; omega⟩

theorem pt_val (b : Fin 8) (n : ℕ) (hn : n < 5) : (pt b n hn).val = 5 * b.val + n := rfl

/-- The accumulators after batch `b`'s five tiles. -/
def accEnd (c : Dev nD) (b : Fin 8) : Vec F S1x128 .f32 × Vec F S1x128 .f32 × Vec F S1x128 .f32 :=
  upd (iblk m c 0 (pt b 4 (by decide))) (upd (iblk m c 0 (pt b 3 (by decide))) (upd (iblk m c 0 (pt b 2 (by decide)))
    (upd (iblk m c 0 (pt b 1 (by decide))) (upd (iblk m c 0 (pt b 0 (by decide))) reset))))

/-- A last tile's update of what the point before left is the batch's five nested updates. -/
theorem accEnd_eq (c : Dev nD) (t : Fin cfg0.N) (h4 : t.val % 5 = 4) :
    (k0_pay5 (iblk m c 0 t) (scr m c (t.val - 1) (Nat.lt_of_le_of_lt (Nat.sub_le _ _) t.isLt)).1,
      k0_pay6 (iblk m c 0 t) (scr m c (t.val - 1) (Nat.lt_of_le_of_lt (Nat.sub_le _ _) t.isLt)).2.1,
      k0_pay7 (iblk m c 0 t) (scr m c (t.val - 1) (Nat.lt_of_le_of_lt (Nat.sub_le _ _) t.isLt)).2.2)
      = accEnd m c ⟨t.val / 5, by have := lt_of_lt_of_eq t.isLt (show cfg0.N = 40 from N_0); omega⟩ := by
  have hN : t.val < 40 := lt_of_lt_of_eq t.isLt (show cfg0.N = 40 from N_0)
  obtain ⟨b, rfl⟩ : ∃ b : Fin 8, t = pt b 4 (by decide) :=
    ⟨⟨t.val / 5, by omega⟩, Fin.ext (by rw [pt_val]; show t.val = 5 * (t.val / 5) + 4; omega)⟩
  have hb : (⟨(pt b 4 (by decide)).val / 5, by omega⟩ : Fin 8) = b :=
    Fin.ext (by show (5 * b.val + 4) / 5 = b.val; omega)
  rw [hb]
  have k3 := scr_congr m c ((pt b 4 (by decide)).val - 1) (pt b 3 (by decide)).val
    (Nat.lt_of_le_of_lt (Nat.sub_le _ _) (pt b 4 (by decide)).isLt) (pt b 3 (by decide)).isLt (by rw [pt_val, pt_val]; omega)
  rw [k3, scr_next m c (pt b 3 (by decide)) (pt b 2 (by decide)) (by rw [pt_val]; omega) (by rw [pt_val, pt_val]),
    scr_next m c (pt b 2 (by decide)) (pt b 1 (by decide)) (by rw [pt_val]; omega) (by rw [pt_val, pt_val]),
    scr_next m c (pt b 1 (by decide)) (pt b 0 (by decide)) (by rw [pt_val]; omega) (by rw [pt_val, pt_val]),
    scr_first m c (pt b 0 (by decide)) (by rw [pt_val]; omega)]
  rfl

/-! ## The result arrays -/

/-- The row (batch) and the lane of an index of a result array. -/
def rowOf (i : S8x1x128.Idx) : Fin 8 := ⟨(i 0).val, (i 0).isLt⟩
def laneOf (i : S8x1x128.Idx) : S1x1x128.Idx := fun a => match a with
  | ⟨0, _⟩ => ⟨0, Nat.one_pos⟩
  | ⟨1, _⟩ => ⟨0, Nat.one_pos⟩
  | ⟨2, _⟩ => ⟨(i 2).val, (i 2).isLt⟩

/-! ### Output 1 -/

/-- The array output 1 ends holding: row `b` is accumulator 1's value after batch `b`'s five tiles, as a 1 x 1 x 128 block. -/
def G1 (c : Dev nD) : S8x1x128.Idx → Elt F .f32 := fun i => k0_pay8 (accEnd m c (rowOf i)).1 (laneOf i)

theorem idx1 : ∀ t : Fin cfg0.N, win0_1.index t (0 : Fin 3) = t.val / 5 ∧ win0_1.index t (1 : Fin 3) = 0 ∧ win0_1.index t (2 : Fin 3) = 0 :=
  (by decide +kernel : ∀ t : Fin grid0.N, win0_1.index t (0 : Fin 3) = t.val / 5 ∧ win0_1.index t (1 : Fin 3) = 0 ∧ win0_1.index t (2 : Fin 3) = 0)

/-- What a batch's last point writes back is that batch's row of `G1`. -/
theorem flushed1_eq (c : Dev nD) (t : Fin cfg0.N) (hf : (cfg0.win 1).flush t = true) :
    (dats m 0 c).flushed 1 t = ((cfg0.win 1).blk t).view.read (Elt F) (G1 m c) := by
  have hN : t.val < 40 := lt_of_lt_of_eq t.isLt (show cfg0.N = 40 from N_0)
  have h4 : t.val % 5 = 4 := (flush0_1 t).mp hf
  have h0 : ¬ t.val % 5 = 0 := by omega
  obtain ⟨i0, i1, i2⟩ := idx1 t
  show (cfg0.win 1).cut (grid0.coords t) ((dats m 0 c).after 1 t) = _
  rw [after1, outAt_C m c t h0 h4, outC_eq]
  dsimp only
  funext y
  rw [View.read_apply]
  have hrow : rowOf (((cfg0.win 1).blk t).view.emb y) = ⟨t.val / 5, by omega⟩ := by
    apply Fin.ext
    show win0_1.index t (0 : Fin 3) * 1 + 1 * (y 0).val = t.val / 5
    have : (y 0).val < 1 := (y 0).isLt
    omega
  have hlane : laneOf (((cfg0.win 1).blk t).view.emb y) = y := by
    funext a; apply Fin.ext
    match a with
    | ⟨0, _⟩ => show 0 = (y 0).val; have : (y 0).val < 1 := (y 0).isLt; omega
    | ⟨1, _⟩ => show 0 = (y 1).val; have : (y 1).val < 1 := (y 1).isLt; omega
    | ⟨2, _⟩ => show win0_1.index t (2 : Fin 3) * 128 + 1 * (y 2).val = (y 2).val; omega
  show k0_pay8 _ y = k0_pay8 (accEnd m c (rowOf _)).1 (laneOf _)
  rw [hrow, hlane, ← accEnd_eq m c t h4]

/-- Every index of the array lies in the block of its row's last point. -/
theorem cover1 (c : Dev nD) (i : S8x1x128.Idx) :
    ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 128 := (i 2).isLt
  obtain ⟨t, ht⟩ : ∃ t : Fin cfg0.N, t.val = 5 * (i 0).val + 4 := ⟨⟨5 * (i 0).val + 4, by rw [show cfg0.N = 40 from N_0]; omega⟩, rfl⟩
  refine ⟨t, (flush0_1 t).mpr (by omega), ?_⟩
  obtain ⟨i0, i1, i2⟩ := idx1 t
  show i ∈ ((View.whole main_v1_0).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1
              rw [i0]; omega
  | ⟨1, _⟩ => show win0_1.index t (1 : Fin 3) * 1 ≤ (i 1).val ∧ (i 1).val < win0_1.index t (1 : Fin 3) * 1 + 1
              rw [i1]; omega
  | ⟨2, _⟩ => show win0_1.index t (2 : Fin 3) * 128 ≤ (i 2).val ∧ (i 2).val < win0_1.index t (2 : Fin 3) * 128 + 128
              rw [i2]; omega

/-- So the array ends at `G1`. -/
theorem final1 (c : Dev nD) : (dats m 0 c).arrAt 1 cfg0.N = G1 m c :=
  (dats m 0 c).arrAt_eq_of_cover 1 (G1 m c) (flushed1_eq m c) (cover1 c)

/-! ### Output 2 -/

/-- The array output 2 ends holding: row `b` is accumulator 2's value after batch `b`'s five tiles, as a 1 x 1 x 128 block. -/
def G2 (c : Dev nD) : S8x1x128.Idx → Elt F .f32 := fun i => k0_pay9 (accEnd m c (rowOf i)).2.1 (laneOf i)

theorem idx2 : ∀ t : Fin cfg0.N, win0_2.index t (0 : Fin 3) = t.val / 5 ∧ win0_2.index t (1 : Fin 3) = 0 ∧ win0_2.index t (2 : Fin 3) = 0 :=
  (by decide +kernel : ∀ t : Fin grid0.N, win0_2.index t (0 : Fin 3) = t.val / 5 ∧ win0_2.index t (1 : Fin 3) = 0 ∧ win0_2.index t (2 : Fin 3) = 0)

/-- What a batch's last point writes back is that batch's row of `G2`. -/
theorem flushed2_eq (c : Dev nD) (t : Fin cfg0.N) (hf : (cfg0.win 2).flush t = true) :
    (dats m 0 c).flushed 2 t = ((cfg0.win 2).blk t).view.read (Elt F) (G2 m c) := by
  have hN : t.val < 40 := lt_of_lt_of_eq t.isLt (show cfg0.N = 40 from N_0)
  have h4 : t.val % 5 = 4 := (flush0_2 t).mp hf
  have h0 : ¬ t.val % 5 = 0 := by omega
  obtain ⟨i0, i1, i2⟩ := idx2 t
  show (cfg0.win 2).cut (grid0.coords t) ((dats m 0 c).after 2 t) = _
  rw [after2, outAt_C m c t h0 h4, outC_eq]
  dsimp only
  funext y
  rw [View.read_apply]
  have hrow : rowOf (((cfg0.win 2).blk t).view.emb y) = ⟨t.val / 5, by omega⟩ := by
    apply Fin.ext
    show win0_2.index t (0 : Fin 3) * 1 + 1 * (y 0).val = t.val / 5
    have : (y 0).val < 1 := (y 0).isLt
    omega
  have hlane : laneOf (((cfg0.win 2).blk t).view.emb y) = y := by
    funext a; apply Fin.ext
    match a with
    | ⟨0, _⟩ => show 0 = (y 0).val; have : (y 0).val < 1 := (y 0).isLt; omega
    | ⟨1, _⟩ => show 0 = (y 1).val; have : (y 1).val < 1 := (y 1).isLt; omega
    | ⟨2, _⟩ => show win0_2.index t (2 : Fin 3) * 128 + 1 * (y 2).val = (y 2).val; omega
  show k0_pay9 _ y = k0_pay9 (accEnd m c (rowOf _)).2.1 (laneOf _)
  rw [hrow, hlane, ← accEnd_eq m c t h4]

/-- Every index of the array lies in the block of its row's last point. -/
theorem cover2 (c : Dev nD) (i : S8x1x128.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 128 := (i 2).isLt
  obtain ⟨t, ht⟩ : ∃ t : Fin cfg0.N, t.val = 5 * (i 0).val + 4 := ⟨⟨5 * (i 0).val + 4, by rw [show cfg0.N = 40 from N_0]; omega⟩, rfl⟩
  refine ⟨t, (flush0_2 t).mpr (by omega), ?_⟩
  obtain ⟨i0, i1, i2⟩ := idx2 t
  show i ∈ ((View.whole main_v1_1).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1
              rw [i0]; omega
  | ⟨1, _⟩ => show win0_2.index t (1 : Fin 3) * 1 ≤ (i 1).val ∧ (i 1).val < win0_2.index t (1 : Fin 3) * 1 + 1
              rw [i1]; omega
  | ⟨2, _⟩ => show win0_2.index t (2 : Fin 3) * 128 ≤ (i 2).val ∧ (i 2).val < win0_2.index t (2 : Fin 3) * 128 + 128
              rw [i2]; omega

/-- So the array ends at `G2`. -/
theorem final2 (c : Dev nD) : (dats m 0 c).arrAt 2 cfg0.N = G2 m c :=
  (dats m 0 c).arrAt_eq_of_cover 2 (G2 m c) (flushed2_eq m c) (cover2 c)

/-! ### Output 3 -/

/-- The array output 3 ends holding: row `b` is accumulator 3's value after batch `b`'s five tiles, as a 1 x 1 x 128 block. -/
def G3 (c : Dev nD) : S8x1x128.Idx → Elt F .f32 := fun i => k0_pay10 (accEnd m c (rowOf i)).2.2 (laneOf i)

theorem idx3 : ∀ t : Fin cfg0.N, win0_3.index t (0 : Fin 3) = t.val / 5 ∧ win0_3.index t (1 : Fin 3) = 0 ∧ win0_3.index t (2 : Fin 3) = 0 :=
  (by decide +kernel : ∀ t : Fin grid0.N, win0_3.index t (0 : Fin 3) = t.val / 5 ∧ win0_3.index t (1 : Fin 3) = 0 ∧ win0_3.index t (2 : Fin 3) = 0)

/-- What a batch's last point writes back is that batch's row of `G3`. -/
theorem flushed3_eq (c : Dev nD) (t : Fin cfg0.N) (hf : (cfg0.win 3).flush t = true) :
    (dats m 0 c).flushed 3 t = ((cfg0.win 3).blk t).view.read (Elt F) (G3 m c) := by
  have hN : t.val < 40 := lt_of_lt_of_eq t.isLt (show cfg0.N = 40 from N_0)
  have h4 : t.val % 5 = 4 := (flush0_3 t).mp hf
  have h0 : ¬ t.val % 5 = 0 := by omega
  obtain ⟨i0, i1, i2⟩ := idx3 t
  show (cfg0.win 3).cut (grid0.coords t) ((dats m 0 c).after 3 t) = _
  rw [after3, outAt_C m c t h0 h4, outC_eq]
  dsimp only
  funext y
  rw [View.read_apply]
  have hrow : rowOf (((cfg0.win 3).blk t).view.emb y) = ⟨t.val / 5, by omega⟩ := by
    apply Fin.ext
    show win0_3.index t (0 : Fin 3) * 1 + 1 * (y 0).val = t.val / 5
    have : (y 0).val < 1 := (y 0).isLt
    omega
  have hlane : laneOf (((cfg0.win 3).blk t).view.emb y) = y := by
    funext a; apply Fin.ext
    match a with
    | ⟨0, _⟩ => show 0 = (y 0).val; have : (y 0).val < 1 := (y 0).isLt; omega
    | ⟨1, _⟩ => show 0 = (y 1).val; have : (y 1).val < 1 := (y 1).isLt; omega
    | ⟨2, _⟩ => show win0_3.index t (2 : Fin 3) * 128 + 1 * (y 2).val = (y 2).val; omega
  show k0_pay10 _ y = k0_pay10 (accEnd m c (rowOf _)).2.2 (laneOf _)
  rw [hrow, hlane, ← accEnd_eq m c t h4]

/-- Every index of the array lies in the block of its row's last point. -/
theorem cover3 (c : Dev nD) (i : S8x1x128.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 128 := (i 2).isLt
  obtain ⟨t, ht⟩ : ∃ t : Fin cfg0.N, t.val = 5 * (i 0).val + 4 := ⟨⟨5 * (i 0).val + 4, by rw [show cfg0.N = 40 from N_0]; omega⟩, rfl⟩
  refine ⟨t, (flush0_3 t).mpr (by omega), ?_⟩
  obtain ⟨i0, i1, i2⟩ := idx3 t
  show i ∈ ((View.whole main_v1_2).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1
              rw [i0]; omega
  | ⟨1, _⟩ => show win0_3.index t (1 : Fin 3) * 1 ≤ (i 1).val ∧ (i 1).val < win0_3.index t (1 : Fin 3) * 1 + 1
              rw [i1]; omega
  | ⟨2, _⟩ => show win0_3.index t (2 : Fin 3) * 128 ≤ (i 2).val ∧ (i 2).val < win0_3.index t (2 : Fin 3) * 128 + 128
              rw [i2]; omega

/-- So the array ends at `G3`. -/
theorem final3 (c : Dev nD) : (dats m 0 c).arrAt 3 cfg0.N = G3 m c :=
  (dats m 0 c).arrAt_eq_of_cover 3 (G3 m c) (flushed3_eq m c) (cover3 c)

end Cert.KernelIdeal.Val

end
-- ==== Proof.KI.KFin.lean ====
/-
  The kernel program's run, read: every weakly fair execution terminates with the result buffer at the program's pure
  function of the pooling kernel's three result arrays (each a named function of the reshaped x) and of the arguments,
  and with the eight argument arrays unchanged.
-/
import proofs.«152827_j5093831213700_2_alg».proof.Proof.KI.KRes
import proofs.«152827_j5093831213700_2_alg».proof.Proof.KI.VBody
import proofs.«152827_j5093831213700_2_alg».proof.Proof.KI.KArr

set_option maxRecDepth 16384

noncomputable section

namespace Cert.KernelIdeal.Val

open Cert.KernelIdeal Cert.KernelIdeal.Gen Cert.KernelIdeal.Frm Cert.KernelIdeal.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region leaves: the pipeline's arrays at their final contents, every other buffer as the region found it. -/
abbrev exitVals (c : Dev nD) : Valuation τ sig (Elt F) :=
  Pipeline.withArrays spec0 c (V0 m c) fun w => (dats m 0 c).arrAt w cfg0.N

theorem exit_arr (c : Dev nD) (w : Fin 4) : exitVals m c (Proc.devRef .tc (Pipeline.arrRef spec0 w)) = (dats m 0 c).arrAt w cfg0.N :=
  Pipeline.withArrays_arr spec0 launch0.win.arr_inj c _ _ w

theorem not_arr : ∀ b ∈ ([main_arg0, main_arg1, main_arg2, main_arg3, main_arg4, main_arg5, main_arg6, main_arg7] : List (Ref sig .tc)),
    ∀ w : Fin 4, Pipeline.arrRef spec0 w ≠ b := by decide

/-- An argument is not one of the pipeline's arrays, and the reshape before the region does not write it. -/
theorem exit_arg (c : Dev nD) (b : Ref sig .tc)
    (hb : b ∈ ([main_arg0, main_arg1, main_arg2, main_arg3, main_arg4, main_arg5, main_arg6, main_arg7] : List (Ref sig .tc))) :
    exitVals m c (Proc.devRef .tc b) = m ((c : Thread nD τ).loc b) :=
  (Pipeline.withArrays_of_ne spec0 c (V0 m c) _ b (not_arr b hb)).trans (V_arg m c b hb)

/-- No later line writes an argument. -/
theorem tail_arg (W : Valuation τ sig (Elt F)) (b : Ref sig .tc)
    (hb : b ∈ ([main_arg0, main_arg1, main_arg2, main_arg3, main_arg4, main_arg5, main_arg6, main_arg7] : List (Ref sig .tc))) :
    StableHlo.after (tail (F := F)).flatten W (Proc.devRef .tc b) = W (Proc.devRef .tc b) := by
  refine StableHlo.after_of_forall_not_mem _ _ fun op hop hw => ?_
  obtain ⟨ops, hops, hop'⟩ := List.mem_flatten.mp hop
  obtain ⟨y, hy, hg⟩ := tail_aside ops hops op hop'
  rw [hy, Finset.mem_singleton] at hw
  obtain rfl : b = y := Proc.devRef_injective _ hw
  refine hg ?_
  simp only [guarded, List.mem_cons, List.mem_nil_iff, or_false] at hb ⊢
  rcases hb with h | h | h | h | h | h | h | h <;> simp [h]

theorem rest_mem : ∀ b ∈ ([main_v79, main_arg0, main_arg1, main_arg2, main_arg3, main_arg4, main_arg5, main_arg6, main_arg7] : List (Ref sig .tc)),
    b ∈ Pipeline.restRefs sig spec0 := by decide

/-- THE RUN, READ. -/
theorem run_val : θ_run defs (onTc (τ := τ) (main (F := F))) ⟨m, fun _ => 0, ρ⟩ fun r => ∀ c : Dev nD,
      r.2.mem ((c.tc : Thread nD τ).loc main_v79)
        = kOut (G1 m c) (G2 m c) (G3 m c) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_main m ρ)
  have hr : ∀ b ∈ ([main_v79, main_arg0, main_arg1, main_arg2, main_arg3, main_arg4, main_arg5, main_arg6, main_arg7] : List (Ref sig .tc)),
      r.2.mem ((c.tc : Thread nD τ).loc b) = StableHlo.after (tail (F := F)).flatten (exitVals m c) (Proc.devRef .tc b) :=
    fun b hb => (h c).2 b (rest_mem b hb)
  have ha : ∀ b ∈ ([main_arg0, main_arg1, main_arg2, main_arg3, main_arg4, main_arg5, main_arg6, main_arg7] : List (Ref sig .tc)),
      r.2.mem ((c.tc : Thread nD τ).loc b) = m ((c.tc : Thread nD τ).loc b) := fun b hb =>
    (hr b (List.mem_cons_of_mem _ hb)).trans ((tail_arg (exitVals m c) b hb).trans (exit_arg m c b hb))
  refine ⟨?_, ha main_arg0 (by decide), ha main_arg1 (by decide), ha main_arg2 (by decide), ha main_arg3 (by decide), ha main_arg4 (by decide), ha main_arg5 (by decide), ha main_arg6 (by decide), ha main_arg7 (by decide)⟩
  rw [hr main_v79 (by decide), tail_eq]
  have e1 : exitVals m c (Proc.devRef .tc main_v1_0) = G1 m c := (exit_arr m c 1).trans (final1 m c)
  have e2 : exitVals m c (Proc.devRef .tc main_v1_1) = G2 m c := (exit_arr m c 2).trans (final2 m c)
  have e3 : exitVals m c (Proc.devRef .tc main_v1_2) = G3 m c := (exit_arr m c 3).trans (final3 m c)
  rw [e1, e2, e3, exit_arg m c main_arg1 (by decide), exit_arg m c main_arg2 (by decide), exit_arg m c main_arg3 (by decide),
    exit_arg m c main_arg4 (by decide), exit_arg m c main_arg5 (by decide), exit_arg m c main_arg6 (by decide), exit_arg m c main_arg7 (by decide)]

end Cert.KernelIdeal.Val

end
-- ==== Proof.RVals.lean ====
/- The host lines of the printed program read as pure functions: each value below is the chain of the operations that
   compute it from the named inputs, one line per operation in program order (a called function's operations at its
   call). A transcription of the printed program; nothing is argued here. -/
import proofs.«152827_j5093831213700_2_alg».proof.Proof.Gen.ReferenceIdeal

noncomputable section

namespace Cert.ReferenceIdeal.Vals

open Cert.ReferenceIdeal Cert.ReferenceIdeal.Gen Idealize.ShloMosaic

variable {F : FTy → Type} [FloatOps F]

/-- The mean over the nodes. -/
def rMean (x : FVec F S8x100000x64 .f32) : FVec F S8x64 .f32 :=
  let main_cst := (constant S_ .f32 0x00000000#32)
  let main_v0 := (((fun x v => Host.reduceAdd x v reducesTo_S8x100000x64_S8x64_d1 h_S_) : (⟨S8x100000x64, .f32⟩ : BufTy).Contents (Elt F) → (⟨S_, .f32⟩ : BufTy).Contents (Elt F) → (⟨S8x64, .f32⟩ : BufTy).Contents (Elt F))) x main_cst
  let main_cst_0 := (constant S_ .f32 0x47C35000#32)
  let main_v1 := ((broadcastInDim S8x64 ![] bcast_S_S8x64 : (⟨S_, .f32⟩ : BufTy).Contents (Elt F) → (⟨S8x64, .f32⟩ : BufTy).Contents (Elt F))) main_cst_0
  let main_v2 := ((Host.divf : (⟨S8x64, .f32⟩ : BufTy).Contents (Elt F) → (⟨S8x64, .f32⟩ : BufTy).Contents (Elt F) → (⟨S8x64, .f32⟩ : BufTy).Contents (Elt F))) main_v0 main_v1
  main_v2

/-- The maximum over the nodes. -/
def rMax (x : FVec F S8x100000x64 .f32) : FVec F S8x64 .f32 :=
  let main_cst_1 := (constant S_ .f32 0xFF800000#32)
  let main_v3 := (((fun x v => Host.reduce FloatOps.maximumf x v reducesTo_S8x100000x64_S8x64_d1 h_S_) : (⟨S8x100000x64, .f32⟩ : BufTy).Contents (Elt F) → (⟨S_, .f32⟩ : BufTy).Contents (Elt F) → (⟨S8x64, .f32⟩ : BufTy).Contents (Elt F))) x main_cst_1
  main_v3

/-- The unbiased standard deviation over the nodes, from the centred squares. -/
def rStd (x : FVec F S8x100000x64 .f32) : FVec F S8x64 .f32 :=
  let main_c := (constantI S_ 32 1#32)
  let main_call0_call0_cst := (constant S_ .f32 0x00000000#32)
  let main_call0_call0_v0 := ((fun x v => Host.reduceAdd x v reducesTo_S8x100000x64_S8x64_d1 h_S_)) x main_call0_call0_cst
  let main_call0_call0_v1 := ((broadcastInDim S8x1x64 ![0, 2] bcast_S8x64_S8x1x64_0_2)) main_call0_call0_v0
  let main_call0_call0_cst_0 := (constant S_ .f32 0x47C35000#32)
  let main_call0_call0_v2 := ((broadcastInDim S8x1x64 ![] bcast_S_S8x1x64)) main_call0_call0_cst_0
  let main_call0_call0_v3 := (Host.divf) main_call0_call0_v1 main_call0_call0_v2
  let main_call0_call0_v4 := ((broadcastInDim S8x100000x64 ![0, 1, 2] bcast_S8x1x64_S8x100000x64_0_1_2)) main_call0_call0_v3
  let main_call0_call0_v5 := (subf) x main_call0_call0_v4
  let main_call0_call0_v6 := (mulf) main_call0_call0_v5 main_call0_call0_v5
  let main_call0_call0_v7 := ((sitofp .f32)) main_c
  let main_call0_call0_cst_1 := (constant S_ .f32 0x47C35000#32)
  let main_call0_call0_v8 := (subf) main_call0_call0_cst_1 main_call0_call0_v7
  let main_call0_call0_cst_2 := (constant S_ .f32 0x00000000#32)
  let main_call0_call0_v9 := ((fun x v => Host.reduceAdd x v reducesTo_S8x100000x64_S8x64_d1 h_S_)) main_call0_call0_v6 main_call0_call0_cst_2
  let main_call0_call0_v10 := ((broadcastInDim S8x64 ![] bcast_S_S8x64)) main_call0_call0_v8
  let main_call0_call0_v11 := (Host.divf) main_call0_call0_v9 main_call0_call0_v10
  let main_call0_call0_cst_3 := (constant S_ .f32 0x00000000#32)
  let main_call0_call0_v12 := ((cmpf .ogt)) main_call0_call0_v8 main_call0_call0_cst_3
  let main_call0_call0_cst_4 := (constant S_ .f32 0x7FC00000#32)
  let main_call0_call0_call0_v0 := (id) main_call0_call0_cst_4
  let main_call0_call0_call0_v1 := ((broadcastInDim S8x64 ![] bcast_S_S8x64)) main_call0_call0_call0_v0
  let main_call0_v0 := ((fun p a b => select (broadcastInDim S8x64 ![] bcast_S_S8x64 p) a b)) main_call0_call0_v12 main_call0_call0_v11 main_call0_call0_call0_v1
  let main_v4 := (Host.sqrt) main_call0_v0
  main_v4

/-- The in-degree histogram. -/
def rDeg (e : IVec S2x3200000 32) : FVec F S100000 .f32 :=
  let main_cst_2 := (constant S_ .f32 0x00000000#32)
  let main_v5 := ((broadcastInDim S100000 ![] bcast_S_S100000 : (⟨S_, .f32⟩ : BufTy).Contents (Elt F) → (⟨S100000, .f32⟩ : BufTy).Contents (Elt F))) main_cst_2
  let main_v6 := (((extractStridedSlice S1x3200000 ![1, 0] · slices_S2x3200000_S1x3200000_1_0) : (⟨S2x3200000, .i32⟩ : BufTy).Contents (Elt F) → (⟨S1x3200000, .i32⟩ : BufTy).Contents (Elt F))) e
  let main_v7 := shapeCast S3200000 main_v6 shapeCasts_S1x3200000_S3200000
  let main_c_3 := (constantI S_ 32 0#32)
  let main_v8 := ((broadcastInDim S3200000 ![] bcast_S_S3200000 : (⟨S_, .i32⟩ : BufTy).Contents (Elt F) → (⟨S3200000, .i32⟩ : BufTy).Contents (Elt F))) main_c_3
  let main_v9 := ((cmpi .slt : (⟨S3200000, .i32⟩ : BufTy).Contents (Elt F) → (⟨S3200000, .i32⟩ : BufTy).Contents (Elt F) → (⟨S3200000, .i1⟩ : BufTy).Contents (Elt F))) main_v7 main_v8
  let main_c_4 := (constantI S_ 32 100000#32)
  let main_v10 := ((broadcastInDim S3200000 ![] bcast_S_S3200000 : (⟨S_, .i32⟩ : BufTy).Contents (Elt F) → (⟨S3200000, .i32⟩ : BufTy).Contents (Elt F))) main_c_4
  let main_v11 := ((addi : (⟨S3200000, .i32⟩ : BufTy).Contents (Elt F) → (⟨S3200000, .i32⟩ : BufTy).Contents (Elt F) → (⟨S3200000, .i32⟩ : BufTy).Contents (Elt F))) main_v7 main_v10
  let main_v12 := ((select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F))) main_v9 main_v11 main_v7
  let main_v13 := ((broadcastInDim S3200000x1 ![0] bcast_S3200000_S3200000x1_0 : (⟨S3200000, .i32⟩ : BufTy).Contents (Elt F) → (⟨S3200000x1, .i32⟩ : BufTy).Contents (Elt F))) main_v12
  let main_cst_5 := (constant S_ .f32 0x3F800000#32)
  let main_v14 := ((broadcastInDim S3200000 ![] bcast_S_S3200000 : (⟨S_, .f32⟩ : BufTy).Contents (Elt F) → (⟨S3200000, .f32⟩ : BufTy).Contents (Elt F))) main_cst_5
  let main_v15 := (((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F))) main_v5 main_v13 main_v14
  main_v15

/-- The four structural numbers, one row per batch: the histogram's mean and unbiased standard deviation, two constants. -/
def rStruct (deg : FVec F S100000 .f32) : FVec F S8x4 .f32 :=
  let main_cst_6 := (constant S_ .f32 0x00000000#32)
  let main_v16 := (((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F))) deg main_cst_6
  let main_cst_7 := (constant S_ .f32 0x47C35000#32)
  let main_v17 := ((Host.divf : (⟨S_, .f32⟩ : BufTy).Contents (Elt F) → (⟨S_, .f32⟩ : BufTy).Contents (Elt F) → (⟨S_, .f32⟩ : BufTy).Contents (Elt F))) main_v16 main_cst_7
  let main_c_8 := (constantI S_ 32 1#32)
  let main_call1_call0_cst := (constant S_ .f32 0x00000000#32)
  let main_call1_call0_v0 := ((fun x v => Host.reduceAdd x v reducesTo_S100000_S_d0 h_S_)) deg main_call1_call0_cst
  let main_call1_call0_v1 := ((broadcastInDim S1 ![] bcast_S_S1)) main_call1_call0_v0
  let main_call1_call0_cst_0 := (constant S_ .f32 0x47C35000#32)
  let main_call1_call0_v2 := ((broadcastInDim S1 ![] bcast_S_S1)) main_call1_call0_cst_0
  let main_call1_call0_v3 := (Host.divf) main_call1_call0_v1 main_call1_call0_v2
  let main_call1_call0_v4 := ((broadcastInDim S100000 ![0] bcast_S1_S100000_0)) main_call1_call0_v3
  let main_call1_call0_v5 := (subf) deg main_call1_call0_v4
  let main_call1_call0_v6 := (mulf) main_call1_call0_v5 main_call1_call0_v5
  let main_call1_call0_v7 := ((sitofp .f32)) main_c_8
  let main_call1_call0_cst_1 := (constant S_ .f32 0x47C35000#32)
  let main_call1_call0_v8 := (subf) main_call1_call0_cst_1 main_call1_call0_v7
  let main_call1_call0_cst_2 := (constant S_ .f32 0x00000000#32)
  let main_call1_call0_v9 := ((fun x v => Host.reduceAdd x v reducesTo_S100000_S_d0 h_S_)) main_call1_call0_v6 main_call1_call0_cst_2
  let main_call1_call0_v10 := (Host.divf) main_call1_call0_v9 main_call1_call0_v8
  let main_call1_call0_cst_3 := (constant S_ .f32 0x00000000#32)
  let main_call1_call0_v11 := ((cmpf .ogt)) main_call1_call0_v8 main_call1_call0_cst_3
  let main_call1_call0_cst_4 := (constant S_ .f32 0x7FC00000#32)
  let main_call1_call0_call0_v0 := (id) main_call1_call0_cst_4
  let main_call1_v0 := (select) main_call1_call0_v11 main_call1_call0_v10 main_call1_call0_call0_v0
  let main_v18 := (Host.sqrt) main_call1_v0
  let main_cst_9 := (constant S_ .f32 0x39A7C61A#32)
  let main_cst_10 := (constant S_ .f32 0x3F935D96#32)
  let main_v19 := ((broadcastInDim S1 ![] bcast_S_S1 : (⟨S_, .f32⟩ : BufTy).Contents (Elt F) → (⟨S1, .f32⟩ : BufTy).Contents (Elt F))) main_v17
  let main_v20 := ((broadcastInDim S1 ![] bcast_S_S1 : (⟨S_, .f32⟩ : BufTy).Contents (Elt F) → (⟨S1, .f32⟩ : BufTy).Contents (Elt F))) main_v18
  let main_v21 := ((broadcastInDim S1 ![] bcast_S_S1 : (⟨S_, .f32⟩ : BufTy).Contents (Elt F) → (⟨S1, .f32⟩ : BufTy).Contents (Elt F))) main_cst_9
  let main_v22 := ((broadcastInDim S1 ![] bcast_S_S1 : (⟨S_, .f32⟩ : BufTy).Contents (Elt F) → (⟨S1, .f32⟩ : BufTy).Contents (Elt F))) main_cst_10
  let main_v23 := concatenate S4 0 [⟨S1, main_v19⟩, ⟨S1, main_v20⟩, ⟨S1, main_v21⟩, ⟨S1, main_v22⟩] concatenates_S1_S1_S1_S1_S4_d0
  let main_v24 := ((broadcastInDim S1x4 ![1] bcast_S4_S1x4_1 : (⟨S4, .f32⟩ : BufTy).Contents (Elt F) → (⟨S1x4, .f32⟩ : BufTy).Contents (Elt F))) main_v23
  let main_v25 := ((broadcastInDim S8x4 ![0, 1] bcast_S1x4_S8x4_0_1 : (⟨S1x4, .f32⟩ : BufTy).Contents (Elt F) → (⟨S8x4, .f32⟩ : BufTy).Contents (Elt F))) main_v24
  main_v25

/-- The 196 pooled numbers of each batch, side by side. -/
def rFront (p1 : FVec F S8x64 .f32) (p2 : FVec F S8x64 .f32) (p3 : FVec F S8x64 .f32) (p4 : FVec F S8x4 .f32) : FVec F S8x196 .f32 :=
  let main_v26 := concatenate S8x196 1 [⟨S8x64, p1⟩, ⟨S8x64, p2⟩, ⟨S8x64, p3⟩, ⟨S8x4, p4⟩] concatenates_S8x64_S8x64_S8x64_S8x4_S8x196_d1
  main_v26

/-- The network on the pooled numbers, the rounding, the two batch means. -/
def rHead (gf : FVec F S8x196 .f32) (w1 : FVec F S196x64 .f32) (b1 : FVec F S64 .f32) (w2 : FVec F S64x32 .f32) (b2 : FVec F S32 .f32) (w3 : FVec F S32x1 .f32) (b3 : FVec F S1 .f32) : FVec F S2 .f32 :=
  let main_v27 := (((fun l r => Host.dotGeneral dot_S8x196_S196x64_S8x64_1_0_0_1_n_n none l r) : (⟨S8x196, .f32⟩ : BufTy).Contents (Elt F) → (⟨S196x64, .f32⟩ : BufTy).Contents (Elt F) → (⟨S8x64, .f32⟩ : BufTy).Contents (Elt F))) gf w1
  let main_v28 := ((broadcastInDim S1x64 ![1] bcast_S64_S1x64_1 : (⟨S64, .f32⟩ : BufTy).Contents (Elt F) → (⟨S1x64, .f32⟩ : BufTy).Contents (Elt F))) b1
  let main_v29 := ((broadcastInDim S8x64 ![0, 1] bcast_S1x64_S8x64_0_1 : (⟨S1x64, .f32⟩ : BufTy).Contents (Elt F) → (⟨S8x64, .f32⟩ : BufTy).Contents (Elt F))) main_v28
  let main_v30 := ((addf : (⟨S8x64, .f32⟩ : BufTy).Contents (Elt F) → (⟨S8x64, .f32⟩ : BufTy).Contents (Elt F) → (⟨S8x64, .f32⟩ : BufTy).Contents (Elt F))) main_v27 main_v29
  let main_call2_cst := (constant S_ .f32 0x00000000#32)
  let main_call2_v0 := ((broadcastInDim S8x64 ![] bcast_S_S8x64)) main_call2_cst
  let main_v31 := (maximumf) main_v30 main_call2_v0
  let main_v32 := (((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F))) main_v31 w2
  let main_v33 := ((broadcastInDim S1x32 ![1] bcast_S32_S1x32_1 : (⟨S32, .f32⟩ : BufTy).Contents (Elt F) → (⟨S1x32, .f32⟩ : BufTy).Contents (Elt F))) b2
  let main_v34 := ((broadcastInDim S8x32 ![0, 1] bcast_S1x32_S8x32_0_1 : (⟨S1x32, .f32⟩ : BufTy).Contents (Elt F) → (⟨S8x32, .f32⟩ : BufTy).Contents (Elt F))) main_v33
  let main_v35 := ((addf : (⟨S8x32, .f32⟩ : BufTy).Contents (Elt F) → (⟨S8x32, .f32⟩ : BufTy).Contents (Elt F) → (⟨S8x32, .f32⟩ : BufTy).Contents (Elt F))) main_v32 main_v34
  let main_call3_cst := (constant S_ .f32 0x00000000#32)
  let main_call3_v0 := ((broadcastInDim S8x32 ![] bcast_S_S8x32)) main_call3_cst
  let main_v36 := (maximumf) main_v35 main_call3_v0
  let main_v37 := (((fun l r => Host.dotGeneral dot_S8x32_S32x1_S8x1_1_0_0_1_n_n none l r) : (⟨S8x32, .f32⟩ : BufTy).Contents (Elt F) → (⟨S32x1, .f32⟩ : BufTy).Contents (Elt F) → (⟨S8x1, .f32⟩ : BufTy).Contents (Elt F))) main_v36 w3
  let main_v38 := ((broadcastInDim S1x1 ![1] bcast_S1_S1x1_1 : (⟨S1, .f32⟩ : BufTy).Contents (Elt F) → (⟨S1x1, .f32⟩ : BufTy).Contents (Elt F))) b3
  let main_v39 := ((broadcastInDim S8x1 ![0, 1] bcast_S1x1_S8x1_0_1 : (⟨S1x1, .f32⟩ : BufTy).Contents (Elt F) → (⟨S8x1, .f32⟩ : BufTy).Contents (Elt F))) main_v38
  let main_v40 := ((addf : (⟨S8x1, .f32⟩ : BufTy).Contents (Elt F) → (⟨S8x1, .f32⟩ : BufTy).Contents (Elt F) → (⟨S8x1, .f32⟩ : BufTy).Contents (Elt F))) main_v37 main_v39
  let main_v41 := ((Host.negf : (⟨S8x1, .f32⟩ : BufTy).Contents (Elt F) → (⟨S8x1, .f32⟩ : BufTy).Contents (Elt F))) main_v40
  let main_v42 := ((Host.exp : (⟨S8x1, .f32⟩ : BufTy).Contents (Elt F) → (⟨S8x1, .f32⟩ : BufTy).Contents (Elt F))) main_v41
  let main_cst_11 := (constant S_ .f32 0x3F800000#32)
  let main_v43 := ((broadcastInDim S8x1 ![] bcast_S_S8x1 : (⟨S_, .f32⟩ : BufTy).Contents (Elt F) → (⟨S8x1, .f32⟩ : BufTy).Contents (Elt F))) main_cst_11
  let main_v44 := ((addf : (⟨S8x1, .f32⟩ : BufTy).Contents (Elt F) → (⟨S8x1, .f32⟩ : BufTy).Contents (Elt F) → (⟨S8x1, .f32⟩ : BufTy).Contents (Elt F))) main_v43 main_v42
  let main_cst_12 := (constant S_ .f32 0x3F800000#32)
  let main_v45 := ((broadcastInDim S8x1 ![] bcast_S_S8x1 : (⟨S_, .f32⟩ : BufTy).Contents (Elt F) → (⟨S8x1, .f32⟩ : BufTy).Contents (Elt F))) main_cst_12
  let main_v46 := ((Host.divf : (⟨S8x1, .f32⟩ : BufTy).Contents (Elt F) → (⟨S8x1, .f32⟩ : BufTy).Contents (Elt F) → (⟨S8x1, .f32⟩ : BufTy).Contents (Elt F))) main_v45 main_v44
  let main_v47 := shapeCast S8 main_v46 shapeCasts_S8x1_S8
  let main_cst_13 := (constant S_ .f32 0x423C0000#32)
  let main_v48 := ((broadcastInDim S8 ![] bcast_S_S8 : (⟨S_, .f32⟩ : BufTy).Contents (Elt F) → (⟨S8, .f32⟩ : BufTy).Contents (Elt F))) main_cst_13
  let main_v49 := ((mulf : (⟨S8, .f32⟩ : BufTy).Contents (Elt F) → (⟨S8, .f32⟩ : BufTy).Contents (Elt F) → (⟨S8, .f32⟩ : BufTy).Contents (Elt F))) main_v47 main_v48
  let main_cst_14 := (constant S_ .f32 0x40400000#32)
  let main_v50 := ((broadcastInDim S8 ![] bcast_S_S8 : (⟨S_, .f32⟩ : BufTy).Contents (Elt F) → (⟨S8, .f32⟩ : BufTy).Contents (Elt F))) main_cst_14
  let main_v51 := ((addf : (⟨S8, .f32⟩ : BufTy).Contents (Elt F) → (⟨S8, .f32⟩ : BufTy).Contents (Elt F) → (⟨S8, .f32⟩ : BufTy).Contents (Elt F))) main_v50 main_v49
  let main_v52 := (Host.roundeven) main_v51
  let main_v53 := ((subf : (⟨S8, .f32⟩ : BufTy).Contents (Elt F) → (⟨S8, .f32⟩ : BufTy).Contents (Elt F) → (⟨S8, .f32⟩ : BufTy).Contents (Elt F))) main_v52 main_v51
  let main_v54 := ((addf : (⟨S8, .f32⟩ : BufTy).Contents (Elt F) → (⟨S8, .f32⟩ : BufTy).Contents (Elt F) → (⟨S8, .f32⟩ : BufTy).Contents (Elt F))) main_v51 main_v53
  let main_cst_15 := (constant S_ .f32 0x00000000#32)
  let main_v55 := (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))) main_v54 main_cst_15
  let main_cst_16 := (constant S_ .f32 0x41000000#32)
  let main_v56 := ((Host.divf : (⟨S_, .f32⟩ : BufTy).Contents (Elt F) → (⟨S_, .f32⟩ : BufTy).Contents (Elt F) → (⟨S_, .f32⟩ : BufTy).Contents (Elt F))) main_v55 main_cst_16
  let main_cst_17 := (constant S_ .f32 0x00000000#32)
  let main_v57 := (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))) main_v47 main_cst_17
  let main_cst_18 := (constant S_ .f32 0x41000000#32)
  let main_v58 := ((Host.divf : (⟨S_, .f32⟩ : BufTy).Contents (Elt F) → (⟨S_, .f32⟩ : BufTy).Contents (Elt F) → (⟨S_, .f32⟩ : BufTy).Contents (Elt F))) main_v57 main_cst_18
  let main_v59 := ((broadcastInDim S1 ![] bcast_S_S1 : (⟨S_, .f32⟩ : BufTy).Contents (Elt F) → (⟨S1, .f32⟩ : BufTy).Contents (Elt F))) main_v56
  let main_v60 := ((broadcastInDim S1 ![] bcast_S_S1 : (⟨S_, .f32⟩ : BufTy).Contents (Elt F) → (⟨S1, .f32⟩ : BufTy).Contents (Elt F))) main_v58
  let main_v61 := (((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))) main_v59 main_v60
  main_v61

end Cert.ReferenceIdeal.Vals

end
-- ==== Proof.RRes.lean ====
/-
  The reference's result, read off its run in three stretches. After the first 31 operations three buffers hold the mean,
  the maximum and the standard deviation of x; after the next 50 a fourth holds the structural rows; the last 48 turn those
  four and the weights into the result. Each stretch is read against ANY contents of the buffers it starts from, so the
  stretches compose without re-reading what came before.
-/
import proofs.«152827_j5093831213700_2_alg».proof.Proof.RefRun
import proofs.«152827_j5093831213700_2_alg».proof.Proof.RVals
import Idealize.ShloMosaic.Lib.Pipeline.Frame

set_option maxRecDepth 65536

noncomputable section

namespace Cert.ReferenceIdeal.RefRun

open Cert.ReferenceIdeal Cert.ReferenceIdeal.Gen Cert.ReferenceIdeal.Vals
open Idealize.ShloMosaic Idealize.ShloMosaic.TcCoe Idealize.SL.Sem Idealize.ShloMosaic.StableHlo

variable {F : FTy → Type} [FloatOps F]

/-- The reference's result as a function of its eight arguments. -/
def rOut (x : FVec F S8x100000x64 .f32) (e : IVec S2x3200000 32) (w1 : FVec F S196x64 .f32) (b1 : FVec F S64 .f32)
    (w2 : FVec F S64x32 .f32) (b2 : FVec F S32 .f32) (w3 : FVec F S32x1 .f32) (b3 : FVec F S1 .f32) : FVec F S2 .f32 :=
  rHead (rFront (rMean x) (rMax x) (rStd x) (rStruct (rDeg e))) w1 b1 w2 b2 w3 b3

/-! ## First stretch -/

theorem opsA_mean (W : Valuation τ sig (Elt F)) : after opsA W (Proc.devRef .tc main_v2) = rMean (W (Proc.devRef .tc main_arg0)) := by
  after_results_simp
  rfl
theorem opsA_max (W : Valuation τ sig (Elt F)) : after opsA W (Proc.devRef .tc main_v3) = rMax (W (Proc.devRef .tc main_arg0)) := by
  after_results_simp
  rfl
theorem opsA_std (W : Valuation τ sig (Elt F)) : after opsA W (Proc.devRef .tc main_v4) = rStd (W (Proc.devRef .tc main_arg0)) := by
  after_results_simp
  rfl
theorem opsA_keep_main_arg1 (W : Valuation τ sig (Elt F)) : after opsA W (Proc.devRef .tc main_arg1) = W (Proc.devRef .tc main_arg1) := by after_results_simp
theorem opsA_keep_main_arg2 (W : Valuation τ sig (Elt F)) : after opsA W (Proc.devRef .tc main_arg2) = W (Proc.devRef .tc main_arg2) := by after_results_simp
theorem opsA_keep_main_arg3 (W : Valuation τ sig (Elt F)) : after opsA W (Proc.devRef .tc main_arg3) = W (Proc.devRef .tc main_arg3) := by after_results_simp
theorem opsA_keep_main_arg4 (W : Valuation τ sig (Elt F)) : after opsA W (Proc.devRef .tc main_arg4) = W (Proc.devRef .tc main_arg4) := by after_results_simp
theorem opsA_keep_main_arg5 (W : Valuation τ sig (Elt F)) : after opsA W (Proc.devRef .tc main_arg5) = W (Proc.devRef .tc main_arg5) := by after_results_simp
theorem opsA_keep_main_arg6 (W : Valuation τ sig (Elt F)) : after opsA W (Proc.devRef .tc main_arg6) = W (Proc.devRef .tc main_arg6) := by after_results_simp
theorem opsA_keep_main_arg7 (W : Valuation τ sig (Elt F)) : after opsA W (Proc.devRef .tc main_arg7) = W (Proc.devRef .tc main_arg7) := by after_results_simp

/-! ## Second stretch -/

theorem opsB_struct (W : Valuation τ sig (Elt F)) : after opsB W (Proc.devRef .tc main_v25) = rStruct (rDeg (W (Proc.devRef .tc main_arg1))) := by
  after_results_simp
  rfl
theorem opsB_keep_main_v2 (W : Valuation τ sig (Elt F)) : after opsB W (Proc.devRef .tc main_v2) = W (Proc.devRef .tc main_v2) := by after_results_simp
theorem opsB_keep_main_v3 (W : Valuation τ sig (Elt F)) : after opsB W (Proc.devRef .tc main_v3) = W (Proc.devRef .tc main_v3) := by after_results_simp
theorem opsB_keep_main_v4 (W : Valuation τ sig (Elt F)) : after opsB W (Proc.devRef .tc main_v4) = W (Proc.devRef .tc main_v4) := by after_results_simp
theorem opsB_keep_main_arg2 (W : Valuation τ sig (Elt F)) : after opsB W (Proc.devRef .tc main_arg2) = W (Proc.devRef .tc main_arg2) := by after_results_simp
theorem opsB_keep_main_arg3 (W : Valuation τ sig (Elt F)) : after opsB W (Proc.devRef .tc main_arg3) = W (Proc.devRef .tc main_arg3) := by after_results_simp
theorem opsB_keep_main_arg4 (W : Valuation τ sig (Elt F)) : after opsB W (Proc.devRef .tc main_arg4) = W (Proc.devRef .tc main_arg4) := by after_results_simp
theorem opsB_keep_main_arg5 (W : Valuation τ sig (Elt F)) : after opsB W (Proc.devRef .tc main_arg5) = W (Proc.devRef .tc main_arg5) := by after_results_simp
theorem opsB_keep_main_arg6 (W : Valuation τ sig (Elt F)) : after opsB W (Proc.devRef .tc main_arg6) = W (Proc.devRef .tc main_arg6) := by after_results_simp
theorem opsB_keep_main_arg7 (W : Valuation τ sig (Elt F)) : after opsB W (Proc.devRef .tc main_arg7) = W (Proc.devRef .tc main_arg7) := by after_results_simp

/-! ## Third stretch -/

set_option maxHeartbeats 4000000 in
theorem opsC_out (W : Valuation τ sig (Elt F)) :
    after opsC W (Proc.devRef .tc main_v61)
      = rHead (rFront (W (Proc.devRef .tc main_v2)) (W (Proc.devRef .tc main_v3)) (W (Proc.devRef .tc main_v4)) (W (Proc.devRef .tc main_v25)))
          (W (Proc.devRef .tc main_arg2)) (W (Proc.devRef .tc main_arg3)) (W (Proc.devRef .tc main_arg4)) (W (Proc.devRef .tc main_arg5)) (W (Proc.devRef .tc main_arg6)) (W (Proc.devRef .tc main_arg7)) := by
  after_results_simp
  rfl

/-! ## Together -/

theorem out_eq (V : Valuation τ sig (Elt F)) :
    after ops V (Proc.devRef .tc main_v61)
      = rOut (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, StableHlo.after_append, StableHlo.after_append, opsC_out, opsB_struct,
    opsB_keep_main_v2, opsB_keep_main_v3, opsB_keep_main_v4, opsB_keep_main_arg2, opsB_keep_main_arg3, opsB_keep_main_arg4,
    opsB_keep_main_arg5, opsB_keep_main_arg6, opsB_keep_main_arg7,
    opsA_mean, opsA_max, opsA_std, opsA_keep_main_arg1, opsA_keep_main_arg2, opsA_keep_main_arg3, opsA_keep_main_arg4,
    opsA_keep_main_arg5, opsA_keep_main_arg6, opsA_keep_main_arg7]
  rfl

/-- The same, from the memory the program starts with. -/
theorem out_mem (m : (ℓ : Loc nD τ sig) → Buf (Elt F) ℓ) (c : Dev nD) :
    after ops (launchContents m c) (Proc.devRef .tc main_v61)
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  out_eq (launchContents m c)

end Cert.ReferenceIdeal.RefRun

end
-- ==== Proof.PreFacts.lean ====
/-
  What the precondition says, element by element: the printed predicate is a conjunction of eight "all entries satisfy"
  reductions, of which two matter for the value claim — every entry of x is finite, hence a real number, and every
  target index (row 1 of the edge list, read as a signed integer) lies in [0, 100000).
-/
import proofs.«152827_j5093831213700_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

set_option maxRecDepth 16384

noncomputable section

namespace Cert.PreFacts

open Cert.Pre_finite_inputs Cert.Pre_finite_inputs.Gen
open Idealize.ShloMosaic Idealize.ShloMosaic.ValueIdx

/-- A scalar has one index. -/
instance : Subsingleton S_.Idx := ⟨fun a b => funext fun d => d.elim0⟩

theorem and1 : ∀ (a b : BitVec 1), IntOp.andi a b = 1#1 ↔ a = 1#1 ∧ b = 1#1 := by decide
theorem ofBool_eq_one (b : Bool) : BitVec.ofBool b = 1#1 ↔ b = true := by cases b <;> decide

/-- The pattern of plus infinity denotes the top element. -/
theorem ofBits_inf : Ideal.ofBits .f32 0x7F800000#32 = (⊤ : EReal) := by simp [Ideal.ofBits, Ideal.ieee]

/-- An extended real whose absolute value is below plus infinity is a real number. -/
theorem real_of_abs_lt_top (a : EReal) (h : max a (-a) < ⊤) : ∃ r : ℝ, a = (r : EReal) := by
  induction a using EReal.rec with
  | bot => simp at h
  | coe r => exact ⟨r, rfl⟩
  | top => simp at h

/-- A word at least 0 and below 100000 as a signed integer. -/
theorem range_of_cmp (w : BitVec 32) (h0 : IntOp.cmpi .sge w 0#32 = 1#1) (h1 : IntOp.cmpi .slt w 100000#32 = 1#1) :
    0 ≤ w.toInt ∧ w.toInt < 100000 := by
  unfold IntOp.cmpi at h0 h1
  rw [ofBool_eq_one] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  exact ⟨h0, h1⟩

/-- The target indices as both programs read them: row 1 of the edge list, flattened. -/
abbrev targets (e : IVec S2x3200000 32) : IVec S3200000 32 :=
  shapeCast S3200000 (extractStridedSlice S1x3200000 ![1, 0] e slices_S2x3200000_S1x3200000_1_0) shapeCasts_S1x3200000_S3200000

/-- Under the precondition every entry of x is a real number and every target index lies in [0, 100000). -/
theorem decode (x : FVec Ideal S8x100000x64 .f32) (e : IVec S2x3200000 32) (w1 : FVec Ideal S196x64 .f32) (b1 : FVec Ideal S64 .f32)
    (w2 : FVec Ideal S64x32 .f32) (b2 : FVec Ideal S32 .f32) (w3 : FVec Ideal S32x1 .f32) (b3 : FVec Ideal S1 .f32)
    (h : fn (F := Ideal) x e w1 b1 w2 b2 w3 b3 = fun _ => 1#1) :
    (∀ i, ∃ r : ℝ, x i = (r : EReal)) ∧ (∀ j, 0 ≤ (targets e j).toInt ∧ (targets e j).toInt < 100000) := by
  have e0 := congrFun h ix0
  unfold fn fn_part1 fn_part2 at e0
  dsimp only at e0
  simp only [andi, and1] at e0
  obtain ⟨⟨⟨⟨⟨⟨⟨hx, -⟩, -⟩, -⟩, -⟩, -⟩, -⟩, he⟩ := e0
  refine ⟨fun i => ?_, fun j => ?_⟩
  · have hxi := Host.reduce_andi_all _ _ _ _ _ hx i
    simp only [cmpf, Host.absf, broadcastInDim, constant] at hxi
    rw [Ideal.cmpf_def, Ideal.hostAbsf_def, Ideal.absf_def, Ideal.ofBits_def, ofBits_inf] at hxi
    unfold Ideal.cmp at hxi
    rw [ofBool_eq_one] at hxi
    exact real_of_abs_lt_top _ (by simpa using hxi)
  · have hej := Host.reduce_andi_all _ _ _ _ _ he j
    simp only [andi, cmpi, broadcastInDim, constantI, and1] at hej
    exact range_of_cmp _ hej.1 hej.2

end Cert.PreFacts

end
-- ==== Proof.LibPoolMath.lean ====
/- General facts used to compare two computations of pooled statistics over finitely many real
samples: the coercion of a finite real sum into the extended reals; the agreement of the two usual
formulas of the unbiased standard deviation; the counting identity "every item lies in exactly one
bin"; a regrouping of 100000 consecutive indices into (half, tile, row) triples, for sums and for
running maxima; and the values of six binary32 patterns as extended reals. -/
import Mathlib.Tactic
import Mathlib.Algebra.BigOperators.Fin
import Mathlib.Data.Fintype.BigOperators
import Idealize.ShloMosaic.PureOps.Ideal
import Idealize.ShloMosaic.PureOps.Ideal.Laws
noncomputable section
open scoped BigOperators
open Idealize.ShloMosaic
namespace Cert.LibPoolMath

/-- The coercion of a finite sum of reals into the extended reals is the sum of the coercions. -/
theorem coe_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- The binary32 pattern `0x47C35000` denotes `100000`. -/
theorem ofBits_1e5 : Ideal.ofBits .f32 0x47C35000#32 = ((100000 : ℝ) : EReal) := by
  simp [Ideal.ofBits, Ideal.ieee, -EReal.coe_mul]; norm_num

/-- The binary32 pattern `0x47C34F80` denotes `99999`. -/
theorem ofBits_99999 : Ideal.ofBits .f32 0x47C34F80#32 = ((99999 : ℝ) : EReal) := by
  simp [Ideal.ofBits, Ideal.ieee, -EReal.coe_mul]; norm_num

/-- The binary32 pattern `0x42000000` denotes `32`. -/
theorem ofBits_32 : Ideal.ofBits .f32 0x42000000#32 = ((32 : ℝ) : EReal) := by
  simp [Ideal.ofBits, Ideal.ieee, -EReal.coe_mul]; norm_num

/-- The binary32 pattern `0x3F800000` denotes `1`. -/
theorem ofBits_one : Ideal.ofBits .f32 0x3F800000#32 = ((1 : ℝ) : EReal) := by
  simp [Ideal.ofBits, Ideal.ieee, -EReal.coe_mul]; norm_num

/-- The all-zero binary32 pattern denotes `0`. -/
theorem ofBits_zero : Ideal.ofBits .f32 0x00000000#32 = ((0 : ℝ) : EReal) := by
  simp [Ideal.ofBits, Ideal.ieee]

/-- The binary32 pattern `0xFF800000` (negative infinity) denotes `⊥`. -/
theorem ofBits_neg_inf : Ideal.ofBits .f32 0xFF800000#32 = (⊥ : EReal) := by
  simp [Ideal.ofBits, Ideal.ieee]

/-- Every item `j` lies in exactly one bin `f j`, so summing a constant over each bin and then over
    all bins is the same as summing it over all items. The bins are given by a decidable relation
    `P j v` that holds exactly when `f j = v`. -/
theorem sum_bins {ι κ : Type*} [Fintype ι] [Fintype κ] [DecidableEq κ] (P : ι → κ → Prop)
    [∀ j v, Decidable (P j v)] (f : ι → κ) (hP : ∀ j v, P j v ↔ f j = v) (c : EReal) :
    ∑ v : κ, ∑ j ∈ Finset.univ.filter (fun j => P j v), c = ∑ _j : ι, c := by
  have hfilter : ∀ v : κ, Finset.univ.filter (fun j => P j v) = Finset.univ.filter (fun j => f j = v) := by
    intro v
    ext j
    simp only [Finset.mem_filter, Finset.mem_univ, true_and]
    exact hP j v
  simp_rw [hfilter]
  exact Finset.sum_fiberwise Finset.univ f (fun _ => c)

/-- A sum of ones over a finite type is the number of its elements. -/
theorem sum_ones (ι : Type*) [Fintype ι] : ∑ _j : ι, (1 : EReal) = ((Fintype.card ι : ℝ) : EReal) := by
  have h : ∑ _j : ι, (1 : EReal) = ∑ _j : ι, ((1 : ℝ) : EReal) := by simp
  rw [h, ← coe_sum]
  simp

/-- Every item lies in exactly one bin, so the bins' counts add up to the number of items. -/
theorem sum_bins_one {ι κ : Type*} [Fintype ι] [Fintype κ] [DecidableEq κ] (P : ι → κ → Prop)
    [∀ j v, Decidable (P j v)] (f : ι → κ) (hP : ∀ j v, P j v ↔ f j = v) :
    ∑ v : κ, ∑ _j ∈ Finset.univ.filter (fun j => P j v), (1 : EReal) = ((Fintype.card ι : ℝ) : EReal) := by
  rw [sum_bins P f hP 1, sum_ones]

/-- The mean of finitely many real samples, computed in the extended reals as the sum divided by a
    nonzero real `N`, is the real quotient. -/
theorem mean_coe {ι : Type*} [Fintype ι] (a : ι → ℝ) (N : ℝ) (h0 : N ≠ 0) :
    Ideal.div (∑ i, (a i : EReal)) (N : EReal) = (((∑ i, a i) / N : ℝ) : EReal) := by
  rw [Ideal.div_coe h0, ← coe_sum, ← EReal.coe_mul, mul_one_div]

/-- The sum of squared deviations from the mean: with `s = ∑ aᵢ` and `N` the number of samples,
    `∑ (aᵢ − s/N)² = ∑ aᵢ² − s²/N`. -/
theorem sum_sq_dev {ι : Type*} [Fintype ι] (a : ι → ℝ) (N : ℝ) (hN : N = (Fintype.card ι : ℝ))
    (h0 : N ≠ 0) :
    ∑ i, (a i - (∑ i, a i) / N) * (a i - (∑ i, a i) / N)
      = (∑ i, a i * a i) - (∑ i, a i) * (∑ i, a i) / N := by
  obtain ⟨s, hs⟩ : ∃ s : ℝ, s = ∑ i, a i := ⟨_, rfl⟩
  rw [← hs]
  have h : ∀ i, (a i - s / N) * (a i - s / N) = a i * a i - (2 * (s / N)) * a i + (s / N) * (s / N) := by
    intro i; ring
  simp_rw [h]
  rw [Finset.sum_add_distrib, Finset.sum_sub_distrib, ← Finset.mul_sum, Finset.sum_const,
    Finset.card_univ, nsmul_eq_mul, ← hN, ← hs]
  field_simp
  ring

/-- The sum of squared deviations of real samples from a real `m`, computed in the extended reals, is
    the real sum. -/
theorem sum_sq_dev_coe {ι : Type*} [Fintype ι] (a : ι → ℝ) (m : ℝ) :
    ∑ i, ((a i : EReal) - (m : EReal)) * ((a i : EReal) - (m : EReal))
      = ((∑ i, (a i - m) * (a i - m) : ℝ) : EReal) := by
  rw [coe_sum]
  refine Finset.sum_congr rfl (fun i _ => ?_)
  rw [← EReal.coe_sub, ← EReal.coe_mul]

/-- The "sum of squares minus squared sum over `N`, over `N − 1`" expression on real data, computed
    in the extended reals, is the real expression. -/
theorem var_raw_coe (q s N : ℝ) (h0 : N ≠ 0) (h1 : N - 1 ≠ 0) :
    Ideal.div ((q : EReal) - Ideal.div ((s : EReal) * (s : EReal)) (N : EReal)) ((N - 1 : ℝ) : EReal)
      = (((q - s * s / N) / (N - 1) : ℝ) : EReal) := by
  rw [Ideal.div_coe h0, Ideal.div_coe h1, ← EReal.coe_mul, ← EReal.coe_mul, ← EReal.coe_sub,
    ← EReal.coe_mul]
  congr 1
  ring

/-- The two forms of the unbiased standard deviation agree on real data: with `N ≥ 2` samples,
    `√(max ((∑ aᵢ² − (∑ aᵢ)²/N)/(N−1)) 0) = √((∑ (aᵢ − (∑ aᵢ)/N)²)/(N−1))`. The sum of squared deviations
    is nonnegative and equals `∑ aᵢ² − (∑ aᵢ)²/N`, so the maximum with `0` does nothing and both sides
    are the square root of the same real. -/
theorem std_two_forms {ι : Type*} [Fintype ι] (a : ι → ℝ) (N : ℝ) (hN : N = (Fintype.card ι : ℝ))
    (h1 : 1 < N) :
    Ideal.sqrt (max (Ideal.div ((∑ i, (a i : EReal) * (a i : EReal))
        - Ideal.div ((∑ i, (a i : EReal)) * (∑ i, (a i : EReal))) (N : EReal)) ((N - 1 : ℝ) : EReal)) 0)
    = Ideal.sqrt (Ideal.div (∑ i, ((a i : EReal) - Ideal.div (∑ i, (a i : EReal)) (N : EReal))
        * ((a i : EReal) - Ideal.div (∑ i, (a i : EReal)) (N : EReal))) ((N - 1 : ℝ) : EReal)) := by
  have h0 : N ≠ 0 := by linarith
  have hpos : 0 < N - 1 := by linarith
  have h1' : N - 1 ≠ 0 := ne_of_gt hpos
  have hQ : ∑ i, (a i : EReal) * (a i : EReal) = ((∑ i, a i * a i : ℝ) : EReal) := by
    rw [coe_sum]
    exact Finset.sum_congr rfl (fun i _ => (EReal.coe_mul _ _).symm)
  have hdev : (∑ i, a i * a i) - (∑ i, a i) * (∑ i, a i) / N
      = ∑ i, (a i - (∑ i, a i) / N) * (a i - (∑ i, a i) / N) := (sum_sq_dev a N hN h0).symm
  have hnn : 0 ≤ (∑ i, (a i - (∑ i, a i) / N) * (a i - (∑ i, a i) / N)) / (N - 1) :=
    div_nonneg (Finset.sum_nonneg (fun i _ => mul_self_nonneg _)) hpos.le
  rw [mean_coe a N h0, sum_sq_dev_coe, hQ, ← coe_sum, var_raw_coe _ _ _ h0 h1', hdev,
    Ideal.div_coe h1', ← EReal.coe_mul, mul_one_div, max_eq_left (EReal.coe_nonneg.mpr hnn)]

/-- The regrouping of `100000` consecutive indices as triples (half `h < 2`, tile `t < 5`,
    row `r < 10000`), sending `(h, t, r)` to `2 * (10000 * t + r) + h`. The inverse sends `i` to
    `(i % 2, (i / 2) / 10000, (i / 2) % 10000)`. -/
def pairTile : Fin 2 × Fin 5 × Fin 10000 ≃ Fin 100000 where
  toFun p := ⟨2 * (10000 * p.2.1.val + p.2.2.val) + p.1.val, by
    have h1 := p.1.isLt
    have h2 := p.2.1.isLt
    have h3 := p.2.2.isLt
    omega⟩
  invFun i := (⟨i.val % 2, by omega⟩, ⟨(i.val / 2) / 10000, by have hi := i.isLt; omega⟩,
    ⟨(i.val / 2) % 10000, by omega⟩)
  left_inv := by
    rintro ⟨h, t, r⟩
    have hh := h.isLt
    have ht := t.isLt
    have hr := r.isLt
    refine Prod.ext (Fin.ext ?_) (Prod.ext (Fin.ext ?_) (Fin.ext ?_))
    · show (2 * (10000 * t.val + r.val) + h.val) % 2 = h.val
      omega
    · show (2 * (10000 * t.val + r.val) + h.val) / 2 / 10000 = t.val
      omega
    · show (2 * (10000 * t.val + r.val) + h.val) / 2 % 10000 = r.val
      omega
  right_inv := by
    intro i
    have hi := i.isLt
    refine Fin.ext ?_
    show 2 * (10000 * (i.val / 2 / 10000) + i.val / 2 % 10000) + i.val % 2 = i.val
    omega

/-- The index that the triple (half, tile, row) is sent to. -/
theorem pairTile_val (h : Fin 2) (t : Fin 5) (r : Fin 10000) :
    (pairTile (h, t, r)).val = 2 * (10000 * t.val + r.val) + h.val := rfl

/-- A sum over `100000` consecutive indices, regrouped as a sum over halves, tiles and rows. -/
theorem sum_pairTile {β : Type*} [AddCommMonoid β] (g : Fin 100000 → β) :
    ∑ i, g i = ∑ h : Fin 2, ∑ t : Fin 5, ∑ r : Fin 10000, g (pairTile (h, t, r)) := by
  rw [← Equiv.sum_comp pairTile g]
  simp only [Fintype.sum_prod_type]

/-- A supremum over `100000` consecutive indices, regrouped as a supremum over halves, tiles and
    rows. -/
theorem sup_pairTile (g : Fin 100000 → EReal) :
    Finset.univ.sup g = Finset.univ.sup fun h : Fin 2 => Finset.univ.sup fun t : Fin 5 =>
      Finset.univ.sup fun r : Fin 10000 => g (pairTile (h, t, r)) := by
  apply le_antisymm
  · refine Finset.sup_le (fun i _ => ?_)
    obtain ⟨⟨h, t, r⟩, rfl⟩ := pairTile.surjective i
    exact Finset.le_sup_of_le (Finset.mem_univ h) (Finset.le_sup_of_le (Finset.mem_univ t)
      (Finset.le_sup_of_le (Finset.mem_univ r) le_rfl))
  · exact Finset.sup_le (fun h _ => Finset.sup_le (fun t _ => Finset.sup_le (fun r _ =>
      Finset.le_sup (Finset.mem_univ _))))

/-- A running maximum along a list, started from `init`, is the maximum of `init` and the supremum
    of the values over the list's elements. -/
theorem foldl_max_eq_sup_toFinset {ι : Type*} [DecidableEq ι] (g : ι → EReal) (l : List ι)
    (init : EReal) :
    l.foldl (fun acc i => max acc (g i)) init = max init (l.toFinset.sup g) := by
  induction l generalizing init with
  | nil => simp
  | cons x l ih =>
    rw [List.foldl_cons, ih, List.toFinset_cons, Finset.sup_insert, max_assoc]

/-- A running maximum along a list that enumerates a finite type (each element once), started from
    `init`, is the maximum of `init` and the supremum of the values over the whole type. -/
theorem foldl_max_eq_sup {ι : Type*} [Fintype ι] (l : List ι) (hl : l.Nodup) (hall : ∀ i, i ∈ l)
    (g : ι → EReal) (init : EReal) :
    l.foldl (fun acc i => max acc (g i)) init = max init (Finset.univ.sup g) := by
  classical
  have _hl := hl
  have huniv : l.toFinset = Finset.univ :=
    Finset.eq_univ_iff_forall.mpr (fun i => List.mem_toFinset.mpr (hall i))
  rw [foldl_max_eq_sup_toFinset, huniv]

end Cert.LibPoolMath
end
-- ==== Proof.KI.KRead.lean ====
/-
  The simple reads of the kernel body's values over the extended reals: a tile's 10000 x 128 view, the reset values (zero,
  zero, minus infinity in every lane), and the recast of an accumulator row as an output block.
-/
import proofs.«152827_j5093831213700_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«152827_j5093831213700_2_alg».proof.Proof.LibPoolMath

set_option maxRecDepth 16384

noncomputable section

namespace Cert.KernelIdeal.Read

open Cert.KernelIdeal Cert.KernelIdeal.Gen
open Idealize.ShloMosaic Idealize.ShloMosaic.ValueIdx
open scoped BigOperators

/-- Row r, lane l of a 10000 x 128 tile, from reducing over the rows at lane l. -/
theorem lift_eq (l : Fin 128) (k : Fin 10000) :
    reduces_S10000x128_S128.lift (ix1 l : S128.Idx) k = (ix2 k l : S10000x128.Idx) := by
  funext a
  match a with
  | ⟨0, _⟩ => rfl
  | ⟨1, _⟩ => rfl

theorem pay4_apply (x : Vec Ideal S1x10000x128 .f32) (r : Fin 10000) (l : Fin 128) :
    k0_pay4 x (ix2 r l) = x (ix3 (0 : Fin 1) r l) := by
  unfold k0_pay4
  exact shapeCast_1ab_ab_apply x _ r l

theorem pay1_apply (l : Fin 128) : (k0_pay1 (F := Ideal)) (ix2 (0 : Fin 1) l) = 0 := by
  unfold k0_pay1
  simp only [shapeCast_self]
  show Ideal.ofBits .f32 0x00000000#32 = 0
  exact Ideal.ofBits_zero_f32

theorem pay2_apply (l : Fin 128) : (k0_pay2 (F := Ideal)) (ix2 (0 : Fin 1) l) = 0 := by
  unfold k0_pay2
  simp only [shapeCast_self]
  show Ideal.ofBits .f32 0x00000000#32 = 0
  exact Ideal.ofBits_zero_f32

theorem pay3_apply (l : Fin 128) : (k0_pay3 (F := Ideal)) (ix2 (0 : Fin 1) l) = (⊥ : EReal) := by
  unfold k0_pay3
  simp only [shapeCast_self]
  show Ideal.ofBits .f32 0xFF800000#32 = ⊥
  exact Cert.LibPoolMath.ofBits_neg_inf

theorem pay8_apply (v : Vec Ideal S1x128 .f32) (l : Fin 128) : k0_pay8 v (ix3 (0 : Fin 1) (0 : Fin 1) l) = v (ix2 (0 : Fin 1) l) := by
  unfold k0_pay8
  exact shapeCast_ab_1ab_apply v _ 0 0 l

theorem pay9_apply (v : Vec Ideal S1x128 .f32) (l : Fin 128) : k0_pay9 v (ix3 (0 : Fin 1) (0 : Fin 1) l) = v (ix2 (0 : Fin 1) l) := by
  unfold k0_pay9
  exact shapeCast_ab_1ab_apply v _ 0 0 l

theorem pay10_apply (v : Vec Ideal S1x128 .f32) (l : Fin 128) : k0_pay10 v (ix3 (0 : Fin 1) (0 : Fin 1) l) = v (ix2 (0 : Fin 1) l) := by
  unfold k0_pay10
  exact shapeCast_ab_1ab_apply v _ 0 0 l

end Cert.KernelIdeal.Read

end
-- ==== Proof.KI.KRedAdd.lean ====
/-
  The sum over a tile's 10000 rows, lane by lane.
-/
import proofs.«152827_j5093831213700_2_alg».proof.Proof.KI.KRead

set_option maxRecDepth 16384

noncomputable section

namespace Cert.KernelIdeal.Read

open Cert.KernelIdeal Cert.KernelIdeal.Gen
open Idealize.ShloMosaic Idealize.ShloMosaic.ValueIdx
open scoped BigOperators

/-- The sum over a tile's rows in lane l. -/
theorem red_add (y : FVec Ideal S10000x128 .f32) (l : Fin 128) :
    multiReduction .add [0] S128 y 0x00000000#32 reduces_S10000x128_S128 (.inl rfl) rfl (ix1 l) = ∑ k : Fin 10000, y (ix2 k l) := by
  refine (Ideal.multiReduction_add_single y 0x00000000#32 reduces_S10000x128_S128 (.inl rfl) rfl (ix1 l)).trans ?_
  exact Finset.sum_congr rfl fun k _ => congrArg y (lift_eq l k)

end Cert.KernelIdeal.Read

end
-- ==== Proof.KI.KPay5.lean ====
/-
  The running sum's update, lane by lane: the accumulator plus the tile's column sum.
-/
import proofs.«152827_j5093831213700_2_alg».proof.Proof.KI.KRedAdd

set_option maxRecDepth 16384

noncomputable section

namespace Cert.KernelIdeal.Read

open Cert.KernelIdeal Cert.KernelIdeal.Gen
open Idealize.ShloMosaic Idealize.ShloMosaic.ValueIdx
open scoped BigOperators

theorem pay5_apply (x : Vec Ideal S1x10000x128 .f32) (s : Vec Ideal S1x128 .f32) (l : Fin 128) :
    k0_pay5 x s (ix2 (0 : Fin 1) l) = s (ix2 (0 : Fin 1) l) + ∑ r : Fin 10000, x (ix3 (0 : Fin 1) r l) := by
  unfold k0_pay5
  simp only [shapeCast_self]
  show s (ix2 (0 : Fin 1) l) + (shapeCast S1x128 _ shapeCasts_S128_S1x128) (ix2 (0 : Fin 1) l) = _
  rw [shapeCast_a_1a_apply, red_add]
  exact congrArg (s (ix2 (0 : Fin 1) l) + ·) (Finset.sum_congr rfl fun k _ => pay4_apply x k l)

end Cert.KernelIdeal.Read

end
-- ==== Proof.KI.KPay6.lean ====
/-
  The running sum of squares' update, lane by lane: the accumulator plus the tile's column sum of squares.
-/
import proofs.«152827_j5093831213700_2_alg».proof.Proof.KI.KRedAdd

set_option maxRecDepth 16384

noncomputable section

namespace Cert.KernelIdeal.Read

open Cert.KernelIdeal Cert.KernelIdeal.Gen
open Idealize.ShloMosaic Idealize.ShloMosaic.ValueIdx
open scoped BigOperators

theorem pay6_apply (x : Vec Ideal S1x10000x128 .f32) (s : Vec Ideal S1x128 .f32) (l : Fin 128) :
    k0_pay6 x s (ix2 (0 : Fin 1) l) = s (ix2 (0 : Fin 1) l) + ∑ r : Fin 10000, x (ix3 (0 : Fin 1) r l) * x (ix3 (0 : Fin 1) r l) := by
  unfold k0_pay6
  simp only [shapeCast_self]
  show s (ix2 (0 : Fin 1) l) + (shapeCast S1x128 _ shapeCasts_S128_S1x128) (ix2 (0 : Fin 1) l) = _
  rw [shapeCast_a_1a_apply, red_add]
  refine congrArg (s (ix2 (0 : Fin 1) l) + ·) (Finset.sum_congr rfl fun k _ => ?_)
  show k0_pay4 x (ix2 k l) * k0_pay4 x (ix2 k l) = _
  rw [pay4_apply]

end Cert.KernelIdeal.Read

end
-- ==== Proof.KI.KRedMax.lean ====
/-
  The maximum over a tile's 10000 rows, lane by lane, as a fold of max from minus infinity.
-/
import proofs.«152827_j5093831213700_2_alg».proof.Proof.KI.KRead

set_option maxRecDepth 16384

noncomputable section

namespace Cert.KernelIdeal.Read

open Cert.KernelIdeal Cert.KernelIdeal.Gen
open Idealize.ShloMosaic Idealize.ShloMosaic.ValueIdx
open scoped BigOperators

/-- The maximum over a tile's rows in lane l, as a fold of max from minus infinity. -/
theorem red_max (y : FVec Ideal S10000x128 .f32) (l : Fin 128) :
    multiReduction .maximumf [0] S128 y 0xFF800000#32 reduces_S10000x128_S128 (.inl rfl) rfl (ix1 l)
      = (Finset.univ : Finset (Fin 10000)).fold max (⊥ : EReal) fun k => y (ix2 k l) := by
  refine (Ideal.multiReduction_maximumf_single y 0xFF800000#32 reduces_S10000x128_S128 (.inl rfl) rfl (ix1 l)).trans ?_
  have hb : (FloatOps.ofBits (F := Ideal) .f32 0xFF800000#32 : EReal) = ⊥ := Cert.LibPoolMath.ofBits_neg_inf
  rw [hb]
  have hf : (y ∘ reduces_S10000x128_S128.lift (ix1 l : S128.Idx)) = fun k : Fin 10000 => y (ix2 k l) := by
    funext k; exact congrArg y (lift_eq l k)
  rw [hf]
  rfl

end Cert.KernelIdeal.Read

end
-- ==== Proof.KI.KPay7.lean ====
/-
  The running maximum's update, lane by lane: the larger of the accumulator and the tile's column maximum.
-/
import proofs.«152827_j5093831213700_2_alg».proof.Proof.KI.KRedMax

set_option maxRecDepth 16384

noncomputable section

namespace Cert.KernelIdeal.Read

open Cert.KernelIdeal Cert.KernelIdeal.Gen
open Idealize.ShloMosaic Idealize.ShloMosaic.ValueIdx
open scoped BigOperators

theorem pay7_apply (x : Vec Ideal S1x10000x128 .f32) (s : Vec Ideal S1x128 .f32) (l : Fin 128) :
    k0_pay7 x s (ix2 (0 : Fin 1) l)
      = max (s (ix2 (0 : Fin 1) l)) ((Finset.univ : Finset (Fin 10000)).fold max (⊥ : EReal) fun r => x (ix3 (0 : Fin 1) r l)) := by
  unfold k0_pay7
  simp only [shapeCast_self]
  show FloatOps.maximumf (F := Ideal) (φ := .f32) (s (ix2 (0 : Fin 1) l)) ((shapeCast S1x128 _ shapeCasts_S128_S1x128) (ix2 (0 : Fin 1) l)) = _
  rw [Ideal.maximumf_def, shapeCast_a_1a_apply, red_max]
  exact congrArg (fun g : Fin 10000 → EReal => max (s (ix2 (0 : Fin 1) l)) ((Finset.univ : Finset (Fin 10000)).fold max (⊥ : EReal) g))
    (funext fun k => pay4_apply x k l)

end Cert.KernelIdeal.Read

end
-- ==== Proof.KI.KG.lean ====
/-
  The pooling kernel's three result arrays read down to x, over the extended reals. Row b, lane l of a result array is
  the reset value updated by batch b's five tiles in turn; tile n contributes, in lane l, the rows 10000 n + r (r < 10000)
  of the reshaped x; and row p, lane l of the reshaped x is node 2 p + l / 64, feature l mod 64 of x (a row holds two
  consecutive nodes side by side).
-/
import proofs.«152827_j5093831213700_2_alg».proof.Proof.KI.KArr
import proofs.«152827_j5093831213700_2_alg».proof.Proof.KI.KPay5
import proofs.«152827_j5093831213700_2_alg».proof.Proof.KI.KPay6
import proofs.«152827_j5093831213700_2_alg».proof.Proof.KI.KPay7

set_option maxRecDepth 16384

noncomputable section

namespace Cert.KernelIdeal.Val

open Cert.KernelIdeal Cert.KernelIdeal.Gen Cert.KernelIdeal.Frm Cert.KernelIdeal.Read Idealize.ShloMosaic.ValueIdx
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The reshaped x -/

/-- The region finds the first window's array at the reshape of x. -/
theorem x2_eq (c : Dev nD) :
    (V m c main_v0 : S8x50000x128.Idx → EReal)
      = shapeCast S8x50000x128 (m ((c : Thread nD τ).loc main_arg0)) shapeCasts_S8x100000x64_S8x50000x128 := by
  dsimp only [V, V0]
  simp only [hostOps0, List.flatten_cons, List.flatten_nil, List.append_nil]
  after_results
  rfl

/-- Row p, lane l of the reshaped x is node i = 2 p + l / 64, feature d = l mod 64. -/
theorem reshape_apply (x : FVec Ideal S8x100000x64 .f32) (b : Fin 8) (p : Fin 50000) (l : Fin 128) (i : Fin 100000) (d : Fin 64)
    (hi : i.val = 2 * p.val + l.val / 64) (hd : d.val = l.val % 64) :
    shapeCast S8x50000x128 x shapeCasts_S8x100000x64_S8x50000x128 (ix3 b p l) = x (ix3 b i d) :=
  shapeCast_apply x _ _ _ (by
    rw [Shape.rowMajor_val_three, Shape.rowMajor_val_three]
    show (b.val * 100000 + i.val) * 64 + d.val = (b.val * 50000 + p.val) * 128 + l.val
    omega)

/-! ## A tile's block -/

theorem idx0 : ∀ t : Fin cfg0.N, win0_0.index t (0 : Fin 3) = t.val / 5 ∧ win0_0.index t (1 : Fin 3) = t.val % 5 ∧ win0_0.index t (2 : Fin 3) = 0 :=
  (by decide +kernel : ∀ t : Fin grid0.N, win0_0.index t (0 : Fin 3) = t.val / 5 ∧ win0_0.index t (1 : Fin 3) = t.val % 5 ∧ win0_0.index t (2 : Fin 3) = 0)

/-- Tile n of batch b, row r, lane l: row 10000 n + r of batch b of the array the window stages. -/
theorem blk_apply (c : Dev nD) (b : Fin 8) (n : ℕ) (hn : n < 5) (r : Fin 10000) (l : Fin 128) :
    iblk m c 0 (pt b n hn) (ix3 (0 : Fin 1) r l) = V m c main_v0 (ix3 b (⟨10000 * n + r.val, by omega⟩ : Fin 50000) l) := by
  unfold iblk
  rw [View.read_apply]
  show V m c main_v0 (((cfg0.win 0).blk (pt b n hn)).view.emb (ix3 (0 : Fin 1) r l)) = _
  obtain ⟨e0, e1, e2⟩ := idx0 (pt b n hn)
  have hb := b.isLt
  refine congrArg (V m c main_v0) (funext fun a => Fin.ext ?_)
  match a with
  | ⟨0, _⟩ => show win0_0.index (pt b n hn) (0 : Fin 3) * 1 + 1 * 0 = b.val
              rw [e0]; show (5 * b.val + n) / 5 * 1 + 1 * 0 = b.val; omega
  | ⟨1, _⟩ => show win0_0.index (pt b n hn) (1 : Fin 3) * 10000 + 1 * r.val = 10000 * n + r.val
              rw [e1]; show (5 * b.val + n) % 5 * 10000 + 1 * r.val = 10000 * n + r.val; omega
  | ⟨2, _⟩ => show win0_0.index (pt b n hn) (2 : Fin 3) * 128 + 1 * l.val = l.val
              rw [e2]; omega

/-! ## The result arrays at a row and a lane -/

theorem rowOf_ix (b : Fin 8) (l : Fin 128) : rowOf (ix3 b (0 : Fin 1) l : S8x1x128.Idx) = b := Fin.ext rfl
theorem laneOf_ix (b : Fin 8) (l : Fin 128) : laneOf (ix3 b (0 : Fin 1) l : S8x1x128.Idx) = (ix3 (0 : Fin 1) (0 : Fin 1) l : S1x1x128.Idx) := by
  funext a
  match a with
  | ⟨0, _⟩ => rfl
  | ⟨1, _⟩ => rfl
  | ⟨2, _⟩ => rfl

/-- Lane l of tile n of batch b, as 10000 entries of the staged array. -/
abbrev tileEnt (c : Dev nD) (b : Fin 8) (n : ℕ) (hn : n < 5) (l : Fin 128) (r : Fin 10000) : EReal :=
  iblk m c 0 (pt b n hn) (ix3 (0 : Fin 1) r l)

theorem G1_apply (c : Dev nD) (b : Fin 8) (l : Fin 128) :
    G1 m c (ix3 b (0 : Fin 1) l)
      = ((((0 + ∑ r, tileEnt m c b 0 (by decide) l r) + ∑ r, tileEnt m c b 1 (by decide) l r) + ∑ r, tileEnt m c b 2 (by decide) l r)
          + ∑ r, tileEnt m c b 3 (by decide) l r) + ∑ r, tileEnt m c b 4 (by decide) l r := by
  unfold G1
  rw [rowOf_ix, laneOf_ix, pay8_apply]
  unfold accEnd
  dsimp only [upd, reset]
  rw [pay5_apply, pay5_apply, pay5_apply, pay5_apply, pay5_apply, pay1_apply]

theorem G2_apply (c : Dev nD) (b : Fin 8) (l : Fin 128) :
    G2 m c (ix3 b (0 : Fin 1) l)
      = ((((0 + ∑ r, tileEnt m c b 0 (by decide) l r * tileEnt m c b 0 (by decide) l r) + ∑ r, tileEnt m c b 1 (by decide) l r * tileEnt m c b 1 (by decide) l r)
          + ∑ r, tileEnt m c b 2 (by decide) l r * tileEnt m c b 2 (by decide) l r)
          + ∑ r, tileEnt m c b 3 (by decide) l r * tileEnt m c b 3 (by decide) l r) + ∑ r, tileEnt m c b 4 (by decide) l r * tileEnt m c b 4 (by decide) l r := by
  unfold G2
  rw [rowOf_ix, laneOf_ix, pay9_apply]
  unfold accEnd
  dsimp only [upd, reset]
  rw [pay6_apply, pay6_apply, pay6_apply, pay6_apply, pay6_apply, pay2_apply]

theorem G3_apply (c : Dev nD) (b : Fin 8) (l : Fin 128) :
    G3 m c (ix3 b (0 : Fin 1) l)
      = max (max (max (max (max ⊥ (Finset.univ.fold max ⊥ (tileEnt m c b 0 (by decide) l))) (Finset.univ.fold max ⊥ (tileEnt m c b 1 (by decide) l)))
          (Finset.univ.fold max ⊥ (tileEnt m c b 2 (by decide) l))) (Finset.univ.fold max ⊥ (tileEnt m c b 3 (by decide) l)))
          (Finset.univ.fold max ⊥ (tileEnt m c b 4 (by decide) l)) := by
  unfold G3
  rw [rowOf_ix, laneOf_ix, pay10_apply]
  unfold accEnd
  dsimp only [upd, reset]
  rw [pay7_apply, pay7_apply, pay7_apply, pay7_apply, pay7_apply, pay3_apply]

/-- A tile's lane entry is an entry of x: node 2 (10000 n + r) + h, feature d, in lane 64 h + d. -/
theorem tileEnt_x (c : Dev nD) (b : Fin 8) (n : ℕ) (hn : n < 5) (l : Fin 128) (r : Fin 10000) (i : Fin 100000) (d : Fin 64)
    (hi : i.val = 2 * (10000 * n + r.val) + l.val / 64) (hd : d.val = l.val % 64) :
    tileEnt m c b n hn l r = m ((c : Thread nD τ).loc main_arg0) (ix3 b i d) := by
  show iblk m c 0 (pt b n hn) (ix3 (0 : Fin 1) r l) = _
  rw [blk_apply, x2_eq]
  exact reshape_apply _ b _ l i d hi hd

end Cert.KernelIdeal.Val

end
-- ==== Proof.KI.KHost.lean ====
/-
  The kernel program's three pooled pieces read at batch b and feature d, over the extended reals, as functions of the
  pooling kernel's result arrays (8 x 1 x 128: per batch and lane the sum, the sum of squares, the maximum): lanes d and
  64 + d are the two nodes folded into one 128-lane row, so the mean is (s[d] + s[64+d]) / 100000, the maximum is
  max(mx[d], mx[64+d]), and the standard deviation is sqrt(max((q - s*s/100000)/99999, 0)) of the folded sums.
-/
import proofs.«152827_j5093831213700_2_alg».proof.Proof.KVals
import proofs.«152827_j5093831213700_2_alg».proof.Proof.LibPoolMath
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HostRead

open Cert.KernelIdeal Cert.KernelIdeal.Gen Cert.KernelIdeal.Vals
open Idealize.ShloMosaic Idealize.ShloMosaic.ValueIdx
open scoped BigOperators

/-- Lane d of the first half, lane 64 + d of the second. -/
def lo (d : Fin 64) : Fin 128 := ⟨d.val, by omega⟩
def hi (d : Fin 64) : Fin 128 := ⟨64 + d.val, by omega⟩

/-- Dropping the middle unit axis of an 8 x 1 x 128 array. -/
theorem drop_mid (s : FVec Ideal S8x1x128 .f32) (b : Fin 8) (l : Fin 128) :
    shapeCast S8x128 s shapeCasts_S8x1x128_S8x128 (ix2 b l) = s (ix3 b (0 : Fin 1) l) :=
  shapeCast_apply s _ _ _ (by
    rw [Shape.rowMajor_val_three, Shape.rowMajor_val_two]
    show (b.val * 1 + 0) * 128 + l.val = b.val * 128 + l.val
    omega)

theorem slice_lo (v : FVec Ideal S8x128 .f32) (b : Fin 8) (d : Fin 64) :
    extractStridedSlice S8x64 ![0, 0] v slices_S8x128_S8x64_0_0 (ix2 b d) = v (ix2 b (lo d)) :=
  extractStridedSlice_apply _ v _ _ _ (fun a => by
    match a with
    | ⟨0, _⟩ => show b.val = 0 + b.val; omega
    | ⟨1, _⟩ => show d.val = 0 + d.val; omega)

theorem slice_hi (v : FVec Ideal S8x128 .f32) (b : Fin 8) (d : Fin 64) :
    extractStridedSlice S8x64 ![0, 64] v slices_S8x128_S8x64_0_64 (ix2 b d) = v (ix2 b (hi d)) :=
  extractStridedSlice_apply _ v _ _ _ (fun a => by
    match a with
    | ⟨0, _⟩ => show b.val = 0 + b.val; omega
    | ⟨1, _⟩ => show 64 + d.val = 64 + d.val; rfl)

/-- The two halves of lane-array s folded: s[b, d] + s[b, 64 + d]. -/
def fold2 (s : FVec Ideal S8x1x128 .f32) (b : Fin 8) (d : Fin 64) : EReal := s (ix3 b (0 : Fin 1) (lo d)) + s (ix3 b (0 : Fin 1) (hi d))

theorem kMean_apply (s : FVec Ideal S8x1x128 .f32) (b : Fin 8) (d : Fin 64) :
    kMean s (ix2 b d) = Ideal.div (fold2 s b d) ((100000 : ℝ) : EReal) := by
  unfold kMean fold2
  dsimp only
  simp only [Host.divf, addf, broadcastInDim, constant]
  rw [slice_lo, slice_hi, drop_mid, drop_mid, Ideal.hostDivf_def, Ideal.addf_def, Ideal.ofBits_def, Cert.LibPoolMath.ofBits_1e5]

theorem kMax_apply (mx : FVec Ideal S8x1x128 .f32) (b : Fin 8) (d : Fin 64) :
    kMax mx (ix2 b d) = max (mx (ix3 b (0 : Fin 1) (lo d))) (mx (ix3 b (0 : Fin 1) (hi d))) := by
  unfold kMax
  dsimp only
  simp only [maximumf]
  rw [slice_lo, slice_hi, drop_mid, drop_mid, Ideal.maximumf_def]

theorem kStd_apply (s q : FVec Ideal S8x1x128 .f32) (b : Fin 8) (d : Fin 64) :
    kStd s q (ix2 b d)
      = Ideal.sqrt (max (Ideal.div (fold2 q b d - Ideal.div (fold2 s b d * fold2 s b d) ((100000 : ℝ) : EReal)) ((99999 : ℝ) : EReal)) 0) := by
  unfold kStd fold2
  dsimp only
  simp only [Host.divf, Host.sqrt, addf, subf, mulf, maximumf, broadcastInDim, constant]
  simp only [slice_lo, slice_hi, drop_mid, Ideal.hostDivf_def, Ideal.hostUnary_sqrt_def, Ideal.addf_def, Ideal.subf_def, Ideal.mulf_def,
    Ideal.maximumf_def, Ideal.ofBits_def, Cert.LibPoolMath.ofBits_1e5, Cert.LibPoolMath.ofBits_99999, Ideal.ofBits_zero_f32]

end Cert.KernelIdeal.HostRead

end
-- ==== Proof.RRead.lean ====
/-
  The reference's three pooled pieces read at batch b and feature d over the extended reals: the mean is the sum over
  the 100000 nodes divided by 100000; the maximum is the fold of max from minus infinity over the nodes; the standard
  deviation is the square root of the sum of the squared deviations from the mean divided by 100000 - 1 (the reference's
  guard "if the divisor is positive, else not-a-number" takes the first branch: 99999 > 0).
-/
import proofs.«152827_j5093831213700_2_alg».proof.Proof.RVals
import proofs.«152827_j5093831213700_2_alg».proof.Proof.LibPoolMath
import Idealize.ShloMosaic.PureOps.Ideal
import Idealize.ShloMosaic.PureOps.Ideal.Laws
import Idealize.ShloMosaic.Lib.ValueIdx
import Idealize.ShloMosaic.Lib.Pipeline.Value

set_option maxRecDepth 65536
set_option Elab.async false

noncomputable section

namespace Cert.ReferenceIdeal.Read

open Cert.ReferenceIdeal Cert.ReferenceIdeal.Gen Cert.ReferenceIdeal.Vals
open Idealize.ShloMosaic Idealize.ShloMosaic.ValueIdx
open scoped BigOperators

/-- Reducing 8 x 100000 x 64 over the nodes. -/
theorem red1 : S8x100000x64.Reduces [1] S8x64 := by decide

/-- Batch b, feature d with node n put back. -/
theorem lift1 (b : Fin 8) (d : Fin 64) (n : Fin 100000) : red1.lift (ix2 b d : S8x64.Idx) n = (ix3 b n d : S8x100000x64.Idx) := by
  funext a
  match a with
  | ⟨0, _⟩ => rfl
  | ⟨1, _⟩ => rfl
  | ⟨2, _⟩ => rfl

/-- The host's sum over the nodes from 0. -/
theorem sum_nodes (y : FVec Ideal S8x100000x64 .f32) (b : Fin 8) (d : Fin 64) :
    FloatOps.hostReduceAdd (F := Ideal) [1] reducesTo_S8x100000x64_S8x64_d1 HostSchedule.single y (FloatOps.ofBits .f32 0x00000000#32) (ix2 b d)
      = ∑ n : Fin 100000, y (ix3 b n d) := by
  rw [Ideal.hostReduceAdd_def, Ideal.ofBits_def, Ideal.ofBits_zero_f32, Ideal.hostReduceAdd_single _ red1 y 0 (ix2 b d), zero_add]
  exact Finset.sum_congr rfl fun n _ => congrArg y (lift1 b d n)

theorem rMean_apply (x : FVec Ideal S8x100000x64 .f32) (b : Fin 8) (d : Fin 64) :
    rMean x (ix2 b d) = Ideal.div (∑ n : Fin 100000, x (ix3 b n d)) ((100000 : ℝ) : EReal) := by
  unfold rMean
  simp only [Host.divf, broadcastInDim, constant, Host.reduceAdd]
  rw [Ideal.hostDivf_def, sum_nodes, Ideal.ofBits_def, Cert.LibPoolMath.ofBits_1e5]

theorem rMax_apply (x : FVec Ideal S8x100000x64 .f32) (b : Fin 8) (d : Fin 64) :
    rMax x (ix2 b d) = (Finset.univ : Finset (Fin 100000)).fold max (⊥ : EReal) fun n => x (ix3 b n d) := by
  unfold rMax
  simp only [broadcastInDim]
  rw [Host.reduce_eq_fold_single FloatOps.maximumf x _ reducesTo_S8x100000x64_S8x64_d1 red1 h_S_ (ix2 b d)]
  have hb : (constant S_ .f32 0xFF800000#32 : FVec Ideal S_ .f32) (Shape.Idx.first h_S_) = (⊥ : EReal) := by
    show Ideal.ofBits .f32 0xFF800000#32 = ⊥
    exact Cert.LibPoolMath.ofBits_neg_inf
  rw [hb]
  have hf : (x ∘ red1.lift (ix2 b d : S8x64.Idx)) = fun n : Fin 100000 => x (ix3 b n d) := by
    funext n; exact congrArg x (lift1 b d n)
  rw [hf]
  rfl

/-- The divisor 100000 - 1 as the reference computes it: the count minus the integer 1 made a float. -/
theorem nm1 : FloatOps.subf (F := Ideal) (FloatOps.ofBits .f32 0x47C35000#32) (FloatOps.sitofp .f32 (1#32 : BitVec 32))
    = (((100000 : ℝ) - 1 : ℝ) : EReal) := by
  rw [Ideal.subf_def, Ideal.ofBits_def, Cert.LibPoolMath.ofBits_1e5]
  show ((100000 : ℝ) : EReal) - ((((1#32 : BitVec 32).toInt : ℤ) : ℝ) : EReal) = _
  have h1 : (1#32 : BitVec 32).toInt = 1 := by decide
  rw [h1, Int.cast_one, ← EReal.coe_sub]

/-- The reference's guard "the divisor is positive" holds. -/
theorem guard : FloatOps.cmpf (F := Ideal) .ogt
    (FloatOps.subf (FloatOps.ofBits .f32 0x47C35000#32) (FloatOps.sitofp .f32 (1#32 : BitVec 32))) (FloatOps.ofBits .f32 0x00000000#32) = 1#1 := by
  rw [nm1, Ideal.cmpf_def, Ideal.ofBits_def, Ideal.ofBits_zero_f32]
  have h : (0 : EReal) < (((100000 : ℝ) - 1 : ℝ) : EReal) := by
    rw [← EReal.coe_zero, EReal.coe_lt_coe_iff]; norm_num
  show BitVec.ofBool (decide ((0 : EReal) < (((100000 : ℝ) - 1 : ℝ) : EReal))) = 1#1
  rw [decide_eq_true h]
  rfl

/-- A per-(batch, feature) value broadcast over the nodes, read at node n. -/
theorem bcast_nodes (Mv : FVec Ideal S8x1x64 .f32) (b : Fin 8) (n : Fin 100000) (d : Fin 64) :
    broadcastInDim S8x100000x64 ![0, 1, 2] bcast_S8x1x64_S8x100000x64_0_1_2 Mv (ix3 b n d) = Mv (ix3 b (0 : Fin 1) d) :=
  broadcastInDim_apply _ _ Mv (ix3 b n d) (ix3 b (0 : Fin 1) d) (fun a => by
    match a with
    | ⟨0, _⟩ => rfl
    | ⟨1, _⟩ => rfl
    | ⟨2, _⟩ => rfl)

/-- An 8 x 64 array given a middle unit axis. -/
theorem bcast_mid (S : FVec Ideal S8x64 .f32) (b : Fin 8) (d : Fin 64) :
    broadcastInDim S8x1x64 ![0, 2] bcast_S8x64_S8x1x64_0_2 S (ix3 b (0 : Fin 1) d) = S (ix2 b d) :=
  broadcastInDim_apply _ _ S (ix3 b (0 : Fin 1) d) (ix2 b d) (fun a => by
    match a with
    | ⟨0, _⟩ => rfl
    | ⟨1, _⟩ => rfl)

/-- The host's quotient at an index. -/
theorem divf_at {s : Shape} (A B : FVec Ideal s .f32) (i : s.Idx) : Host.divf A B i = Ideal.div (A i) (B i) := rfl

/-- A scalar constant broadcast to 8 x 1 x 64. -/
theorem bcast_scalar (w : BitVec 32) (i : S8x1x64.Idx) :
    broadcastInDim S8x1x64 ![] bcast_S_S8x1x64 (constant (F := Ideal) S_ .f32 w) i = Ideal.ofBits .f32 w := rfl

/-- The mean, broadcast back over the nodes, read at node n. -/
theorem mean_bcast (x : FVec Ideal S8x100000x64 .f32) (b : Fin 8) (n : Fin 100000) (d : Fin 64) :
    broadcastInDim S8x100000x64 ![0, 1, 2] bcast_S8x1x64_S8x100000x64_0_1_2
        (Host.divf
          (broadcastInDim S8x1x64 ![0, 2] bcast_S8x64_S8x1x64_0_2
            (FloatOps.hostReduceAdd (F := Ideal) [1] reducesTo_S8x100000x64_S8x64_d1 HostSchedule.single x (FloatOps.ofBits .f32 0x00000000#32)))
          (broadcastInDim S8x1x64 ![] bcast_S_S8x1x64 (constant S_ .f32 0x47C35000#32))) (ix3 b n d)
      = Ideal.div (∑ n' : Fin 100000, x (ix3 b n' d)) ((100000 : ℝ) : EReal) :=
  (bcast_nodes _ b n d).trans ((divf_at _ _ _).trans
    (congrArg₂ Ideal.div ((bcast_mid _ b d).trans (sum_nodes x b d)) ((bcast_scalar _ _).trans Cert.LibPoolMath.ofBits_1e5)))

/-- The squared deviation from the mean at node n. -/
theorem sqdev (x : FVec Ideal S8x100000x64 .f32) (Mv : FVec Ideal S8x100000x64 .f32) (i : S8x100000x64.Idx) :
    (mulf (subf x Mv) (subf x Mv)) i = (x i - Mv i) * (x i - Mv i) := rfl

theorem rStd_apply (x : FVec Ideal S8x100000x64 .f32) (b : Fin 8) (d : Fin 64) :
    rStd x (ix2 b d)
      = Ideal.sqrt (Ideal.div
          (∑ n : Fin 100000, (x (ix3 b n d) - Ideal.div (∑ n' : Fin 100000, x (ix3 b n' d)) ((100000 : ℝ) : EReal))
            * (x (ix3 b n d) - Ideal.div (∑ n' : Fin 100000, x (ix3 b n' d)) ((100000 : ℝ) : EReal)))
          (((100000 : ℝ) - 1 : ℝ) : EReal)) := by
  unfold rStd
  simp only [Host.divf, Host.sqrt, broadcastInDim, constant, constantI, Host.reduceAdd, subf, mulf, select, cmpf, sitofp]
  rw [guard]
  unfold Scalar.select
  rw [if_pos (show (1#1 : BitVec 1) = 1 from rfl), Ideal.hostUnary_sqrt_def, Ideal.hostDivf_def, nm1, sum_nodes]
  refine congrArg (fun s => Ideal.sqrt (Ideal.div s (((100000 : ℝ) - 1 : ℝ) : EReal))) ?_
  refine Finset.sum_congr rfl fun n _ => ?_
  rw [sqdev, mean_bcast]

end Cert.ReferenceIdeal.Read

end
-- ==== Proof.Bridge1.lean ====
/-
  The kernel's sums are the reference's. Lanes d and 64 + d of a result row are the even and the odd nodes; a row's lane
  total runs over five tiles of 10000 node pairs; together (half, tile, pair) run over all 100000 nodes once. So the two
  folded lanes of the sum array add up to the sum over the nodes, and those of the sum-of-squares array to the sum of the
  squares; with real data the two formulas of the unbiased standard deviation then agree.
-/
import proofs.«152827_j5093831213700_2_alg».proof.Proof.KI.KG
import proofs.«152827_j5093831213700_2_alg».proof.Proof.KI.KHost
import proofs.«152827_j5093831213700_2_alg».proof.Proof.RRead

set_option maxRecDepth 16384

noncomputable section

namespace Cert.KernelIdeal.Val

open Cert.KernelIdeal Cert.KernelIdeal.Gen Cert.KernelIdeal.Frm Cert.KernelIdeal.Read Cert.KernelIdeal.HostRead Cert.KernelIdeal.Vals Cert.LibPoolMath Idealize.ShloMosaic.ValueIdx
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Lane 64 h + d: feature d of the even (h = 0) or the odd (h = 1) node of a pair. -/
def lane (h : Fin 2) (d : Fin 64) : Fin 128 := ⟨64 * h.val + d.val, by have := h.isLt; have := d.isLt; omega⟩

theorem lane_zero (d : Fin 64) : lane 0 d = lo d := Fin.ext (by show 64 * 0 + d.val = d.val; omega)
theorem lane_one (d : Fin 64) : lane 1 d = hi d := Fin.ext (by show 64 * 1 + d.val = 64 + d.val; omega)

/-- x as the program was started with it. -/
abbrev xOf (c : Dev nD) : S8x100000x64.Idx → EReal := m ((c : Thread nD τ).loc main_arg0)

/-- A tile's lane entry is x at node (half, tile, pair). -/
theorem ent_eq (c : Dev nD) (b : Fin 8) (n : ℕ) (hn : n < 5) (h : Fin 2) (d : Fin 64) (r : Fin 10000) :
    tileEnt m c b n hn (lane h d) r = xOf m c (ix3 b (pairTile (h, ⟨n, hn⟩, r)) d) :=
  tileEnt_x m c b n hn (lane h d) r _ d
    (by rw [pairTile_val]; show 2 * (10000 * n + r.val) + h.val = 2 * (10000 * n + r.val) + (64 * h.val + d.val) / 64
        have := h.isLt; have := d.isLt; omega)
    (by show d.val = (64 * h.val + d.val) % 64; have := d.isLt; omega)

/-- Row b, lane 64 h + d of the sum array: the sum over the tiles and pairs of x at node (h, tile, pair), feature d. -/
theorem G1_lane (c : Dev nD) (b : Fin 8) (h : Fin 2) (d : Fin 64) :
    G1 m c (ix3 b (0 : Fin 1) (lane h d)) = ∑ t : Fin 5, ∑ r : Fin 10000, xOf m c (ix3 b (pairTile (h, t, r)) d) := by
  rw [G1_apply, Fin.sum_univ_five, zero_add]
  simp only [ent_eq]
  rfl

theorem G2_lane (c : Dev nD) (b : Fin 8) (h : Fin 2) (d : Fin 64) :
    G2 m c (ix3 b (0 : Fin 1) (lane h d))
      = ∑ t : Fin 5, ∑ r : Fin 10000, xOf m c (ix3 b (pairTile (h, t, r)) d) * xOf m c (ix3 b (pairTile (h, t, r)) d) := by
  rw [G2_apply, Fin.sum_univ_five, zero_add]
  simp only [ent_eq]
  rfl

/-- The two folded lanes of the sum array add up to the sum over the 100000 nodes. -/
theorem fold_sum (c : Dev nD) (b : Fin 8) (d : Fin 64) :
    fold2 (G1 m c) b d = ∑ n : Fin 100000, xOf m c (ix3 b n d) := by
  unfold fold2
  rw [← lane_zero, ← lane_one, G1_lane, G1_lane, sum_pairTile (fun n => xOf m c (ix3 b n d)), Fin.sum_univ_two]

theorem fold_sq (c : Dev nD) (b : Fin 8) (d : Fin 64) :
    fold2 (G2 m c) b d = ∑ n : Fin 100000, xOf m c (ix3 b n d) * xOf m c (ix3 b n d) := by
  unfold fold2
  rw [← lane_zero, ← lane_one, G2_lane, G2_lane, sum_pairTile (fun n => xOf m c (ix3 b n d) * xOf m c (ix3 b n d)), Fin.sum_univ_two]

/-- The means agree (no finiteness needed: only the grouping of a sum changes). -/
theorem mean_eq (c : Dev nD) : kMean (G1 m c) = Cert.ReferenceIdeal.Vals.rMean (xOf m c) := by
  funext j
  obtain ⟨b, d, rfl⟩ : ∃ (b : Fin 8) (d : Fin 64), j = ix2 b d := ⟨j 0, j 1, eq_ix2 j⟩
  rw [kMean_apply, Cert.ReferenceIdeal.Read.rMean_apply, fold_sum]

/-- The standard deviations agree when x is real-valued. -/
theorem std_eq (c : Dev nD) (hx : ∀ i, ∃ r : ℝ, xOf m c i = (r : EReal)) :
    kStd (G1 m c) (G2 m c) = Cert.ReferenceIdeal.Vals.rStd (xOf m c) := by
  funext j
  obtain ⟨b, d, rfl⟩ : ∃ (b : Fin 8) (d : Fin 64), j = ix2 b d := ⟨j 0, j 1, eq_ix2 j⟩
  rw [kStd_apply, Cert.ReferenceIdeal.Read.rStd_apply, fold_sum, fold_sq]
  choose a ha using fun n : Fin 100000 => hx (ix3 b n d)
  simp only [ha]
  have h := std_two_forms a 100000 (by simp) (by norm_num)
  have e : ((99999 : ℝ) : EReal) = (((100000 : ℝ) - 1 : ℝ) : EReal) := by norm_num
  rw [e]
  exact h

end Cert.KernelIdeal.Val

end
-- ==== Proof.Bridge2.lean ====
/-
  The kernel's maxima are the reference's. A fold of max from minus infinity over a finite set is the supremum; the
  kernel takes it over the 10000 pairs of a tile, then over a batch's five tiles (a running maximum from minus infinity),
  then over the two lane halves, and (half, tile, pair) run over all 100000 nodes once.
-/
import proofs.«152827_j5093831213700_2_alg».proof.Proof.Bridge1

set_option maxRecDepth 16384

noncomputable section

namespace Cert.KernelIdeal.Val

open Cert.KernelIdeal Cert.KernelIdeal.Gen Cert.KernelIdeal.Frm Cert.KernelIdeal.Read Cert.KernelIdeal.HostRead Cert.KernelIdeal.Vals Cert.LibPoolMath Idealize.ShloMosaic.ValueIdx
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A fold of max from minus infinity is the supremum. -/
theorem fold_max_eq_sup {ι : Type} (s : Finset ι) (g : ι → EReal) : s.fold max ⊥ g = s.sup g := by
  classical
  induction s using Finset.induction_on with
  | empty => rfl
  | insert i s hi ih => rw [Finset.fold_insert hi, Finset.sup_insert, ih]

/-- A running maximum from minus infinity over five values is their supremum. -/
theorem sup_fin5 (S : Fin 5 → EReal) : max (max (max (max (max ⊥ (S 0)) (S 1)) (S 2)) (S 3)) (S 4) = Finset.univ.sup S := by
  apply le_antisymm
  · refine max_le (max_le (max_le (max_le (max_le bot_le ?_) ?_) ?_) ?_) ?_ <;> exact Finset.le_sup (f := S) (Finset.mem_univ _)
  · refine Finset.sup_le fun t _ => ?_
    fin_cases t
    · exact le_trans (le_max_right ⊥ (S 0)) (le_trans (le_max_left _ (S 1)) (le_trans (le_max_left _ (S 2)) (le_trans (le_max_left _ (S 3)) (le_max_left _ (S 4)))))
    · exact le_trans (le_max_right _ (S 1)) (le_trans (le_max_left _ (S 2)) (le_trans (le_max_left _ (S 3)) (le_max_left _ (S 4))))
    · exact le_trans (le_max_right _ (S 2)) (le_trans (le_max_left _ (S 3)) (le_max_left _ (S 4)))
    · exact le_trans (le_max_right _ (S 3)) (le_max_left _ (S 4))
    · exact le_max_right _ (S 4)

theorem sup_fin2 (S : Fin 2 → EReal) : max (S 0) (S 1) = Finset.univ.sup S := by
  apply le_antisymm
  · exact max_le (Finset.le_sup (f := S) (Finset.mem_univ _)) (Finset.le_sup (f := S) (Finset.mem_univ _))
  · refine Finset.sup_le fun t _ => ?_
    fin_cases t
    · exact le_max_left _ _
    · exact le_max_right _ _

/-- Row b, lane 64 h + d of the maximum array: the supremum over the tiles and pairs of x at node (h, tile, pair). -/
theorem G3_lane (c : Dev nD) (b : Fin 8) (h : Fin 2) (d : Fin 64) :
    G3 m c (ix3 b (0 : Fin 1) (lane h d))
      = Finset.univ.sup fun t : Fin 5 => Finset.univ.sup fun r : Fin 10000 => xOf m c (ix3 b (pairTile (h, t, r)) d) := by
  rw [G3_apply, ← sup_fin5]
  have e : ∀ (n : ℕ) (hn : n < 5), Finset.univ.fold max ⊥ (tileEnt m c b n hn (lane h d))
      = Finset.univ.sup fun r : Fin 10000 => xOf m c (ix3 b (pairTile (h, ⟨n, hn⟩, r)) d) := fun n hn => by
    rw [fold_max_eq_sup]
    exact congrArg (Finset.univ.sup) (funext fun r => ent_eq m c b n hn h d r)
  rw [e, e, e, e, e]
  rfl

/-- The maxima agree (no finiteness needed). -/
theorem max_eq (c : Dev nD) : kMax (G3 m c) = Cert.ReferenceIdeal.Vals.rMax (xOf m c) := by
  funext j
  obtain ⟨b, d, rfl⟩ : ∃ (b : Fin 8) (d : Fin 64), j = ix2 b d := ⟨j 0, j 1, eq_ix2 j⟩
  rw [kMax_apply, Cert.ReferenceIdeal.Read.rMax_apply, fold_max_eq_sup, sup_pairTile (fun n => xOf m c (ix3 b n d)), ← sup_fin2,
    ← lane_zero, ← lane_one, G3_lane, G3_lane]

end Cert.KernelIdeal.Val

end
-- ==== Proof.LibScatterIdx.lean ====
/-
  Stable HLO's accumulating scatter, read at one index, for a flat vector of scatter indices.

  The scatter adds every update element to the operand element at its RESULT INDEX: on each operand axis the start read
  (signed, not clamped) off the scatter indices plus the update's window coordinate; an update whose result index leaves
  the operand is dropped. For the two layouts of dimension numbers that a flat index vector of length `M` (stored as an
  `M × 1` array) comes with, the result index is explicit:
    • operand a vector of length `N`, updates a vector of length `M`: update `j` lands on element `idx[j, 0]`;
    • operand an `N × K` matrix, updates an `M × K` matrix: update `(j, k)` lands on element `(idx[j, 0], k)`.
  So the scatter's value at an element is the operand's plus the sum of the updates whose index entry names that
  element (its row).
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.LibScatterIdx

/-- An update index `j` lands on operand index `i` exactly when, on every operand axis, the signed start plus the window
    coordinate is `i`'s coordinate: the in-range test of the result index is then automatic, because `i`'s coordinates
    are in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some_inj]
    constructor
    · intro hf a
      have ha := congrArg (fun f : s.Idx => ((f a).val : Int)) hf
      simp only at ha
      rw [← ha]
      exact (Int.toNat_of_nonneg (h a).1).symm
    · intro H
      funext a
      refine Fin.ext ?_
      show (d.start j idx a + (d.window j a : Int)).toNat = (i a).val
      rw [H a]
      exact Int.toNat_natCast _
  · rename_i h
    constructor
    · intro hf
      cases hf
    · intro H
      exfalso
      apply h
      intro a
      rw [H a]
      exact ⟨Int.natCast_nonneg _, by exact_mod_cast (i a).isLt⟩

/-- Vector operand, vector updates, one index entry per update: update `j` lands on element `i` exactly when the index
    entry `idx[j, 0]`, read as a signed integer, is `i`. (The operand's one axis is an inserted window axis, so the window
    coordinate is `0`, and the start on it is the entry the update's own coordinate selects.) -/
theorem resultIdx_vec {N M : Nat}
    (d : ScatterDims (⟨1, ![N]⟩ : Shape) (⟨2, ![M, 1]⟩ : Shape) (⟨1, ![M]⟩ : Shape))
    (huw : d.updateWindowDims = []) (hiw : d.insertedWindowDims = [0])
    (hsd : d.scatterDimsToOperandDims = [0]) (hiv : d.indexVectorDim = 1) {w : Nat}
    (idx : IVec (⟨2, ![M, 1]⟩ : Shape) w) (j : (⟨1, ![M]⟩ : Shape).Idx) (i : (⟨1, ![N]⟩ : Shape).Idx) :
    d.resultIdx? j idx = some i ↔ (idx (ix2 (j 0) 0)).toInt = ((i 0).val : Int) := by
  obtain ⟨uw, iw, sd, iv, wf⟩ := d
  simp only at huw hiw hsd hiv
  subst huw hiw hsd hiv
  have hst : (ScatterDims.mk [] [0] [0] 1 wf).start j idx 0 = (idx (ix2 (j 0) 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk [] [0] [0] 1 wf).window j 0 = 0 := by
    unfold ScatterDims.window
    rw [dif_neg]
    intro h
    exact absurd h (by
      show ¬ ((0 : Fin 1) ∈ ([] : List (Fin 1)))
      exact List.not_mem_nil)
  rw [resultIdx?_eq_some_iff]
  constructor
  · intro H
    have := H 0
    rw [hst, hwin] at this
    simpa using this
  · intro H a
    obtain rfl : a = 0 := Subsingleton.elim _ _
    rw [hst, hwin]
    simpa using H

/-- Matrix operand, matrix updates, one index entry per update row: update `(j₀, j₁)` lands on element `(i₀, i₁)` exactly
    when the index entry `idx[j₀, 0]`, read as a signed integer, is the row `i₀` and the columns agree, `j₁ = i₁`. (The
    operand's row axis is an inserted window axis whose start is the entry the update's row selects; its column axis
    has start `0` and carries the update's column as window coordinate.) -/
theorem resultIdx_rows {N M K : Nat}
    (d : ScatterDims (⟨2, ![N, K]⟩ : Shape) (⟨2, ![M, 1]⟩ : Shape) (⟨2, ![M, K]⟩ : Shape))
    (huw : d.updateWindowDims = [1]) (hiw : d.insertedWindowDims = [0])
    (hsd : d.scatterDimsToOperandDims = [0]) (hiv : d.indexVectorDim = 1) {w : Nat}
    (idx : IVec (⟨2, ![M, 1]⟩ : Shape) w) (j : (⟨2, ![M, K]⟩ : Shape).Idx) (i : (⟨2, ![N, K]⟩ : Shape).Idx) :
    d.resultIdx? j idx = some i ↔
      (idx (ix2 (j 0) 0)).toInt = ((i 0).val : Int) ∧ (j 1).val = (i 1).val := by
  obtain ⟨uw, iw, sd, iv, wf⟩ := d
  simp only at huw hiw hsd hiv
  subst huw hiw hsd hiv
  have hst0 : (ScatterDims.mk [1] [0] [0] 1 wf).start j idx 0 = (idx (ix2 (j 0) 0)).toInt := by
    unfold ScatterDims.start
    rw [dif_pos (List.mem_singleton.mpr rfl)]
    congr 2
    funext b
    refine Fin.ext ?_
    match b with
    | ⟨0, _⟩ => rfl
    | ⟨1, _⟩ => rfl
  have hst1 : (ScatterDims.mk [1] [0] [0] 1 wf).start j idx 1 = 0 := by
    unfold ScatterDims.start
    rw [dif_neg]
    show ¬ ((1 : Fin 2) ∈ ([0] : List (Fin 2)))
    decide
  have hwin0 : (ScatterDims.mk [1] [0] [0] 1 wf).window j 0 = 0 := by
    unfold ScatterDims.window
    rw [dif_neg]
    show ¬ ((0 : Fin 2) ∈ ([1] : List (Fin 2)))
    decide
  have hwin1 : (ScatterDims.mk [1] [0] [0] 1 wf).window j 1 = (j 1).val := by
    unfold ScatterDims.window
    split
    · rfl
    · rename_i h
      exact absurd (show (1 : Fin 2) ∈ ([1] : List (Fin 2)) from List.mem_singleton.mpr rfl) h
  rw [resultIdx?_eq_some_iff]
  constructor
  · intro H
    have h0 := H 0
    have h1 := H 1
    rw [hst0, hwin0] at h0
    rw [hst1, hwin1] at h1
    refine ⟨by simpa using h0, ?_⟩
    have : ((j 1).val : Int) = ((i 1).val : Int) := by simpa using h1
    exact_mod_cast this
  · rintro ⟨H0, H1⟩ a
    match a with
    | ⟨0, _⟩ =>
      show (ScatterDims.mk [1] [0] [0] 1 wf).start j idx 0 + ((ScatterDims.mk [1] [0] [0] 1 wf).window j 0 : Int) = _
      rw [hst0, hwin0]
      simpa using H0
    | ⟨1, _⟩ =>
      show (ScatterDims.mk [1] [0] [0] 1 wf).start j idx 1 + ((ScatterDims.mk [1] [0] [0] 1 wf).window j 1 : Int) = _
      rw [hst1, hwin1, H1]
      simp

/-- The accumulating scatter into a vector, at element `i`, over the extended reals: the operand's element plus the sum
    of the updates `upd j` whose index entry `idx[j, 0]` is `i`. An update whose entry is negative or at least `N` meets no
    `i`: it is dropped. -/
theorem scatterAdd_vec_apply {N M : Nat} {φ : FTy}
    (d : ScatterDims (⟨1, ![N]⟩ : Shape) (⟨2, ![M, 1]⟩ : Shape) (⟨1, ![M]⟩ : Shape))
    (huw : d.updateWindowDims = []) (hiw : d.insertedWindowDims = [0])
    (hsd : d.scatterDimsToOperandDims = [0]) (hiv : d.indexVectorDim = 1) {w : Nat}
    (x : FVec Ideal (⟨1, ![N]⟩ : Shape) φ) (idx : IVec (⟨2, ![M, 1]⟩ : Shape) w)
    (upd : FVec Ideal (⟨1, ![M]⟩ : Shape) φ) (i : (⟨1, ![N]⟩ : Shape).Idx) :
    Host.scatterAdd d x idx upd i =
      x i + ∑ j ∈ Finset.univ.filter
        (fun j : (⟨1, ![M]⟩ : Shape).Idx => (idx (ix2 (j 0) 0)).toInt = ((i 0).val : Int)), upd j := by
  show x i + ∑ j ∈ Finset.univ.filter (fun j => d.resultIdx? j idx = some i), upd j = _
  congr 1
  exact Finset.sum_congr
    (Finset.filter_congr fun j _ => resultIdx_vec d huw hiw hsd hiv idx j i) fun _ _ => rfl

/-- The accumulating scatter of rows into a matrix, at element `(i₀, i₁)`, over the extended reals: the operand's
    element plus the sum of the updates `upd (j₀, j₁)` in column `j₁ = i₁` whose row's index entry `idx[j₀, 0]` is `i₀`. -/
theorem scatterAdd_rows_apply {N M K : Nat} {φ : FTy}
    (d : ScatterDims (⟨2, ![N, K]⟩ : Shape) (⟨2, ![M, 1]⟩ : Shape) (⟨2, ![M, K]⟩ : Shape))
    (huw : d.updateWindowDims = [1]) (hiw : d.insertedWindowDims = [0])
    (hsd : d.scatterDimsToOperandDims = [0]) (hiv : d.indexVectorDim = 1) {w : Nat}
    (x : FVec Ideal (⟨2, ![N, K]⟩ : Shape) φ) (idx : IVec (⟨2, ![M, 1]⟩ : Shape) w)
    (upd : FVec Ideal (⟨2, ![M, K]⟩ : Shape) φ) (i : (⟨2, ![N, K]⟩ : Shape).Idx) :
    Host.scatterAdd d x idx upd i =
      x i + ∑ j ∈ Finset.univ.filter
        (fun j : (⟨2, ![M, K]⟩ : Shape).Idx =>
          (idx (ix2 (j 0) 0)).toInt = ((i 0).val : Int) ∧ (j 1).val = (i 1).val), upd j := by
  show x i + ∑ j ∈ Finset.univ.filter (fun j => d.resultIdx? j idx = some i), upd j = _
  congr 1
  exact Finset.sum_congr
    (Finset.filter_congr fun j _ => resultIdx_rows d huw hiw hsd hiv idx j i) fun _ _ => rfl

end Cert.LibScatterIdx

end
-- ==== Proof.LibSumReindex.lean ====
/-
  Re-indexing filtered finite sums over array indices.

  A sum of the entries `Y j` of an array over the indices `j` at which a companion array `X j` satisfies a predicate does
  not change when both arrays are rearranged by the same bijection of indices. Three rearrangements are read here:
    • a concatenation of four vectors of one length: the sum over the long vector is the sum, over the four pieces, of
      the sum over each piece;
    • a change of shape that keeps the row-major order: the sum over the new shape is the sum over the old one;
    • a matrix summed over the entries of one column whose row satisfies a predicate: the sum over those rows.
-/
import Idealize.ShloMosaic.PureOps.Ideal
import Idealize.ShloMosaic.Lib.Pipeline.Value
import Idealize.ShloMosaic.Lib.ValueIdx

noncomputable section

open scoped BigOperators
open Idealize.ShloMosaic Idealize.ShloMosaic.ValueIdx

namespace Cert.LibSumReindex

/-- Two arrays of one shape read under another shape with the same number of elements (row-major order kept): the sum
    of the second array's entries over the indices where the first array's entry satisfies `P` is the same before and
    after, because the change of shape is a bijection of indices applied to both arrays. -/
theorem sum_filter_shapeCast {s t : Shape} {α β : Type} [AddCommMonoid β] (h : s.ShapeCasts t)
    (X : s.Idx → α) (Y : s.Idx → β) (P : α → Prop) [DecidablePred P] :
    ∑ q ∈ Finset.univ.filter (fun q => P (shapeCast t X h q)), shapeCast t Y h q =
      ∑ p ∈ Finset.univ.filter (fun p => P (X p)), Y p := by
  rw [Finset.sum_filter, Finset.sum_filter]
  exact Equiv.sum_comp (Shape.reshapeEquiv h) (fun p => if P (X p) then Y p else 0)

/-- A matrix summed over the entries `(j₀, j₁)` in column `j₁ = c` whose row `j₀` satisfies `A`: the sum over the rows
    `q` satisfying `A` of the entry `(q, c)`. (The entries of column `c` correspond one to one to the rows.) -/
theorem sum_filter_rows {M K : Nat} {β : Type} [AddCommMonoid β] (g : (⟨2, ![M, K]⟩ : Shape).Idx → β)
    (A : Fin M → Prop) [DecidablePred A] (c : Fin K) :
    ∑ j ∈ @Finset.filter _ (fun j : (⟨2, ![M, K]⟩ : Shape).Idx => A (j 0) ∧ (j 1).val = c.val)
        (fun j => haveI : Decidable (A (j 0)) := ‹DecidablePred A› (j 0); inferInstance) Finset.univ, g j =
      ∑ q ∈ @Finset.filter _ (fun q : (⟨1, ![M]⟩ : Shape).Idx => A (q 0))
        (fun q => ‹DecidablePred A› (q 0)) Finset.univ, g (ix2 (q 0) c) := by
  letI dA2 : ∀ j : (⟨2, ![M, K]⟩ : Shape).Idx, Decidable (A (j 0)) := fun j => ‹DecidablePred A› (j 0)
  letI dA1 : ∀ q : (⟨1, ![M]⟩ : Shape).Idx, Decidable (A (q 0)) := fun q => ‹DecidablePred A› (q 0)
  symm
  refine Finset.sum_bij' (fun q _ => (ix2 (q 0) c : (⟨2, ![M, K]⟩ : Shape).Idx))
    (fun j _ => (ix1 (j 0) : (⟨1, ![M]⟩ : Shape).Idx)) ?_ ?_ ?_ ?_ ?_
  · intro q hq
    rw [Finset.mem_filter] at hq ⊢
    exact ⟨Finset.mem_univ _, hq.2, rfl⟩
  · intro j hj
    rw [Finset.mem_filter] at hj ⊢
    exact ⟨Finset.mem_univ _, hj.2.1⟩
  · intro q _
    exact (eq_ix1 q).symm
  · intro j hj
    rw [Finset.mem_filter] at hj
    funext a
    match a with
    | ⟨0, _⟩ => rfl
    | ⟨1, _⟩ => exact Fin.ext hj.2.2.symm
  · intro q _
    rfl

/-- A length-`n` vector's indices are its coordinates `0, …, n − 1`. -/
def idx1Equiv (n : Nat) : (⟨1, ![n]⟩ : Shape).Idx ≃ Fin n where
  toFun q := q 0
  invFun a := ix1 a
  left_inv q := (eq_ix1 q).symm
  right_inv _ := rfl

/-- A vector of length `N = 4 · M` cut into four consecutive pieces of length `M`: the pair (piece `ch`, position `q` in
    the piece) names the position `ch · M + q` of the long vector, and every position is named once. -/
def chunkEquiv {N M : Nat} (hN : N = 4 * M) :
    Fin 4 × (⟨1, ![M]⟩ : Shape).Idx ≃ (⟨1, ![N]⟩ : Shape).Idx :=
  (Equiv.prodCongr (Equiv.refl (Fin 4)) (idx1Equiv M)).trans
    (finProdFinEquiv.trans ((finCongr hN.symm).trans (idx1Equiv N).symm))

/-- The position the pair (piece `ch`, position `q`) names is `ch · M + q`. -/
theorem chunkEquiv_val {N M : Nat} (hN : N = 4 * M) (ch : Fin 4) (q : (⟨1, ![M]⟩ : Shape).Idx) :
    ((chunkEquiv hN (ch, q)) 0).val = ch.val * M + (q 0).val := by
  show (q 0).val + M * ch.val = ch.val * M + (q 0).val
  rw [Nat.mul_comm, Nat.add_comm]

/-- Four vectors of length `M` laid end to end, read at position `ch · M + q`: the piece `ch` at its position `q` (the
    pieces before it take up `ch · M` positions). -/
theorem concat4_apply {N M : Nat} {γ : Type} (V : Fin 4 → (⟨1, ![M]⟩ : Shape).Idx → γ)
    (hV : Shape.Concatenates (([⟨(⟨1, ![M]⟩ : Shape), V 0⟩, ⟨(⟨1, ![M]⟩ : Shape), V 1⟩, ⟨(⟨1, ![M]⟩ : Shape), V 2⟩,
      ⟨(⟨1, ![M]⟩ : Shape), V 3⟩] : List ((s : Shape) × (s.Idx → γ))).map (·.1)) (⟨1, ![N]⟩ : Shape) 0)
    (ch : Fin 4) (q : (⟨1, ![M]⟩ : Shape).Idx) (j : (⟨1, ![N]⟩ : Shape).Idx)
    (hj : (j 0).val = ch.val * M + (q 0).val) :
    concatenate (⟨1, ![N]⟩ : Shape) 0 [⟨_, V 0⟩, ⟨_, V 1⟩, ⟨_, V 2⟩, ⟨_, V 3⟩] hV j = V ch q := by
  refine concatenate_apply_piece (0 : Fin (⟨1, ![N]⟩ : Shape).rank) _ hV j ch.val ch.isLt (⟨1, ![M]⟩ : Shape) (V ch) ?_ rfl
    (ch.val * M) ?_ q ?_ hj.symm
  · fin_cases ch <;> rfl
  · fin_cases ch
    · show (0 : Nat) = 0 * M
      omega
    · show M + 0 = 1 * M
      omega
    · show M + (M + 0) = 2 * M
      omega
    · show M + (M + (M + 0)) = 3 * M
      omega
  · intro b hb
    exact absurd (Subsingleton.elim _ _) hb

/-- Two lists of four vectors of length `M`, each list laid end to end into a vector of length `N` (so `N = 4 · M`): the
    sum of the second long vector's entries over the positions where the first long vector's entry satisfies `P` is the
    sum over the four pieces of the same filtered sum within the piece — position `ch · M + q` of either long vector is
    position `q` of its piece `ch`, and the positions `ch · M + q` are all the positions, each once. -/
theorem sum_filter_concat4 {N M : Nat} {α β : Type} [AddCommMonoid β]
    (I : Fin 4 → (⟨1, ![M]⟩ : Shape).Idx → α) (U : Fin 4 → (⟨1, ![M]⟩ : Shape).Idx → β)
    (hI : Shape.Concatenates (([⟨(⟨1, ![M]⟩ : Shape), I 0⟩, ⟨(⟨1, ![M]⟩ : Shape), I 1⟩, ⟨(⟨1, ![M]⟩ : Shape), I 2⟩,
      ⟨(⟨1, ![M]⟩ : Shape), I 3⟩] : List ((s : Shape) × (s.Idx → α))).map (·.1)) (⟨1, ![N]⟩ : Shape) 0)
    (hU : Shape.Concatenates (([⟨(⟨1, ![M]⟩ : Shape), U 0⟩, ⟨_, U 1⟩, ⟨_, U 2⟩, ⟨_, U 3⟩] :
      List ((s : Shape) × (s.Idx → β))).map (·.1)) (⟨1, ![N]⟩ : Shape) 0)
    (P : α → Prop) [DecidablePred P] :
    ∑ j ∈ Finset.univ.filter (fun j =>
        P (concatenate (⟨1, ![N]⟩ : Shape) 0 [⟨_, I 0⟩, ⟨_, I 1⟩, ⟨_, I 2⟩, ⟨_, I 3⟩] hI j)),
      concatenate (⟨1, ![N]⟩ : Shape) 0 [⟨_, U 0⟩, ⟨_, U 1⟩, ⟨_, U 2⟩, ⟨_, U 3⟩] hU j =
    ∑ ch : Fin 4, ∑ q ∈ Finset.univ.filter (fun q => P (I ch q)), U ch q := by
  have hN : N = 4 * M := by
    have h := hI.2.2
    have e : (⟨1, ![N]⟩ : Shape).size 0 = N := rfl
    rw [e] at h
    rw [← h]
    show M + (M + (M + (M + 0))) = 4 * M
    omega
  rw [Finset.sum_filter]
  have hR : ∀ ch : Fin 4, ∑ q ∈ Finset.univ.filter (fun q => P (I ch q)), U ch q =
      ∑ q, if P (I ch q) then U ch q else 0 := fun ch => Finset.sum_filter _ _
  rw [Finset.sum_congr rfl fun ch _ => hR ch]
  rw [← Fintype.sum_prod_type (fun p : Fin 4 × (⟨1, ![M]⟩ : Shape).Idx => if P (I p.1 p.2) then U p.1 p.2 else 0)]
  symm
  refine Fintype.sum_equiv (chunkEquiv hN) _ _ ?_
  rintro ⟨ch, q⟩
  rw [concat4_apply I hI ch q _ (chunkEquiv_val hN ch q), concat4_apply U hU ch q _ (chunkEquiv_val hN ch q)]

end Cert.LibSumReindex

end
-- ==== Proof.Bridge3.lean ====
/-
  The histogram's total. With every target index in [0, 100000) the negative-index wrap leaves the index as it is, every
  edge adds its 1 to exactly one bin, and the bins add up to the number of edges, 3200000; divided by 100000 that is 32.
  So the reference's mean degree is the kernel's constant, and the structural rows — which otherwise apply the same
  operations to the same histogram — agree.
-/
import proofs.«152827_j5093831213700_2_alg».proof.Proof.KVals
import proofs.«152827_j5093831213700_2_alg».proof.Proof.RVals
import proofs.«152827_j5093831213700_2_alg».proof.Proof.LibPoolMath
import proofs.«152827_j5093831213700_2_alg».proof.Proof.LibScatterIdx
import proofs.«152827_j5093831213700_2_alg».proof.Proof.LibSumReindex
import Idealize.ShloMosaic.PureOps.Ideal
import Idealize.ShloMosaic.PureOps.Ideal.Laws
import Idealize.ShloMosaic.Lib.ValueIdx
import Idealize.ShloMosaic.Lib.Pipeline.Value

set_option maxRecDepth 65536
set_option Elab.async false

noncomputable section

namespace Cert.Bridge3

open Cert.ReferenceIdeal Cert.ReferenceIdeal.Gen Cert.ReferenceIdeal.Vals Cert.LibPoolMath
open Idealize.ShloMosaic Idealize.ShloMosaic.ValueIdx
open scoped BigOperators

/-- The target indices: row 1 of the edge list, flattened. -/
abbrev tgt (e : IVec S2x3200000 32) : IVec S3200000 32 :=
  shapeCast S3200000 (extractStridedSlice S1x3200000 ![1, 0] e slices_S2x3200000_S1x3200000_1_0) shapeCasts_S1x3200000_S3200000

/-- The index after the negative-index wrap: "if below zero add 100000". -/
abbrev wrapped (e : IVec S2x3200000 32) : IVec S3200000 32 :=
  select (cmpi .slt (tgt e) (broadcastInDim S3200000 ![] bcast_S_S3200000 (constantI S_ 32 0#32)))
    (addi (tgt e) (broadcastInDim S3200000 ![] bcast_S_S3200000 (constantI S_ 32 100000#32))) (tgt e)

theorem ofBool_eq_one (b : Bool) : BitVec.ofBool b = 1#1 ↔ b = true := by cases b <;> decide

theorem not_slt_zero (w : BitVec 32) (h : 0 ≤ w.toInt) : ¬ (IntOp.cmpi .slt w 0#32 = 1) := by
  intro hc
  unfold IntOp.cmpi at hc
  have hc' : BitVec.ofBool (w.slt 0#32) = 1#1 := hc
  rw [ofBool_eq_one] at hc'
  simp only [BitVec.slt, decide_eq_true_eq] at hc'
  have e0 : (0#32 : BitVec 32).toInt = 0 := by decide
  rw [e0] at hc'
  omega

/-- An index that is not negative is not wrapped. -/
theorem wrapped_eq (e : IVec S2x3200000 32) (he : ∀ j, 0 ≤ (tgt e j).toInt ∧ (tgt e j).toInt < 100000) (j : S3200000.Idx) :
    wrapped e j = tgt e j := by
  show Scalar.select (IntOp.cmpi .slt (tgt e j) 0#32) _ (tgt e j) = tgt e j
  unfold Scalar.select
  rw [if_neg (not_slt_zero _ (he j).1)]

/-- The index column the scatter reads, at update j. -/
theorem col_apply (sel : IVec S3200000 32) (j : S3200000.Idx) :
    broadcastInDim S3200000x1 ![0] bcast_S3200000_S3200000x1_0 sel (ix2 (j 0) (0 : Fin 1)) = sel j :=
  broadcastInDim_apply _ _ sel (ix2 (j 0) (0 : Fin 1)) j (fun a => by
    match a with
    | ⟨0, _⟩ => rfl)

/-- A bin of the histogram: the number of edges whose target is that bin. -/
theorem deg_apply (e : IVec S2x3200000 32) (he : ∀ j, 0 ≤ (tgt e j).toInt ∧ (tgt e j).toInt < 100000) (v : S100000.Idx) :
    rDeg (F := Ideal) e v
      = ∑ _j ∈ Finset.univ.filter (fun j : S3200000.Idx => (tgt e j).toInt = ((v 0).val : Int)), (1 : EReal) := by
  unfold rDeg
  dsimp only
  rw [Cert.LibScatterIdx.scatterAdd_vec_apply scatter_S100000_S3200000x1_S3200000_n_0_0_1 rfl rfl rfl rfl]
  have h0 : (broadcastInDim S100000 ![] bcast_S_S100000 (constant (F := Ideal) S_ .f32 0x00000000#32)) v = 0 := by
    show Ideal.ofBits .f32 0x00000000#32 = 0
    exact Ideal.ofBits_zero_f32
  rw [h0, zero_add]
  refine Finset.sum_congr (Finset.filter_congr fun j _ => ?_) fun j _ => ?_
  · show ((broadcastInDim S3200000x1 ![0] bcast_S3200000_S3200000x1_0 (wrapped e)) (ix2 (j 0) (0 : Fin 1))).toInt = _ ↔ _
    rw [col_apply, wrapped_eq e he]
  · show Ideal.ofBits .f32 0x3F800000#32 = 1
    rw [Cert.LibPoolMath.ofBits_one]; rfl

/-- A bin index from a target word in range. -/
def binOf (e : IVec S2x3200000 32) (he : ∀ j, 0 ≤ (tgt e j).toInt ∧ (tgt e j).toInt < 100000) (j : S3200000.Idx) : S100000.Idx :=
  ix1 (⟨(tgt e j).toInt.toNat, by have := he j; omega⟩ : Fin 100000)

theorem card_edges : (Fintype.card S3200000.Idx : ℝ) = 3200000 := by
  rw [Fintype.card_congr (Cert.LibSumReindex.idx1Equiv 3200000), Fintype.card_fin]; norm_num

/-- The bins add up to the number of edges. -/
theorem deg_total (e : IVec S2x3200000 32) (he : ∀ j, 0 ≤ (tgt e j).toInt ∧ (tgt e j).toInt < 100000) :
    ∑ v : S100000.Idx, rDeg (F := Ideal) e v = ((3200000 : ℝ) : EReal) := by
  simp only [deg_apply e he]
  rw [sum_bins_one (fun (j : S3200000.Idx) (v : S100000.Idx) => (tgt e j).toInt = ((v 0).val : Int)) (binOf e he) (fun j v => by
    have hj := he j
    constructor
    · intro h
      rw [eq_ix1 v]
      show ix1 (⟨(tgt e j).toInt.toNat, _⟩ : Fin 100000) = ix1 (v 0)
      congr 1
      apply Fin.ext
      show (tgt e j).toInt.toNat = (v 0).val
      omega
    · intro h
      rw [← h]
      show (tgt e j).toInt = (((tgt e j).toInt.toNat : ℕ) : Int)
      omega), card_edges]

/-- The reference's mean degree is 32. -/
theorem avg_eq (e : IVec S2x3200000 32) (he : ∀ j, 0 ≤ (tgt e j).toInt ∧ (tgt e j).toInt < 100000) :
    (Host.divf (Host.reduceAdd (rDeg (F := Ideal) e) (constant S_ .f32 0x00000000#32) reducesTo_S100000_S_d0 h_S_) (constant S_ .f32 0x47C35000#32)
      : FVec Ideal S_ .f32) = constant S_ .f32 0x42000000#32 := by
  funext i
  show Ideal.div (Ideal.hostReduceAdd reducesTo_S100000_S_d0 (rDeg (F := Ideal) e) (Ideal.ofBits .f32 0x00000000#32) i) (Ideal.ofBits .f32 0x47C35000#32)
    = Ideal.ofBits .f32 0x42000000#32
  rw [Ideal.hostReduceAdd_total reducesTo_S100000_S_d0 (fun b => b.elim0), deg_total e he, Ideal.ofBits_zero_f32, zero_add,
    Cert.LibPoolMath.ofBits_1e5, Cert.LibPoolMath.ofBits_32, Ideal.div_coe (by norm_num : (100000 : ℝ) ≠ 0), ← EReal.coe_mul]
  norm_num

/-- The structural rows agree. -/
theorem struct_eq (e : IVec S2x3200000 32) (he : ∀ j, 0 ≤ (tgt e j).toInt ∧ (tgt e j).toInt < 100000) :
    Cert.KernelIdeal.Vals.kStruct (F := Ideal) (rDeg e) = rStruct (rDeg e) := by
  unfold Cert.KernelIdeal.Vals.kStruct rStruct
  dsimp only
  rw [avg_eq e he]

end Cert.Bridge3

end
-- ==== Proof.Alg.lean ====
/-
  The value claim assembled. The kernel program's result is its pure function of the pooling kernel's three result arrays
  and the arguments; the reference's is its pure function of the arguments. The three pooled pieces agree (sums and maxima
  regrouped; the two variance formulas on real data), the degree histograms are the same operations, the structural rows
  agree because the histogram sums to the number of edges when every target index is in range, and from the pooled
  numbers on both programs apply the same operations.
-/
import proofs.«152827_j5093831213700_2_alg».proof.Defs
import proofs.«152827_j5093831213700_2_alg».proof.Proof.Gen.Pre_finite_inputs
import proofs.«152827_j5093831213700_2_alg».proof.Proof.KI.KFin
import proofs.«152827_j5093831213700_2_alg».proof.Proof.RRes
import proofs.«152827_j5093831213700_2_alg».proof.Proof.PreFacts
import proofs.«152827_j5093831213700_2_alg».proof.Proof.Bridge1
import proofs.«152827_j5093831213700_2_alg».proof.Proof.Bridge2
import proofs.«152827_j5093831213700_2_alg».proof.Proof.Bridge3

set_option maxRecDepth 65536

noncomputable section

namespace Cert.Proof

open Idealize.ShloMosaic Idealize.ShloMosaic.TcCoe Idealize.SL.Sem

/-- From the pooled numbers on, both programs apply the same operations. -/
theorem head_eq (gf : FVec Ideal Cert.KernelIdeal.S8x196 .f32) (w1 : FVec Ideal Cert.KernelIdeal.S196x64 .f32) (b1 : FVec Ideal Cert.KernelIdeal.S64 .f32)
    (w2 : FVec Ideal Cert.KernelIdeal.S64x32 .f32) (b2 : FVec Ideal Cert.KernelIdeal.S32 .f32) (w3 : FVec Ideal Cert.KernelIdeal.S32x1 .f32) (b3 : FVec Ideal Cert.KernelIdeal.S1 .f32) :
    Cert.KernelIdeal.Vals.kHead gf w1 b1 w2 b2 w3 b3 = Cert.ReferenceIdeal.Vals.rHead gf w1 b1 w2 b2 w3 b3 := rfl

theorem front_eq (p1 p2 p3 : FVec Ideal Cert.KernelIdeal.S8x64 .f32) (p4 : FVec Ideal Cert.KernelIdeal.S8x4 .f32) :
    Cert.KernelIdeal.Vals.kFront p1 p2 p3 p4 = Cert.ReferenceIdeal.Vals.rFront p1 p2 p3 p4 := rfl

theorem deg_eq (e : IVec Cert.KernelIdeal.S2x3200000 32) : Cert.KernelIdeal.Vals.kDeg (F := Ideal) e = Cert.ReferenceIdeal.Vals.rDeg e := rfl

/-- The two results are equal when x is real-valued and every target index is in range. -/
theorem results_eq (m : (ℓ : Loc Cert.KernelIdeal.nD Cert.KernelIdeal.τ Cert.KernelIdeal.sig) → Buf (Elt Ideal) ℓ) (c : Dev Cert.KernelIdeal.nD)
    (hx : ∀ i, ∃ r : ℝ, Cert.KernelIdeal.Val.xOf m c i = (r : EReal))
    (he : ∀ j, 0 ≤ (Cert.Bridge3.tgt (m ((c : Thread Cert.KernelIdeal.nD Cert.KernelIdeal.τ).loc Cert.KernelIdeal.main_arg1)) j).toInt
      ∧ (Cert.Bridge3.tgt (m ((c : Thread Cert.KernelIdeal.nD Cert.KernelIdeal.τ).loc Cert.KernelIdeal.main_arg1)) j).toInt < 100000) :
    Cert.KernelIdeal.Val.kOut (Cert.KernelIdeal.Val.G1 m c) (Cert.KernelIdeal.Val.G2 m c) (Cert.KernelIdeal.Val.G3 m c)
        (m ((c : Thread Cert.KernelIdeal.nD Cert.KernelIdeal.τ).loc Cert.KernelIdeal.main_arg1)) (m ((c : Thread Cert.KernelIdeal.nD Cert.KernelIdeal.τ).loc Cert.KernelIdeal.main_arg2))
        (m ((c : Thread Cert.KernelIdeal.nD Cert.KernelIdeal.τ).loc Cert.KernelIdeal.main_arg3)) (m ((c : Thread Cert.KernelIdeal.nD Cert.KernelIdeal.τ).loc Cert.KernelIdeal.main_arg4))
        (m ((c : Thread Cert.KernelIdeal.nD Cert.KernelIdeal.τ).loc Cert.KernelIdeal.main_arg5)) (m ((c : Thread Cert.KernelIdeal.nD Cert.KernelIdeal.τ).loc Cert.KernelIdeal.main_arg6))
        (m ((c : Thread Cert.KernelIdeal.nD Cert.KernelIdeal.τ).loc Cert.KernelIdeal.main_arg7))
      = Cert.ReferenceIdeal.RefRun.rOut (Cert.KernelIdeal.Val.xOf m c) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5))
          (m ((c : Thread Cert.KernelIdeal.nD Cert.KernelIdeal.τ).loc Cert.KernelIdeal.main_arg6)) (m ((c : Thread Cert.KernelIdeal.nD Cert.KernelIdeal.τ).loc Cert.KernelIdeal.main_arg7)) := by
  unfold Cert.KernelIdeal.Val.kOut Cert.ReferenceIdeal.RefRun.rOut
  rw [Cert.KernelIdeal.Val.mean_eq m c, Cert.KernelIdeal.Val.max_eq m c, Cert.KernelIdeal.Val.std_eq m c hx, deg_eq, Cert.Bridge3.struct_eq _ he, front_eq, head_eq]

/-- The idealized kernel program and the idealized reference, run from memories that agree on the arguments, both end,
    with equal results and unchanged arguments. -/
theorem algebraic : Cert.algebraic_KernelIdeal_ReferenceIdeal := by
  intro m ρ m' ρ' hpre hagree
  have hdec := fun c => Cert.PreFacts.decode _ _ _ _ _ _ _ _ (hpre c)
  refine ⟨fun c => Cert.KernelIdeal.Val.kOut (Cert.KernelIdeal.Val.G1 m c) (Cert.KernelIdeal.Val.G2 m c) (Cert.KernelIdeal.Val.G3 m c)
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), Cert.KernelIdeal.Val.run_val (F := Ideal) m ρ, ?_⟩
  refine (θ_run Cert.ReferenceIdeal.defs _ _).mono (fun r h c => ?_) (Cert.ReferenceIdeal.RefRun.run_all (F := Ideal) m' ρ')
  obtain ⟨a0, a1, a2, a3, a4, a5, a6, a7⟩ := hagree c
  refine ⟨?_, (h c Cert.ReferenceIdeal.main_arg0).trans (Cert.ReferenceIdeal.RefRun.kept_arg0 _), (h c Cert.ReferenceIdeal.main_arg1).trans (Cert.ReferenceIdeal.RefRun.kept_arg1 _),
    (h c Cert.ReferenceIdeal.main_arg2).trans (Cert.ReferenceIdeal.RefRun.kept_arg2 _), (h c Cert.ReferenceIdeal.main_arg3).trans (Cert.ReferenceIdeal.RefRun.kept_arg3 _),
    (h c Cert.ReferenceIdeal.main_arg4).trans (Cert.ReferenceIdeal.RefRun.kept_arg4 _), (h c Cert.ReferenceIdeal.main_arg5).trans (Cert.ReferenceIdeal.RefRun.kept_arg5 _),
    (h c Cert.ReferenceIdeal.main_arg6).trans (Cert.ReferenceIdeal.RefRun.kept_arg6 _), (h c Cert.ReferenceIdeal.main_arg7).trans (Cert.ReferenceIdeal.RefRun.kept_arg7 _)⟩
  refine (h c Cert.ReferenceIdeal.main_v61).trans ((Cert.ReferenceIdeal.RefRun.out_mem m' c).trans ?_)
  rw [a0, a1, a2, a3, a4, a5, a6, a7]
  exact (results_eq m c (hdec c).1 (hdec c).2).symm

end Cert.Proof

end
-- ==== Proof.lean ====
/-
  A graph-pooling head: per batch and feature the mean, the maximum and the unbiased standard deviation of x over
  100000 nodes; the in-degree histogram of 3.2 million edges and its mean and standard deviation; two constants; a
  three-layer network on the 196 pooled numbers; a rounded and an unrounded batch mean. The kernel computes the
  per-(batch, lane) sum, sum of squares and maximum of x viewed as 50000 rows of two nodes each, in five tiles of
  10000 rows with three carried accumulators, folds the two lane halves on the host, takes the variance as
  (sum of squares - sum^2 / N) / (N - 1) clamped at 0, and writes the mean degree as the constant E / N = 32; the
  reference uses the textbook forms (centred squares; the histogram's own mean).

  Over the extended reals the two agree when x is finite and every target index edge_index[1] lies in [0, 100000):
  sums and maxima may be regrouped; sum (x - mean)^2 = sum x^2 - (sum x)^2 / N, which is nonnegative, so the clamp
  does not bind; every edge lands in exactly one bin, so the histogram sums to E. Without the index range the mean
  degree differs (an out-of-range update is dropped by the scatter), which is why the precondition states the range.

  The parts: each of the three programs terminates without a fault and leaves its eight argument arrays unchanged (the
  reference as a straight line of 129 host operations; the kernel program, at the word level and idealized, by a run
  that names no buffer's contents); the idealization rewrote nothing; and the two idealized programs' results are equal
  (the kernel's run with every accumulator's contents named, its three result arrays read down to x, and the regrouping
  and variance identities above).
-/
import proofs.«152827_j5093831213700_2_alg».proof.Defs
import proofs.«152827_j5093831213700_2_alg».proof.Proof.Gen.Kernel
import proofs.«152827_j5093831213700_2_alg».proof.Proof.Gen.KernelIdeal
import proofs.«152827_j5093831213700_2_alg».proof.Proof.Gen.ReferenceIdeal
import proofs.«152827_j5093831213700_2_alg».proof.Proof.Gen.Pre_finite_inputs
import proofs.«152827_j5093831213700_2_alg».proof.Proof.K.Frame
import proofs.«152827_j5093831213700_2_alg».proof.Proof.KI.Frame
import proofs.«152827_j5093831213700_2_alg».proof.Proof.RefRun
import proofs.«152827_j5093831213700_2_alg».proof.Proof.Alg

noncomputable section

namespace Cert.Proof

open Idealize.ShloMosaic Idealize.SL.Sem

/-- The word-level program runs to its end and keeps its arguments. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- So does the reference. -/
theorem frame_ri : Cert.frame_ReferenceIdeal := fun m ρ _ => Cert.ReferenceIdeal.RefRun.frame m ρ

/-- The ideal pass rewrote no operation: there is nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
